-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg7 : FVec F S128 .f32) (main_arg11 : FVec F S64 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S128 .f32 := broadcastInDim S128 ![] bcast_S_S128 main_cst_26
  let main_v70 : IVec S128 1 := cmpf .oge main_arg7 main_v69
  let main_c_27 : IVec S_ 1 := constantI S_ 1 1#1
  let main_v71 : IVec S_ 1 := (fun x v => Host.reduce IntOp.andi x v reducesTo_S128_S_d0 h_S_) main_v70 main_c_27
  let main_v72 : IVec S_ 1 := andi main_v68 main_v71
  let main_cst_28 : FVec F S_ .f32 := constant S_ .f32 0x00000000#32
  let main_v73 : FVec F S64 .f32 := broadcastInDim S64 ![] bcast_S_S64 main_cst_28
  let main_v74 : IVec S64 1 := cmpf .oge main_arg11 main_v73
  let main_c_29 : IVec S_ 1 := constantI S_ 1 1#1
  let main_v75 : IVec S_ 1 := (fun x v => Host.reduce IntOp.andi x v reducesTo_S64_S_d0 h_S_) main_v74 main_c_29
  let main_v76 : IVec S_ 1 := andi main_v72 main_v75
  main_v76

def fn_part3 {F : FTy → Type} [FloatOps F] (main_arg7 : FVec F S128 .f32) (main_arg11 : FVec F S64 .f32) (main_arg12 : FVec F S1x64 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S1x64 .f32 := Host.absf main_arg12
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg7 main_arg11 main_v63 main_v67

def fn_part2 {F : FTy → Type} [FloatOps F] (main_arg7 : FVec F S128 .f32) (main_arg8 : FVec F S64 .f32) (main_arg9 : FVec F S64 .f32) (main_arg10 : FVec F S64 .f32) (main_arg11 : FVec F S64 .f32) (main_arg12 : FVec F S1x64 .f32) (main_arg13 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg7 main_arg11 main_arg12 main_arg13 main_v48 main_v49 main_v50

def fn_part1 {F : FTy → Type} [FloatOps F] (main_arg4 : FVec F S128 .f32) (main_arg5 : FVec F S128 .f32) (main_arg6 : FVec F S128 .f32) (main_arg7 : FVec F S128 .f32) (main_arg8 : FVec F S64 .f32) (main_arg9 : FVec F S64 .f32) (main_arg10 : FVec F S64 .f32) (main_arg11 : FVec F S64 .f32) (main_arg12 : FVec F S1x64 .f32) (main_arg13 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S128x128 .f32) (main_arg3 : FVec F S128x64 .f32) (main_arg4 : FVec F S128 .f32) (main_arg5 : FVec F S128 .f32) (main_arg6 : FVec F S128 .f32) (main_arg7 : FVec F S128 .f32) (main_arg8 : FVec F S64 .f32) (main_arg9 : FVec F S64 .f32) (main_arg10 : FVec F S64 .f32) (main_arg11 : FVec F S64 .f32) (main_arg12 : FVec F S1x64 .f32) (main_arg13 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S1x64 : Shape := ⟨2, ![1, 64]⟩
abbrev S1 : Shape := ⟨1, ![1]⟩
abbrev S_ : Shape := ⟨0, ![]⟩
abbrev S1x128 : Shape := ⟨2, ![1, 128]⟩
abbrev S64x1 : Shape := ⟨2, ![64, 1]⟩
abbrev S1x1 : Shape := ⟨2, ![1, 1]⟩
abbrev S5000x64 : Shape := ⟨2, ![5000, 64]⟩
abbrev S200x10000 : Shape := ⟨2, ![200, 10000]⟩
abbrev S200x64 : Shape := ⟨2, ![200, 64]⟩
abbrev S200x128 : Shape := ⟨2, ![200, 128]⟩
abbrev S5000x1 : Shape := ⟨2, ![5000, 1]⟩
abbrev S200x1 : Shape := ⟨2, ![200, 1]⟩
abbrev S200x5000 : Shape := ⟨2, ![200, 5000]⟩
abbrev S10000x64 : Shape := ⟨2, ![10000, 64]⟩
abbrev S10000x1 : Shape := ⟨2, ![10000, 1]⟩

abbrev nBuf : Space → Nat
  | .hbm => 44
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S1, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S64, .f32⟩
  | .hbm, ⟨31, _⟩ => ⟨S1x64, .f32⟩
  | .hbm, ⟨32, _⟩ => ⟨S64x1, .f32⟩
  | .hbm, ⟨33, _⟩ => ⟨S1x1, .f32⟩
  | .hbm, ⟨34, _⟩ => ⟨S128x128, .bf16⟩
  | .hbm, ⟨35, _⟩ => ⟨S128x64, .bf16⟩
  | .hbm, ⟨36, _⟩ => ⟨S5000x64, .bf16⟩
  | .hbm, ⟨37, _⟩ => ⟨S5000x64, .bf16⟩
  | .hbm, ⟨38, _⟩ => ⟨S5000x64, .f32⟩
  | .hbm, ⟨39, _⟩ => ⟨S5000x64, .f32⟩
  | .hbm, ⟨40, _⟩ => ⟨S5000x1, .f32⟩
  | .hbm, ⟨41, _⟩ => ⟨S5000x1, .f32⟩
  | .hbm, ⟨42, _⟩ => ⟨S10000x64, .f32⟩
  | .hbm, ⟨43, _⟩ => ⟨S10000x1, .f32⟩
  | .local _ .vmem, ⟨0, _⟩ => ⟨S10000x128, .f32⟩
  | .local _ .vmem, ⟨1, _⟩ => ⟨S128x128, .bf16⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S1x128, .f32⟩
  | .local _ .vmem, ⟨7, _⟩ => ⟨S1x128, .f32⟩
  | .local _ .vmem, ⟨8, _⟩ => ⟨S128x64, .bf16⟩
  | .local _ .vmem, ⟨9, _⟩ => ⟨S200x64, .bf16⟩
  | .local _ .vmem, ⟨10, _⟩ => ⟨S200x64, .bf16⟩
  | .local _ .vmem, ⟨11, _⟩ => ⟨S200x64, .bf16⟩
  | .local _ .vmem, ⟨12, _⟩ => ⟨S200x64, .bf16⟩
  | .local _ .vmem, ⟨13, _⟩ => ⟨S10000x128, .bf16⟩
  | .local _ .vmem, ⟨14, _⟩ => ⟨S200x10000, .f32⟩
  | .local _ .vmem, ⟨15, _⟩ => ⟨S200x10000, .f32⟩
  | .local _ .vmem, ⟨16, _⟩ => ⟨S200x10000, .f32⟩
  | .local _ .vmem, ⟨17, _⟩ => ⟨S200x10000, .f32⟩
  | .local _ .vmem, ⟨18, _⟩ => ⟨S5000x64, .bf16⟩
  | .local _ .vmem, ⟨19, _⟩ => ⟨S5000x64, .bf16⟩
  | .local _ .vmem, ⟨20, _⟩ => ⟨S1x64, .f32⟩
  | .local _ .vmem, ⟨21, _⟩ => ⟨S1x64, .f32⟩
  | .local _ .vmem, ⟨22, _⟩ => ⟨S64x1, .f32⟩
  | .local _ .vmem, ⟨23, _⟩ => ⟨S1x1, .f32⟩
  | .local _ .vmem, ⟨24, _⟩ => ⟨S200x64, .f32⟩
  | .local _ .vmem, ⟨25, _⟩ => ⟨S200x64, .f32⟩
  | .local _ .vmem, ⟨26, _⟩ => ⟨S200x64, .f32⟩
  | .local _ .vmem, ⟨27, _⟩ => ⟨S200x64, .f32⟩
  | .local _ .vmem, ⟨28, _⟩ => ⟨S200x1, .f32⟩
  | .local _ .vmem, ⟨29, _⟩ => ⟨S200x1, .f32⟩
  | .local _ .vmem, ⟨30, _⟩ => ⟨S200x1, .f32⟩
  | .local _ .vmem, ⟨31, _⟩ => ⟨S200x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v21_0 : Ref sig .tc := ⟨.hbm, 38, rfl⟩
abbrev main_v21_1 : Ref sig .tc := ⟨.hbm, 39, rfl⟩
abbrev main_v21_2 : Ref sig .tc := ⟨.hbm, 40, rfl⟩
abbrev main_v21_3 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28
abbrev cc1_sem11_0 : DmaSem sig := 29
abbrev cc1_sem11_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S200x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S200x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5000x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5000x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S200x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S200x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S200x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S200x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S128 : S_.BroadcastsInDim S128 (![] : Fin 0 → Fin S128.rank)
  shapeCasts_S128_S1x128 : S128.ShapeCasts S1x128
  bcast_S_S64 : S_.BroadcastsInDim S64 (![] : Fin 0 → Fin S64.rank)
  shapeCasts_S64_S1x64 : S64.ShapeCasts S1x64
  transposes_S1x64_S64x1_1_0 : S1x64.Transposes [1, 0] S64x1
  shapeCasts_S1_S1x1 : S1.ShapeCasts S1x1
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  slices_S200x10000_o0_0_S200x5000 : S200x10000.Slices ![0, 0] S200x5000
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S200x10000_o0_5000_S200x5000 : S200x10000.Slices ![0, 5000] S200x5000
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S200x1 : S1x1.Broadcasts S200x1
  inb_S200x1_S200x1_0_0 : ∀ a, (![0, 0] : Fin 2 → Nat) a + S200x1.size a ≤ S200x1.size a
  h_S200x1 : 0 < S200x1.numel
  concatenates_S5000x64_S5000x64_S10000x64_d0 : Shape.Concatenates [S5000x64, S5000x64] S10000x64 0
  concatenates_S5000x1_S5000x1_S10000x1_d0 : Shape.Concatenates [S5000x1, S5000x1] S10000x1 0
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S200x5000_S5000x64_S200x64_1_0_0_1_n_n_wf : DotDims.WF S200x5000 S5000x64 S200x64 [1] [0] [0] [1] [] []
  dot_S200x64_S64x1_S200x1_1_0_0_1_n_n_wf : DotDims.WF S200x64 S64x1 S200x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x64.size a ≤ S5000x64.size a
  hwx0_7 : ∀ i : grid0.Coords, EltTy.bits .bf16 = 32 ∨ (Rect.block (s := S5000x64) S200x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x64.size a ≤ S5000x64.size a
  hwx0_8 : ∀ i : grid0.Coords, EltTy.bits .bf16 = 32 ∨ (Rect.block (s := S5000x64) S200x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S5000x64.size a
  hwx1_2 : ∀ i : grid1.Coords, EltTy.bits .bf16 = 32 ∨ (Rect.block (s := S5000x64) S5000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S5000x64.size a
  hwx1_3 : ∀ i : grid1.Coords, EltTy.bits .bf16 = 32 ∨ (Rect.block (s := S5000x64) S5000x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S200x64.size a ≤ S5000x64.size a
  hwx1_8 : ∀ i : grid1.Coords, EltTy.bits .f32 = 32 ∨ (Rect.block (s := S5000x64) S200x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S200x64.size a ≤ S5000x64.size a
  hwx1_9 : ∀ i : grid1.Coords, EltTy.bits .f32 = 32 ∨ (Rect.block (s := S5000x64) S200x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S200x1.size a ≤ S5000x1.size a
  hwx1_10 : ∀ i : grid1.Coords, EltTy.bits .f32 = 32 ∨ (Rect.block (s := S5000x1) S200x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S200x1.size a ≤ S5000x1.size a
  hwx1_11 : ∀ i : grid1.Coords, EltTy.bits .f32 = 32 ∨ (Rect.block (s := S5000x1) S200x1.size (cc1_transform_11 i) (hinb1_11 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x5000_S5000x64_S200x64_1_0_0_1_n_n : DotDims S200x5000 S5000x64 S200x64 where
  lhsContracting := [1]
  rhsContracting := [0]
  lhsNonContracting := [0]
  rhsNonContracting := [1]
  lhsBatch := []
  rhsBatch := []
  wf := dot_S200x5000_S5000x64_S200x64_1_0_0_1_n_n_wf
def dot_S200x64_S64x1_S200x1_1_0_0_1_n_n : DotDims S200x64 S64x1 S200x1 where
  lhsContracting := [1]
  rhsContracting := [0]
  lhsNonContracting := [0]
  rhsNonContracting := [1]
  lhsBatch := []
  rhsBatch := []
  wf := dot_S200x64_S64x1_S200x1_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_0) S200x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20_1) S200x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20_0) S5000x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20_1) S5000x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21_0) S200x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v21_1) S200x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v21_2) S200x1.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v21_3) S200x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S1x64 : Shape := ⟨2, ![1, 64]⟩
abbrev S1 : Shape := ⟨1, ![1]⟩
abbrev S1x128 : Shape := ⟨2, ![1, 128]⟩
abbrev S_ : Shape := ⟨0, ![]⟩
abbrev S10000x64 : Shape := ⟨2, ![10000, 64]⟩
abbrev S64x1 : Shape := ⟨2, ![64, 1]⟩
abbrev S10000x1 : Shape := ⟨2, ![10000, 1]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S1, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S10000x64, .f32⟩
  | .hbm, ⟨36, _⟩ => ⟨S10000x64, .f32⟩
  | .hbm, ⟨37, _⟩ => ⟨S1x64, .f32⟩
  | .hbm, ⟨38, _⟩ => ⟨S10000x64, .f32⟩
  | .hbm, ⟨39, _⟩ => ⟨S10000x64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S1x64, .f32⟩
  | .hbm, ⟨45, _⟩ => ⟨S10000x64, .f32⟩
  | .hbm, ⟨46, _⟩ => ⟨S10000x64, .f32⟩
  | .hbm, ⟨47, _⟩ => ⟨S1x64, .f32⟩
  | .hbm, ⟨48, _⟩ => ⟨S10000x64, .f32⟩
  | .hbm, ⟨49, _⟩ => ⟨S10000x64, .f32⟩
  | .hbm, ⟨50, _⟩ => ⟨S1x64, .f32⟩
  | .hbm, ⟨51, _⟩ => ⟨S10000x64, .f32⟩
  | .hbm, ⟨52, _⟩ => ⟨S10000x64, .f32⟩
  | .hbm, ⟨53, _⟩ => ⟨S64x1, .f32⟩
  | .hbm, ⟨54, _⟩ => ⟨S10000x1, .f32⟩
  | .hbm, ⟨55, _⟩ => ⟨S1x1, .f32⟩
  | .hbm, ⟨56, _⟩ => ⟨S10000x1, .f32⟩
  | .hbm, ⟨57, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S128 : S_.BroadcastsInDim S128 (![] : Fin 0 → Fin S128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S64 : S_.BroadcastsInDim S64 (![] : Fin 0 → Fin S64.rank)
  transposes_S1x64_S64x1_1_0 : S1x64.Transposes [1, 0] S64x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x1_S10000x1_1_0_0_1_n_n_wf : DotDims.WF S10000x64 S64x1 S10000x1 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.Bits.Pass1Body.lean ====
/-
  The first aggregation's kernel body as Hoare triples, at any float instance.

  One grid point of the first pallas_call handles two row blocks of the adjacency (one from the top half, one
  from the bottom half). The product support = x · W1 (10000 × 128) lives in a scratch buffer that persists
  from one grid point to the next: the first grid point computes and stores it, every later point only reads
  it. For each row block B (200 × 10000) the body forms

      h = max (B · support * s1 + sh1) 0          (200 × 128)
      t = h · W2                                   (200 × 64)

  and overwrites one whole output buffer with t. So there are two cases: at the first point the scratch ends at
  the freshly stored support and both outputs are computed from it; at a later point the scratch is left as
  found and both outputs are computed from what it held. The arithmetic stays folded inside the generated
  payload terms.
-/
import proofs.«152953_g41188736369293_cont_8to1_b_1949_15_alg».proof.Proof.Gen.Kernel.Launch
import proofs.«152953_g41188736369293_cont_8to1_b_1949_15_alg».proof.Proof.Gen.Kernel.Skeleton
import proofs.«152953_g41188736369293_cont_8to1_b_1949_15_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rS10000x128 : Rect S10000x128 := Rect.unit (s := S10000x128) ![0, 0] S10000x128.size inb_S10000x128_S10000x128_0_0
abbrev rS128x128 : Rect S128x128 := Rect.unit (s := S128x128) ![0, 0] S128x128.size inb_S128x128_S128x128_0_0
abbrev rS200x10000 : Rect S200x10000 := Rect.unit (s := S200x10000) ![0, 0] S200x10000.size inb_S200x10000_S200x10000_0_0
abbrev rS1x128 : Rect S1x128 := Rect.unit (s := S1x128) ![0, 0] S1x128.size inb_S1x128_S1x128_0_0
abbrev rS128x64 : Rect S128x64 := Rect.unit (s := S128x64) ![0, 0] S128x64.size inb_S128x64_S128x64_0_0
abbrev rS200x64 : Rect S200x64 := Rect.unit (s := S200x64) ![0, 0] S200x64.size inb_S200x64_S200x64_0_0

/-! ## What the buffers hold after the body -/

/-- The scratch after the first grid point: x · W1, stored whole. -/
def support (x1 : Vec F S10000x128 .f32) (x2 : Vec F S128x128 .bf16) : Vec F S10000x128 .bf16 :=
  View.canon [⟨rS10000x128, k0_pay2 (View.ld x1 rS10000x128) (View.ld x2 rS128x128)⟩]
/-- t for the top-half row block, from the scratch contents `s`. -/
def oA (x3 : Vec F S200x10000 .f32) (s : Vec F S10000x128 .bf16) (x5 x6 : Vec F S1x128 .f32) (x7 : Vec F S128x64 .bf16) : Vec F S200x64 .bf16 :=
  View.canon [⟨rS200x64, k0_pay3 (View.ld x3 rS200x10000) (View.ld s rS10000x128) (View.ld x5 rS1x128) (View.ld x6 rS1x128) (View.ld x7 rS128x64)⟩]
/-- t for the bottom-half row block, from the scratch contents `s`. -/
def oB (x4 : Vec F S200x10000 .f32) (s : Vec F S10000x128 .bf16) (x5 x6 : Vec F S1x128 .f32) (x7 : Vec F S128x64 .bf16) : Vec F S200x64 .bf16 :=
  View.canon [⟨rS200x64, k0_pay1 (k0_pay4 (View.ld x4 rS200x10000) (View.ld s rS10000x128) (View.ld x5 rS1x128)) (View.ld x6 rS1x128) (View.ld x7 rS128x64)⟩]

/-- A single whole-buffer store covers the buffer. -/
theorem cover_out (p0 : Vec F S200x64 .bf16) (y : S200x64.Idx) :
    ∃ pc ∈ ([⟨rS200x64, p0⟩] : List (View.Piece (Elt F) S200x64 .bf16)), y ∈ pc.1.set :=
  View.cover_of_tiled [⟨rS200x64, p0⟩] S200x64.size (by rfl) y
theorem cover_scratch (p0 : Vec F S10000x128 .bf16) (y : S10000x128.Idx) :
    ∃ pc ∈ ([⟨rS10000x128, p0⟩] : List (View.Piece (Elt F) S10000x128 .bf16)), y ∈ pc.1.set :=
  View.cover_of_tiled [⟨rS10000x128, p0⟩] S10000x128.size (by rfl) y

/-! ## The body's triples -/

set_option maxHeartbeats 1000000 in
/-- A later grid point: the scratch is read, never written. -/
theorem body_later (c : Dev nD) (E : Set ℕ) (i : grid0.Coords) (hc : ¬ Scalar.cmpi .ne (Scalar.extui (Scalar.cmpi .eq (BitVec.ofNat 32 (i 0).val) 0#32)) 0#32 = 1#1) (arg1 : Memref sig .tc .vmem S10000x128 .f32) (harg1 : arg1.IsWhole) (arg2 : Memref sig .tc .vmem S128x128 .bf16) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x64 .bf16) (harg7 : arg7.IsWhole) (arg8 : Memref sig .tc .vmem S200x64 .bf16) (harg8 : arg8.IsWhole) (arg9 : Memref sig .tc .vmem S200x64 .bf16) (harg9 : arg9.IsWhole) (arg10 : Memref sig .tc .vmem S10000x128 .bf16) (harg10 : arg10.IsWhole)
    (x1 : Vec F S10000x128 .f32) (x2 : Vec F S128x128 .bf16) (x3 : Vec F S200x10000 .f32) (x4 : Vec F S200x10000 .f32) (x5 : Vec F S1x128 .f32) (x6 : Vec F S1x128 .f32) (x7 : Vec F S128x64 .bf16) (s : Vec F S10000x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (oA x3 s x5 x6 x7) ∗ owns (c : Thread nD τ) arg9 fullShare (oB x4 s x5 x6 x7) ∗ owns (c : Thread nD τ) arg10 fullShare s) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  subst hf1 hf2 hf3 hf4 hf5 hf6 hf7 hf10
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_out _)
  isplitl [H9]
  · iexists _; isplitr
    swap; · iexact H9
    ipureintro
    exact View.read_writes_eq_canon _ _ _ (cover_out _)
  iexists f10; isplitr; · ipureintro; rfl
  iexact H10

set_option maxHeartbeats 1000000 in
/-- The first grid point: the scratch, whatever it held, is overwritten with x · W1 before anything reads it. -/
theorem body_first (c : Dev nD) (E : Set ℕ) (i : grid0.Coords) (hc : Scalar.cmpi .ne (Scalar.extui (Scalar.cmpi .eq (BitVec.ofNat 32 (i 0).val) 0#32)) 0#32 = 1#1) (arg1 : Memref sig .tc .vmem S10000x128 .f32) (harg1 : arg1.IsWhole) (arg2 : Memref sig .tc .vmem S128x128 .bf16) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x64 .bf16) (harg7 : arg7.IsWhole) (arg8 : Memref sig .tc .vmem S200x64 .bf16) (harg8 : arg8.IsWhole) (arg9 : Memref sig .tc .vmem S200x64 .bf16) (harg9 : arg9.IsWhole) (arg10 : Memref sig .tc .vmem S10000x128 .bf16) (harg10 : arg10.IsWhole)
    (x1 : Vec F S10000x128 .f32) (x2 : Vec F S128x128 .bf16) (x3 : Vec F S200x10000 .f32) (x4 : Vec F S200x10000 .f32) (x5 : Vec F S1x128 .f32) (x6 : Vec F S1x128 .f32) (x7 : Vec F S128x64 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (oA x3 (support x1 x2) x5 x6 x7) ∗ owns (c : Thread nD τ) arg9 fullShare (oB x4 (support x1 x2) x5 x6 x7) ∗ owns (c : Thread nD τ) arg10 fullShare (support x1 x2)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf1 hf2 hf3 hf4 hf5 hf6 hf7
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.readCov_eq_canon_ld _ _ _ (cover_scratch _)]
    exact View.read_writes_eq_canon _ _ _ (cover_out _)
  isplitl [H9]
  · iexists _; isplitr
    swap; · iexact H9
    ipureintro
    rw [View.readCov_eq_canon_ld _ _ _ (cover_scratch _)]
    exact View.read_writes_eq_canon _ _ _ (cover_out _)
  iexists _; isplitr
  swap; · iexact H10
  ipureintro
  exact View.read_writes_eq_canon _ _ _ (cover_scratch _)

end Cert.Kernel.Pass1

end
-- ==== Proof.Bits.Region0.lean ====
/-
  The first pallas_call as a pipeline: what every window's staging buffer and the scratch hold after the body at
  each grid point, and the body obligation the pipeline rule asks for.

  The grid has 25 points. Point t stages row block t of the adjacency through window 2 and row block t + 25
  through window 3 — two windows onto ONE array, so each holds half of it; neither writes it. Windows 0, 1, 4, 5, 6
  stage whole arrays once (x, W1, the scale and shift of the first normalisation, W2). Windows 7 and 8 are the
  outputs: block t of t_top and of t_bot. The scratch is the one thing carried from point to point: before the
  first point it holds anything; from then on it holds support = x · W1, which the first point stores and every
  later point only reads. So the invariant at position k says "scratch at anything" for k = 0 and "scratch at
  support" for k > 0, beside the scoped buffers the kernel never touches and the generator register.
-/
import proofs.«152953_g41188736369293_cont_8to1_b_1949_15_alg».proof.Proof.Bits.Pass1Body

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The carried scratch -/

/-- The first grid point. -/
abbrev t₀ : Fin cfg0.N := ⟨0, by decide⟩

/-- support = x · W1, from the whole-array blocks of windows 0 and 1 (the same block at every point). -/
abbrev S0 (c : Dev nD) : Vec F S10000x128 .bf16 := Pass1.support (iblk0 V c 0 t₀) (iblk0 V c 1 t₀)

/-- The scoped buffers the first kernel never names: the second pallas_call's staging buffers, each at some contents. -/
def restScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

/-- The invariant at position `k`: the scratch at anything before the first point and at support after it, the
    untouched scoped buffers, the generator register at some state. -/
def Phi0 (c : Dev nD) (k : Fin (cfg0.N + 1)) : sProp 𝕄 :=
  iprop((if k.val = 0 then iprop(∃ d, owns (c : Thread nD τ) (Memref.whole cc0_scratch0) fullShare d)
      else owns (c : Thread nD τ) (Memref.whole cc0_scratch0) fullShare (S0 V c)) ∗ restScoped (F := F) c ∗ ∃ r, prngReg c r)

/-! ## The proof data -/

/-- Each input's buffer is left at its block; each output's at the body's result for the point's blocks and the
    carried support. The two adjacency windows split their array's share in halves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => Pass1.oA (iblk0 V c 2 t) (S0 V c) (iblk0 V c 4 t) (iblk0 V c 5 t) (iblk0 V c 6 t)
    | ⟨8, _⟩ => Pass1.oB (iblk0 V c 3 t) (S0 V c) (iblk0 V c 4 t) (iblk0 V c 5 t) (iblk0 V c 6 t)
  Φ k := Phi0 V c k
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = Pass1.oA (iblk0 V c 2 t) (S0 V c) (iblk0 V c 4 t) (iblk0 V c 5 t) (iblk0 V c 6 t) := by dsimp only [dat0]
theorem after0_8 (c : Dev nD) (t : Fin cfg0.N) : (dat0 V c).after 8 t = Pass1.oB (iblk0 V c 3 t) (S0 V c) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The branch on the grid coordinate, in closed form -/

/-- The body's branch is taken exactly at the first grid point. -/
theorem hcond : ∀ t : Fin cfg0.N, (Scalar.cmpi .ne (Scalar.extui (Scalar.cmpi .eq (BitVec.ofNat 32 ((grid0.coords t) 0).val) 0#32)) 0#32 = 1#1) ↔ t.val = 0 := by decide

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point. At the first point the scratch is overwritten with support before anything reads it; at a
    later point it is read as the invariant left it. Either way the next position's invariant holds it at support. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    show (dat0 V c).Φ t.castSucc = Phi0 V c t.castSucc from rfl, show (dat0 V c).Φ t.succ = Phi0 V c t.succ from rfl,
    after0_0, after0_1, after0_2, after0_3, after0_4, after0_5, after0_6, after0_7, after0_8]
  unfold Phi0
  rw [if_neg (show ¬ (t.succ : Fin (cfg0.N + 1)).val = 0 from Nat.succ_ne_zero _)]
  by_cases h0 : t.val = 0
  · have hc := (hcond t).mpr h0
    obtain rfl : t = t₀ := Fin.ext h0
    rw [if_pos (show (t₀.castSucc : Fin (cfg0.N + 1)).val = 0 from rfl)]
    iintro ⟨⟨Hs, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (Pass1.body_first c Set.univ (grid0.coords t₀) hc _ _ _ _ _ _ _ _ _ _ _ _ _ _ _ _ _ _ _ _ (iblk0 V c 0 t₀) (iblk0 V c 1 t₀) (iblk0 V c 2 t₀) (iblk0 V c 3 t₀) (iblk0 V c 4 t₀) (iblk0 V c 5 t₀) (iblk0 V c 6 t₀) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [Hs]; · iexact Hs
    iintro ⟨H0, H1, H2, H3, H4, H5, H6, H7, H8, Hs⟩
    isplitl [Hs Hrest Hp]
    · isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc := (not_congr (hcond t)).mpr h0
    rw [if_neg (show ¬ (t.castSucc : Fin (cfg0.N + 1)).val = 0 from h0)]
    iintro ⟨⟨Hs, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (Pass1.body_later c Set.univ (grid0.coords t) hc _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (S0 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [Hs]; · iexact Hs
    iintro ⟨H0, H1, H2, H3, H4, H5, H6, H7, H8, Hs⟩
    isplitl [Hs Hrest Hp]
    · isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Reg0

end
-- ==== Proof.Bits.Pass2Body.lean ====
/-
  The second aggregation's kernel body as one Hoare triple, at any float instance.

  One grid point of the second pallas_call handles two row blocks of the adjacency (a block of the top half and
  the matching block of the bottom half). For each block B (200 × 10000) it forms

      mu  = (B[:, :5000] · t_top + B[:, 5000:] · t_bot) * s2 + sh2          (200 × 64)
      out = mu · dec_Wᵀ + dec_b                                              (200 × 1)

  and overwrites four whole output buffers with them. The body only loads whole buffers and stores whole
  buffers, so each output buffer ends as the canonical reading of its single store, and every input buffer is
  left as found. The arithmetic itself stays folded inside the generated payload terms.
-/
import proofs.«152953_g41188736369293_cont_8to1_b_1949_15_alg».proof.Proof.Gen.Kernel.Launch
import proofs.«152953_g41188736369293_cont_8to1_b_1949_15_alg».proof.Proof.Gen.Kernel.Skeleton
import proofs.«152953_g41188736369293_cont_8to1_b_1949_15_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rS200x10000 : Rect S200x10000 := Rect.unit (s := S200x10000) ![0, 0] S200x10000.size inb_S200x10000_S200x10000_0_0
abbrev rS5000x64 : Rect S5000x64 := Rect.unit (s := S5000x64) ![0, 0] S5000x64.size inb_S5000x64_S5000x64_0_0
abbrev rS1x64 : Rect S1x64 := Rect.unit (s := S1x64) ![0, 0] S1x64.size inb_S1x64_S1x64_0_0
abbrev rS64x1 : Rect S64x1 := Rect.unit (s := S64x1) ![0, 0] S64x1.size inb_S64x1_S64x1_0_0
abbrev rS1x1 : Rect S1x1 := Rect.unit (s := S1x1) ![0, 0] S1x1.size inb_S1x1_S1x1_0_0
abbrev rS200x64 : Rect S200x64 := Rect.unit (s := S200x64) ![0, 0] S200x64.size inb_S200x64_S200x64_0_0
abbrev rS200x1 : Rect S200x1 := Rect.unit (s := S200x1) ![0, 0] S200x1.size inb_S200x1_S200x1_0_0

/-! ## What each output buffer holds after the body -/

/-- mu for the top-half row block: the block is the first input buffer. -/
def o9 (x1 : Vec F S200x10000 .f32) (x2 : Vec F S200x10000 .f32) (x3 : Vec F S5000x64 .bf16) (x4 : Vec F S5000x64 .bf16) (x5 : Vec F S1x64 .f32) (x6 : Vec F S1x64 .f32) (x7 : Vec F S64x1 .f32) (x8 : Vec F S1x1 .f32) : Vec F S200x64 .f32 :=
  View.canon [⟨rS200x64, k1_pay3 (View.ld x1 rS200x10000) (View.ld x3 rS5000x64) (View.ld x4 rS5000x64) (View.ld x5 rS1x64) (View.ld x6 rS1x64)⟩]
/-- out for the top-half row block. -/
def o11 (x1 : Vec F S200x10000 .f32) (x2 : Vec F S200x10000 .f32) (x3 : Vec F S5000x64 .bf16) (x4 : Vec F S5000x64 .bf16) (x5 : Vec F S1x64 .f32) (x6 : Vec F S1x64 .f32) (x7 : Vec F S64x1 .f32) (x8 : Vec F S1x1 .f32) : Vec F S200x1 .f32 :=
  View.canon [⟨rS200x1, k1_pay4 (View.ld x1 rS200x10000) (View.ld x3 rS5000x64) (View.ld x4 rS5000x64) (View.ld x5 rS1x64) (View.ld x6 rS1x64) (View.ld x7 rS64x1) (View.ld x8 rS1x1)⟩]
/-- mu for the bottom-half row block: the block is the second input buffer. -/
def o10 (x1 : Vec F S200x10000 .f32) (x2 : Vec F S200x10000 .f32) (x3 : Vec F S5000x64 .bf16) (x4 : Vec F S5000x64 .bf16) (x5 : Vec F S1x64 .f32) (x6 : Vec F S1x64 .f32) (x7 : Vec F S64x1 .f32) (x8 : Vec F S1x1 .f32) : Vec F S200x64 .f32 :=
  View.canon [⟨rS200x64, k1_pay1 (k1_pay5 (View.ld x2 rS200x10000)) (k1_pay6 (View.ld x2 rS200x10000)) (View.ld x3 rS5000x64) (View.ld x4 rS5000x64) (View.ld x5 rS1x64) (View.ld x6 rS1x64)⟩]
/-- out for the bottom-half row block. -/
def o12 (x1 : Vec F S200x10000 .f32) (x2 : Vec F S200x10000 .f32) (x3 : Vec F S5000x64 .bf16) (x4 : Vec F S5000x64 .bf16) (x5 : Vec F S1x64 .f32) (x6 : Vec F S1x64 .f32) (x7 : Vec F S64x1 .f32) (x8 : Vec F S1x1 .f32) : Vec F S200x1 .f32 :=
  View.canon [⟨rS200x1, k1_pay2 (k1_pay5 (View.ld x2 rS200x10000)) (k1_pay6 (View.ld x2 rS200x10000)) (View.ld x3 rS5000x64) (View.ld x4 rS5000x64) (View.ld x5 rS1x64) (View.ld x6 rS1x64) (View.ld x7 rS64x1) (View.ld x8 rS1x1)⟩]

/-- A single whole-buffer store covers the buffer. -/
theorem cover64 (p0 : Vec F S200x64 .f32) (y : S200x64.Idx) :
    ∃ pc ∈ ([⟨rS200x64, p0⟩] : List (View.Piece (Elt F) S200x64 .f32)), y ∈ pc.1.set :=
  View.cover_of_tiled [⟨rS200x64, p0⟩] S200x64.size (by rfl) y
theorem cover1 (p0 : Vec F S200x1 .f32) (y : S200x1.Idx) :
    ∃ pc ∈ ([⟨rS200x1, p0⟩] : List (View.Piece (Elt F) S200x1 .f32)), y ∈ pc.1.set :=
  View.cover_of_tiled [⟨rS200x1, p0⟩] S200x1.size (by rfl) y

/-! ## The body's triple -/

set_option maxHeartbeats 1000000 in
/-- Run on whole staging buffers, the eight inputs at read contents and the four outputs at anything, the body
    reaches its continuation with the inputs as they were and each output at its canonical contents. -/
theorem body (c : Dev nD) (E : Set ℕ) (i : grid1.Coords) (arg1 : Memref sig .tc .vmem S200x10000 .f32) (harg1 : arg1.IsWhole) (arg2 : Memref sig .tc .vmem S200x10000 .f32) (harg2 : arg2.IsWhole) (arg3 : Memref sig .tc .vmem S5000x64 .bf16) (harg3 : arg3.IsWhole) (arg4 : Memref sig .tc .vmem S5000x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S200x64 .f32) (harg9 : arg9.IsWhole) (arg10 : Memref sig .tc .vmem S200x64 .f32) (harg10 : arg10.IsWhole) (arg11 : Memref sig .tc .vmem S200x1 .f32) (harg11 : arg11.IsWhole) (arg12 : Memref sig .tc .vmem S200x1 .f32) (harg12 : arg12.IsWhole)
    (x1 : Vec F S200x10000 .f32) (x2 : Vec F S200x10000 .f32) (x3 : Vec F S5000x64 .bf16) (x4 : Vec F S5000x64 .bf16) (x5 : Vec F S1x64 .f32) (x6 : Vec F S1x64 .f32) (x7 : Vec F S64x1 .f32) (x8 : Vec F S1x1 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (o9 x1 x2 x3 x4 x5 x6 x7 x8) ∗ owns (c : Thread nD τ) arg10 fullShare (o10 x1 x2 x3 x4 x5 x6 x7 x8) ∗ owns (c : Thread nD τ) arg11 fullShare (o11 x1 x2 x3 x4 x5 x6 x7 x8) ∗ owns (c : Thread nD τ) arg12 fullShare (o12 x1 x2 x3 x4 x5 x6 x7 x8)) -∗ K ⟨⟩))
      ⊢ wp frame (wpE (defs₀ (F := F)) Variants.none c none) E (cc1__pass2_kernel i arg1 harg1 arg2 harg2 arg3 harg3 arg4 harg4 arg5 harg5 arg6 harg6 arg7 harg7 arg8 harg8 arg9 harg9 arg10 harg10 arg11 harg11 arg12 harg12) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover64 _)
  isplitl [H10]
  · iexists _; isplitr
    swap; · iexact H10
    ipureintro
    exact View.read_writes_eq_canon _ _ _ (cover64 _)
  isplitl [H11]
  · iexists _; isplitr
    swap; · iexact H11
    ipureintro
    exact View.read_writes_eq_canon _ _ _ (cover1 _)
  iexists _; isplitr
  swap; · iexact H12
  ipureintro
  exact View.read_writes_eq_canon _ _ _ (cover1 _)

end Cert.Kernel.Pass2

end
-- ==== Proof.Bits.Region1.lean ====
/-
  The second pallas_call as a pipeline: what every window's staging buffer holds after the body at each grid
  point, and the body obligation the pipeline rule asks for.

  The grid has 25 points. Point t stages row block t of the adjacency through window 0 and row block t + 25
  through window 1 — two windows onto ONE array, so each holds half of it, the left half-share and the right
  half-share; neither writes it. Windows 2–7 stage whole small arrays once (the two halves of t, the scale and
  shift of the second normalisation, the decoder's weights and bias). Windows 8–11 are the outputs: block t of
  mu (top), mu (bottom), out (top), out (bottom). The body keeps nothing from one point to the next.
-/
import proofs.«152953_g41188736369293_cont_8to1_b_1949_15_alg».proof.Proof.Bits.Pass2Body

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- Each input's buffer is left at its block; each output's at the body's result for the point's blocks. The two
    adjacency windows split their array's share in halves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => Pass2.o9 (iblk1 V c 0 t) (iblk1 V c 1 t) (iblk1 V c 2 t) (iblk1 V c 3 t) (iblk1 V c 4 t) (iblk1 V c 5 t) (iblk1 V c 6 t) (iblk1 V c 7 t)
    | ⟨9, _⟩ => Pass2.o10 (iblk1 V c 0 t) (iblk1 V c 1 t) (iblk1 V c 2 t) (iblk1 V c 3 t) (iblk1 V c 4 t) (iblk1 V c 5 t) (iblk1 V c 6 t) (iblk1 V c 7 t)
    | ⟨10, _⟩ => Pass2.o11 (iblk1 V c 0 t) (iblk1 V c 1 t) (iblk1 V c 2 t) (iblk1 V c 3 t) (iblk1 V c 4 t) (iblk1 V c 5 t) (iblk1 V c 6 t) (iblk1 V c 7 t)
    | ⟨11, _⟩ => Pass2.o12 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = Pass2.o9 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = Pass2.o10 (iblk1 V c 0 t) (iblk1 V c 1 t) (iblk1 V c 2 t) (iblk1 V c 3 t) (iblk1 V c 4 t) (iblk1 V c 5 t) (iblk1 V c 6 t) (iblk1 V c 7 t) := by dsimp only [dat1]
theorem after1_10 (c : Dev nD) (t : Fin cfg1.N) : (dat1 V c).after 10 t = Pass2.o11 (iblk1 V c 0 t) (iblk1 V c 1 t) (iblk1 V c 2 t) (iblk1 V c 3 t) (iblk1 V c 4 t) (iblk1 V c 5 t) (iblk1 V c 6 t) (iblk1 V c 7 t) := by dsimp only [dat1]
theorem after1_11 (c : Dev nD) (t : Fin cfg1.N) : (dat1 V c).after 11 t = Pass2.o12 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (Pass2.body c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Reg1

end
-- ==== Proof.Bits.Shares.lean ====
/-
  Two windows on one array: dealing the array's share out at a region's entry and collecting it at the exit.

  In both pallas_calls the adjacency matrix is staged through TWO input windows (row block t of the top half and
  row block t of the bottom half), so the pipeline's account of "its arrays" lists the adjacency twice, once per
  window, each at half of the full share. Between regions the program state holds each buffer once, at the full
  share. These lemmas convert between the two accounts: a full share is its left half and its right half, of the
  same contents, and neither window writes the array.
-/
import proofs.«152953_g41188736369293_cont_8to1_b_1949_15_alg».proof.Proof.Bits.Region0
import proofs.«152953_g41188736369293_cont_8to1_b_1949_15_alg».proof.Proof.Bits.Region1
import Idealize.ShloMosaic.Lib.Pipeline.Regions

set_option maxRecDepth 16384

noncomputable section

namespace Cert.Kernel.Shares

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Pipeline 0: its arrays against the distinct buffers behind them -/

section
variable (V : (c : Dev nD) → (b : Ref sig .tc) → Buf (Elt F) ((c : Thread nD τ).loc b))

/-- One window's array, a whole buffer, at the contents read off `V`. -/
theorem arr0_w (c : Dev nD) (F' : (w : Fin cfg0.W) → Buf (Elt F) ((cfg0.win w).arr.view.loc (c : Thread nD τ)))
    (hF : ∀ w, F' w = V c (Pipeline.arrRef spec0 w)) (w : Fin cfg0.W) :
    ((cfg0.win w).arr.view.loc (c : Thread nD τ) ↦[(cfg0.win w).arr.view.set]{(Reg0.dat0 V c).share w} F' w : sProp 𝕄)
      = (((c : Thread nD τ).loc (Pipeline.arrRef spec0 w)) ↦{(Reg0.dat0 V c).share w} V c (Pipeline.arrRef spec0 w)) := by
  rw [(arr_whole0 w).set_eq_univ, hF w]

/-- The pipeline's arrays, window by window: the two adjacency windows at the two halves of the share. -/
theorem arrays0_chain (c : Dev nD) (F' : (w : Fin cfg0.W) → Buf (Elt F) ((cfg0.win w).arr.view.loc (c : Thread nD τ)))
    (hF : ∀ w, F' w = V c (Pipeline.arrRef spec0 w)) :
    ((Reg0.dat0 V c).arrays F' : sProp 𝕄) = (let Vc := V c; iprop((((c : Thread nD τ).loc main_arg0) ↦{fullShare} Vc main_arg0) ∗ (((c : Thread nD τ).loc main_v18) ↦{fullShare} Vc main_v18) ∗ (((c : Thread nD τ).loc main_arg1) ↦{fullShare.left} Vc main_arg1) ∗ (((c : Thread nD τ).loc main_arg1) ↦{fullShare.right} Vc main_arg1) ∗ (((c : Thread nD τ).loc main_v4) ↦{fullShare} Vc main_v4) ∗ (((c : Thread nD τ).loc main_v7) ↦{fullShare} Vc main_v7) ∗ (((c : Thread nD τ).loc main_v19) ↦{fullShare} Vc main_v19) ∗ (((c : Thread nD τ).loc main_v20_0) ↦{fullShare} Vc main_v20_0) ∗ (((c : Thread nD τ).loc main_v20_1) ↦{fullShare} Vc main_v20_1))) := by
  unfold Dat.arrays
  rw [bigSep_congr (fun w _ => arr0_w V c F' hF w), bigSep_W0]
  rfl

/-- The distinct buffers behind the windows, each whole at the full share. -/
theorem arrBufs0_chain (c : Dev nD) :
    (Pipeline.arrBufs spec0 c (V c) : sProp 𝕄) = (let Vc := V c; iprop((((c : Thread nD τ).loc main_arg0) ↦{fullShare} Vc main_arg0) ∗ (((c : Thread nD τ).loc main_v18) ↦{fullShare} Vc main_v18) ∗ (((c : Thread nD τ).loc main_arg1) ↦{fullShare} Vc main_arg1) ∗ (((c : Thread nD τ).loc main_v4) ↦{fullShare} Vc main_v4) ∗ (((c : Thread nD τ).loc main_v7) ↦{fullShare} Vc main_v7) ∗ (((c : Thread nD τ).loc main_v19) ↦{fullShare} Vc main_v19) ∗ (((c : Thread nD τ).loc main_v20_0) ↦{fullShare} Vc main_v20_0) ∗ (((c : Thread nD τ).loc main_v20_1) ↦{fullShare} Vc main_v20_1))) := by
  unfold Pipeline.arrBufs
  rw [bigSep_eq_bigSepL_of_eq [main_arg0, main_v18, main_arg1, main_v4, main_v7, main_v19, main_v20_0, main_v20_1] (by decide) (by decide)]
  rfl

/-- ENTRY: the buffers become the pipeline's arrays, the adjacency's full share dealt in halves to its two windows. -/
theorem arrays0_split (c : Dev nD) (F' : (w : Fin cfg0.W) → Buf (Elt F) ((cfg0.win w).arr.view.loc (c : Thread nD τ)))
    (hF : ∀ w, F' w = V c (Pipeline.arrRef spec0 w)) :
    (Pipeline.arrBufs spec0 c (V c) : sProp 𝕄) ⊢ (Reg0.dat0 V c).arrays F' := by
  rw [arrays0_chain V c F' hF, arrBufs0_chain V c]
  dsimp only
  iintro ⟨B0, B1, B2, B3, B4, B5, B6, B7⟩
  ihave Hh := (pointsTo_share (PosShare.mem_left_op_right fullShare)).1 $$ B2
  icases Hh with ⟨Hl, Hr⟩
  isplitl [B0]; · iexact B0
  isplitl [B1]; · iexact B1
  isplitl [Hl]; · iexact Hl
  isplitl [Hr]; · iexact Hr
  isplitl [B3]; · iexact B3
  isplitl [B4]; · iexact B4
  isplitl [B5]; · iexact B5
  isplitl [B6]; · iexact B6
  iexact B7

end

section
variable (V V' : (c : Dev nD) → (b : Ref sig .tc) → Buf (Elt F) ((c : Thread nD τ).loc b))

/-- EXIT: the pipeline's arrays, at contents read off a valuation `V'`, are the buffers at `V'`: the two halves of
    the adjacency's share come back together. (The proof data is stated at the ENTRY valuation `V`; only its shares matter here.) -/
theorem arrays0_join (c : Dev nD) (F' : (w : Fin cfg0.W) → Buf (Elt F) ((cfg0.win w).arr.view.loc (c : Thread nD τ)))
    (hF : ∀ w, F' w = V' c (Pipeline.arrRef spec0 w)) :
    ((Reg0.dat0 V c).arrays F' : sProp 𝕄) ⊢ Pipeline.arrBufs spec0 c (V' c) := by
  rw [arrBufs0_chain V' c]
  have h : ((Reg0.dat0 V c).arrays F' : sProp 𝕄) = (let Vc := V' c; iprop((((c : Thread nD τ).loc main_arg0) ↦{fullShare} Vc main_arg0) ∗ (((c : Thread nD τ).loc main_v18) ↦{fullShare} Vc main_v18) ∗ (((c : Thread nD τ).loc main_arg1) ↦{fullShare.left} Vc main_arg1) ∗ (((c : Thread nD τ).loc main_arg1) ↦{fullShare.right} Vc main_arg1) ∗ (((c : Thread nD τ).loc main_v4) ↦{fullShare} Vc main_v4) ∗ (((c : Thread nD τ).loc main_v7) ↦{fullShare} Vc main_v7) ∗ (((c : Thread nD τ).loc main_v19) ↦{fullShare} Vc main_v19) ∗ (((c : Thread nD τ).loc main_v20_0) ↦{fullShare} Vc main_v20_0) ∗ (((c : Thread nD τ).loc main_v20_1) ↦{fullShare} Vc main_v20_1))) := by
    unfold Dat.arrays
    rw [bigSep_congr (fun w _ => show ((cfg0.win w).arr.view.loc (c : Thread nD τ) ↦[(cfg0.win w).arr.view.set]{(Reg0.dat0 V c).share w} F' w : sProp 𝕄)
      = (((c : Thread nD τ).loc (Pipeline.arrRef spec0 w)) ↦{(Reg0.dat0 V c).share w} V' c (Pipeline.arrRef spec0 w)) from by rw [(arr_whole0 w).set_eq_univ, hF w]), bigSep_W0]
    rfl
  rw [h]
  dsimp only
  iintro ⟨A0, A1, A2, A3, A4, A5, A6, A7, A8⟩
  ihave Hj := (pointsTo_share (PosShare.mem_left_op_right fullShare)).2 $$ [A2 A3]
  · isplitl [A2]; · iexact A2
    iexact A3
  isplitl [A0]; · iexact A0
  isplitl [A1]; · iexact A1
  isplitl [Hj]; · iexact Hj
  isplitl [A4]; · iexact A4
  isplitl [A5]; · iexact A5
  isplitl [A6]; · iexact A6
  isplitl [A7]; · iexact A7
  iexact A8

end

/-! ## Pipeline 1: its arrays against the distinct buffers behind them -/

section
variable (V : (c : Dev nD) → (b : Ref sig .tc) → Buf (Elt F) ((c : Thread nD τ).loc b))

/-- One window's array, a whole buffer, at the contents read off `V`. -/
theorem arr1_w (c : Dev nD) (F' : (w : Fin cfg1.W) → Buf (Elt F) ((cfg1.win w).arr.view.loc (c : Thread nD τ)))
    (hF : ∀ w, F' w = V c (Pipeline.arrRef spec1 w)) (w : Fin cfg1.W) :
    ((cfg1.win w).arr.view.loc (c : Thread nD τ) ↦[(cfg1.win w).arr.view.set]{(Reg1.dat1 V c).share w} F' w : sProp 𝕄)
      = (((c : Thread nD τ).loc (Pipeline.arrRef spec1 w)) ↦{(Reg1.dat1 V c).share w} V c (Pipeline.arrRef spec1 w)) := by
  rw [(arr_whole1 w).set_eq_univ, hF w]

/-- The pipeline's arrays, window by window: the two adjacency windows at the two halves of the share. -/
theorem arrays1_chain (c : Dev nD) (F' : (w : Fin cfg1.W) → Buf (Elt F) ((cfg1.win w).arr.view.loc (c : Thread nD τ)))
    (hF : ∀ w, F' w = V c (Pipeline.arrRef spec1 w)) :
    ((Reg1.dat1 V c).arrays F' : sProp 𝕄) = (let Vc := V c; iprop((((c : Thread nD τ).loc main_arg1) ↦{fullShare.left} Vc main_arg1) ∗ (((c : Thread nD τ).loc main_arg1) ↦{fullShare.right} Vc main_arg1) ∗ (((c : Thread nD τ).loc main_v20_0) ↦{fullShare} Vc main_v20_0) ∗ (((c : Thread nD τ).loc main_v20_1) ↦{fullShare} Vc main_v20_1) ∗ (((c : Thread nD τ).loc main_v12) ↦{fullShare} Vc main_v12) ∗ (((c : Thread nD τ).loc main_v15) ↦{fullShare} Vc main_v15) ∗ (((c : Thread nD τ).loc main_v16) ↦{fullShare} Vc main_v16) ∗ (((c : Thread nD τ).loc main_v17) ↦{fullShare} Vc main_v17) ∗ (((c : Thread nD τ).loc main_v21_0) ↦{fullShare} Vc main_v21_0) ∗ (((c : Thread nD τ).loc main_v21_1) ↦{fullShare} Vc main_v21_1) ∗ (((c : Thread nD τ).loc main_v21_2) ↦{fullShare} Vc main_v21_2) ∗ (((c : Thread nD τ).loc main_v21_3) ↦{fullShare} Vc main_v21_3))) := by
  unfold Dat.arrays
  rw [bigSep_congr (fun w _ => arr1_w V c F' hF w), bigSep_W1]
  rfl

/-- The distinct buffers behind the windows, each whole at the full share. -/
theorem arrBufs1_chain (c : Dev nD) :
    (Pipeline.arrBufs spec1 c (V c) : sProp 𝕄) = (let Vc := V c; iprop((((c : Thread nD τ).loc main_arg1) ↦{fullShare} Vc main_arg1) ∗ (((c : Thread nD τ).loc main_v20_0) ↦{fullShare} Vc main_v20_0) ∗ (((c : Thread nD τ).loc main_v20_1) ↦{fullShare} Vc main_v20_1) ∗ (((c : Thread nD τ).loc main_v12) ↦{fullShare} Vc main_v12) ∗ (((c : Thread nD τ).loc main_v15) ↦{fullShare} Vc main_v15) ∗ (((c : Thread nD τ).loc main_v16) ↦{fullShare} Vc main_v16) ∗ (((c : Thread nD τ).loc main_v17) ↦{fullShare} Vc main_v17) ∗ (((c : Thread nD τ).loc main_v21_0) ↦{fullShare} Vc main_v21_0) ∗ (((c : Thread nD τ).loc main_v21_1) ↦{fullShare} Vc main_v21_1) ∗ (((c : Thread nD τ).loc main_v21_2) ↦{fullShare} Vc main_v21_2) ∗ (((c : Thread nD τ).loc main_v21_3) ↦{fullShare} Vc main_v21_3))) := by
  unfold Pipeline.arrBufs
  rw [bigSep_eq_bigSepL_of_eq [main_arg1, main_v20_0, main_v20_1, main_v12, main_v15, main_v16, main_v17, main_v21_0, main_v21_1, main_v21_2, main_v21_3] (by decide) (by decide)]
  rfl

/-- ENTRY: the buffers become the pipeline's arrays, the adjacency's full share dealt in halves to its two windows. -/
theorem arrays1_split (c : Dev nD) (F' : (w : Fin cfg1.W) → Buf (Elt F) ((cfg1.win w).arr.view.loc (c : Thread nD τ)))
    (hF : ∀ w, F' w = V c (Pipeline.arrRef spec1 w)) :
    (Pipeline.arrBufs spec1 c (V c) : sProp 𝕄) ⊢ (Reg1.dat1 V c).arrays F' := by
  rw [arrays1_chain V c F' hF, arrBufs1_chain V c]
  dsimp only
  iintro ⟨B0, B1, B2, B3, B4, B5, B6, B7, B8, B9, B10⟩
  ihave Hh := (pointsTo_share (PosShare.mem_left_op_right fullShare)).1 $$ B0
  icases Hh with ⟨Hl, Hr⟩
  isplitl [Hl]; · iexact Hl
  isplitl [Hr]; · iexact Hr
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact B10

end

section
variable (V V' : (c : Dev nD) → (b : Ref sig .tc) → Buf (Elt F) ((c : Thread nD τ).loc b))

/-- EXIT: the pipeline's arrays, at contents read off a valuation `V'`, are the buffers at `V'`: the two halves of
    the adjacency's share come back together. (The proof data is stated at the ENTRY valuation `V`; only its shares matter here.) -/
theorem arrays1_join (c : Dev nD) (F' : (w : Fin cfg1.W) → Buf (Elt F) ((cfg1.win w).arr.view.loc (c : Thread nD τ)))
    (hF : ∀ w, F' w = V' c (Pipeline.arrRef spec1 w)) :
    ((Reg1.dat1 V c).arrays F' : sProp 𝕄) ⊢ Pipeline.arrBufs spec1 c (V' c) := by
  rw [arrBufs1_chain V' c]
  have h : ((Reg1.dat1 V c).arrays F' : sProp 𝕄) = (let Vc := V' c; iprop((((c : Thread nD τ).loc main_arg1) ↦{fullShare.left} Vc main_arg1) ∗ (((c : Thread nD τ).loc main_arg1) ↦{fullShare.right} Vc main_arg1) ∗ (((c : Thread nD τ).loc main_v20_0) ↦{fullShare} Vc main_v20_0) ∗ (((c : Thread nD τ).loc main_v20_1) ↦{fullShare} Vc main_v20_1) ∗ (((c : Thread nD τ).loc main_v12) ↦{fullShare} Vc main_v12) ∗ (((c : Thread nD τ).loc main_v15) ↦{fullShare} Vc main_v15) ∗ (((c : Thread nD τ).loc main_v16) ↦{fullShare} Vc main_v16) ∗ (((c : Thread nD τ).loc main_v17) ↦{fullShare} Vc main_v17) ∗ (((c : Thread nD τ).loc main_v21_0) ↦{fullShare} Vc main_v21_0) ∗ (((c : Thread nD τ).loc main_v21_1) ↦{fullShare} Vc main_v21_1) ∗ (((c : Thread nD τ).loc main_v21_2) ↦{fullShare} Vc main_v21_2) ∗ (((c : Thread nD τ).loc main_v21_3) ↦{fullShare} Vc main_v21_3))) := by
    unfold Dat.arrays
    rw [bigSep_congr (fun w _ => show ((cfg1.win w).arr.view.loc (c : Thread nD τ) ↦[(cfg1.win w).arr.view.set]{(Reg1.dat1 V c).share w} F' w : sProp 𝕄)
      = (((c : Thread nD τ).loc (Pipeline.arrRef spec1 w)) ↦{(Reg1.dat1 V c).share w} V' c (Pipeline.arrRef spec1 w)) from by rw [(arr_whole1 w).set_eq_univ, hF w]), bigSep_W1]
    rfl
  rw [h]
  dsimp only
  iintro ⟨A0, A1, A2, A3, A4, A5, A6, A7, A8, A9, A10, A11⟩
  ihave Hj := (pointsTo_share (PosShare.mem_left_op_right fullShare)).2 $$ [A0 A1]
  · isplitl [A0]; · iexact A0
    iexact A1
  isplitl [Hj]; · iexact Hj
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  iexact A11

end

end Cert.Kernel.Shares

end
-- ==== Proof.Bits.Records.lean ====
/-
  The two pallas_calls as segments of the program, and the program's frame.

  Between two items of the program (a stretch of host operations, a pallas_call) the core holds every unscoped
  buffer at a known valuation: the launch contents, then the host operations' results, then — after the first
  pallas_call — the same with its two result arrays at what its write-backs left, then — after the second — with
  its four result arrays likewise. Each pallas_call is entered by dealing the buffers behind its windows out of
  that state (the adjacency's share in halves to its two windows), run by the pipeline rule from its body
  obligation, and left by collecting the arrays back. The generator register and "the core owes nothing" ride
  along. The frame claim — every argument array ends as launched — then follows from the generated conditional
  frame.
-/
import proofs.«152953_g41188736369293_cont_8to1_b_1949_15_alg».proof.Proof.Bits.Shares
import proofs.«152953_g41188736369293_cont_8to1_b_1949_15_alg».proof.Proof.Gen.Kernel.Regions

set_option maxRecDepth 16384

noncomputable section

namespace Cert.Kernel.Rec

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at the regions' boundaries -/

/-- What the first pallas_call is entered from: the launch contents after the host operations before it. -/
abbrev VA (c : Dev nD) (b : Ref sig .tc) : Buf (Elt F) ((c : Thread nD τ).loc b) := Gen.V1 m c b

/-- After the first pallas_call: its two result arrays at what its write-backs left, everything else as entered. -/
def W2 (c : Dev nD) : Valuation τ sig (Elt F) :=
  Function.update (Function.update (Gen.V1 m c) main_v20_0 ((Reg0.dat0 (VA m) c).arrAt 7 cfg0.N)) main_v20_1 ((Reg0.dat0 (VA m) c).arrAt 8 cfg0.N)

/-- What the second pallas_call is entered from (no host operation stands between the two). -/
abbrev VB (c : Dev nD) (b : Ref sig .tc) : Buf (Elt F) ((c : Thread nD τ).loc b) := W2 m c b

/-- After the second pallas_call: its four result arrays at what its write-backs left. -/
def W3 (c : Dev nD) : Valuation τ sig (Elt F) :=
  Function.update (Function.update (Function.update (Function.update (W2 m c) main_v21_0 ((Reg1.dat1 (VB m) c).arrAt 8 cfg1.N)) main_v21_1 ((Reg1.dat1 (VB m) c).arrAt 9 cfg1.N)) main_v21_2 ((Reg1.dat1 (VB m) c).arrAt 10 cfg1.N)) main_v21_3 ((Reg1.dat1 (VB m) c).arrAt 11 cfg1.N)

/-- The same read at the TensorCore's references. -/
abbrev VC (c : Dev nD) (b : Ref sig .tc) : Buf (Elt F) ((c : Thread nD τ).loc b) := W3 m c b

/-- What the regions leave in the buffers they may change, read off the two valuations. -/
def outs : Gen.Outs (F := F) := fun J r c => if J = 2 then W2 m c r else W3 m c r

theorem W2_of_ne (c : Dev nD) (b : Ref sig .tc) (h0 : b ≠ main_v20_0) (h1 : b ≠ main_v20_1) : W2 m c b = Gen.V1 m c b := by
  unfold W2; rw [Function.update_of_ne (StableHlo.devRef_ne_of_ne h1), Function.update_of_ne (StableHlo.devRef_ne_of_ne h0)]
theorem W2_v20_0 (c : Dev nD) : W2 m c main_v20_0 = (Reg0.dat0 (VA m) c).arrAt 7 cfg0.N := by
  unfold W2; rw [Function.update_of_ne (StableHlo.devRef_ne_of_ne (by decide) : (Proc.devRef .tc main_v20_0 : DevRef τ sig) ≠ Proc.devRef .tc main_v20_1), Function.update_self]
theorem W2_v20_1 (c : Dev nD) : W2 m c main_v20_1 = (Reg0.dat0 (VA m) c).arrAt 8 cfg0.N := by
  unfold W2; rw [Function.update_self]

theorem W3_of_ne (c : Dev nD) (b : Ref sig .tc) (h0 : b ≠ main_v21_0) (h1 : b ≠ main_v21_1) (h2 : b ≠ main_v21_2) (h3 : b ≠ main_v21_3) : W3 m c b = W2 m c b := by
  unfold W3; rw [Function.update_of_ne (StableHlo.devRef_ne_of_ne h3), Function.update_of_ne (StableHlo.devRef_ne_of_ne h2), Function.update_of_ne (StableHlo.devRef_ne_of_ne h1), Function.update_of_ne (StableHlo.devRef_ne_of_ne h0)]
theorem W3_v21_0 (c : Dev nD) : W3 m c main_v21_0 = (Reg1.dat1 (VB m) c).arrAt 8 cfg1.N := by
  unfold W3; rw [Function.update_of_ne (StableHlo.devRef_ne_of_ne (by decide) : (Proc.devRef .tc main_v21_0 : DevRef τ sig) ≠ Proc.devRef .tc main_v21_3), Function.update_of_ne (StableHlo.devRef_ne_of_ne (by decide) : (Proc.devRef .tc main_v21_0 : DevRef τ sig) ≠ Proc.devRef .tc main_v21_2), Function.update_of_ne (StableHlo.devRef_ne_of_ne (by decide) : (Proc.devRef .tc main_v21_0 : DevRef τ sig) ≠ Proc.devRef .tc main_v21_1), Function.update_self]
theorem W3_v21_1 (c : Dev nD) : W3 m c main_v21_1 = (Reg1.dat1 (VB m) c).arrAt 9 cfg1.N := by
  unfold W3; rw [Function.update_of_ne (StableHlo.devRef_ne_of_ne (by decide) : (Proc.devRef .tc main_v21_1 : DevRef τ sig) ≠ Proc.devRef .tc main_v21_3), Function.update_of_ne (StableHlo.devRef_ne_of_ne (by decide) : (Proc.devRef .tc main_v21_1 : DevRef τ sig) ≠ Proc.devRef .tc main_v21_2), Function.update_self]
theorem W3_v21_2 (c : Dev nD) : W3 m c main_v21_2 = (Reg1.dat1 (VB m) c).arrAt 10 cfg1.N := by
  unfold W3; rw [Function.update_of_ne (StableHlo.devRef_ne_of_ne (by decide) : (Proc.devRef .tc main_v21_2 : DevRef τ sig) ≠ Proc.devRef .tc main_v21_3), Function.update_self]
theorem W3_v21_3 (c : Dev nD) : W3 m c main_v21_3 = (Reg1.dat1 (VB m) c).arrAt 11 cfg1.N := by
  unfold W3; rw [Function.update_self]

/-- The generated boundary valuations, at these contents, are the two above. -/
theorem V2_eq (c : Dev nD) : Gen.V2 m (outs m) c = W2 m c := by
  have h0 : outs m 2 main_v20_0 c = (Reg0.dat0 (VA m) c).arrAt 7 cfg0.N := by unfold outs; rw [if_pos rfl]; exact W2_v20_0 m c
  have h1 : outs m 2 main_v20_1 c = (Reg0.dat0 (VA m) c).arrAt 8 cfg0.N := by unfold outs; rw [if_pos rfl]; exact W2_v20_1 m c
  show Function.update (Function.update (Gen.V1 m c) main_v20_0 (outs m 2 main_v20_0 c)) main_v20_1 (outs m 2 main_v20_1 c) = _
  rw [h0, h1]; rfl
theorem V3_eq (c : Dev nD) : Gen.V3 m (outs m) c = W3 m c := by
  have h0 : outs m 3 main_v21_0 c = (Reg1.dat1 (VB m) c).arrAt 8 cfg1.N := by unfold outs; rw [if_neg (by decide)]; exact W3_v21_0 m c
  have h1 : outs m 3 main_v21_1 c = (Reg1.dat1 (VB m) c).arrAt 9 cfg1.N := by unfold outs; rw [if_neg (by decide)]; exact W3_v21_1 m c
  have h2 : outs m 3 main_v21_2 c = (Reg1.dat1 (VB m) c).arrAt 10 cfg1.N := by unfold outs; rw [if_neg (by decide)]; exact W3_v21_2 m c
  have h3 : outs m 3 main_v21_3 c = (Reg1.dat1 (VB m) c).arrAt 11 cfg1.N := by unfold outs; rw [if_neg (by decide)]; exact W3_v21_3 m c
  show Function.update (Function.update (Function.update (Function.update (Gen.V2 m (outs m) c) main_v21_0 (outs m 3 main_v21_0 c)) main_v21_1 (outs m 3 main_v21_1 c)) main_v21_2 (outs m 3 main_v21_2 c)) main_v21_3 (outs m 3 main_v21_3 c) = _
  rw [h0, h1, h2, h3, V2_eq]; rfl

/-! ## Each pipeline's arrays at its exit, read off the next valuation -/

theorem hF0_0 (c : Dev nD) : (Reg0.dat0 (VA m) c).arrAt 0 cfg0.N = VB m c (Pipeline.arrRef spec0 0) := by
  rw [(Reg0.dat0 (VA m) c).arrAt_in 0 rfl _, Reg0.A_eq0]
  show VA m c main_arg0 = VB m c main_arg0
  exact (W2_of_ne m c main_arg0 (by decide) (by decide)).symm
theorem hF0_1 (c : Dev nD) : (Reg0.dat0 (VA m) c).arrAt 1 cfg0.N = VB m c (Pipeline.arrRef spec0 1) := by
  rw [(Reg0.dat0 (VA m) c).arrAt_in 1 rfl _, Reg0.A_eq0]
  show VA m c main_v18 = VB m c main_v18
  exact (W2_of_ne m c main_v18 (by decide) (by decide)).symm
theorem hF0_2 (c : Dev nD) : (Reg0.dat0 (VA m) c).arrAt 2 cfg0.N = VB m c (Pipeline.arrRef spec0 2) := by
  rw [(Reg0.dat0 (VA m) c).arrAt_in 2 rfl _, Reg0.A_eq0]
  show VA m c main_arg1 = VB m c main_arg1
  exact (W2_of_ne m c main_arg1 (by decide) (by decide)).symm
theorem hF0_3 (c : Dev nD) : (Reg0.dat0 (VA m) c).arrAt 3 cfg0.N = VB m c (Pipeline.arrRef spec0 3) := by
  rw [(Reg0.dat0 (VA m) c).arrAt_in 3 rfl _, Reg0.A_eq0]
  show VA m c main_arg1 = VB m c main_arg1
  exact (W2_of_ne m c main_arg1 (by decide) (by decide)).symm
theorem hF0_4 (c : Dev nD) : (Reg0.dat0 (VA m) c).arrAt 4 cfg0.N = VB m c (Pipeline.arrRef spec0 4) := by
  rw [(Reg0.dat0 (VA m) c).arrAt_in 4 rfl _, Reg0.A_eq0]
  show VA m c main_v4 = VB m c main_v4
  exact (W2_of_ne m c main_v4 (by decide) (by decide)).symm
theorem hF0_5 (c : Dev nD) : (Reg0.dat0 (VA m) c).arrAt 5 cfg0.N = VB m c (Pipeline.arrRef spec0 5) := by
  rw [(Reg0.dat0 (VA m) c).arrAt_in 5 rfl _, Reg0.A_eq0]
  show VA m c main_v7 = VB m c main_v7
  exact (W2_of_ne m c main_v7 (by decide) (by decide)).symm
theorem hF0_6 (c : Dev nD) : (Reg0.dat0 (VA m) c).arrAt 6 cfg0.N = VB m c (Pipeline.arrRef spec0 6) := by
  rw [(Reg0.dat0 (VA m) c).arrAt_in 6 rfl _, Reg0.A_eq0]
  show VA m c main_v19 = VB m c main_v19
  exact (W2_of_ne m c main_v19 (by decide) (by decide)).symm
theorem hF0_7 (c : Dev nD) : (Reg0.dat0 (VA m) c).arrAt 7 cfg0.N = VB m c (Pipeline.arrRef spec0 7) := by
  show _ = VB m c main_v20_0; exact (W2_v20_0 m c).symm
theorem hF0_8 (c : Dev nD) : (Reg0.dat0 (VA m) c).arrAt 8 cfg0.N = VB m c (Pipeline.arrRef spec0 8) := by
  show _ = VB m c main_v20_1; exact (W2_v20_1 m c).symm
theorem hF0 (c : Dev nD) : ∀ w : Fin cfg0.W, (Reg0.dat0 (VA m) c).arrAt w cfg0.N = VB m c (Pipeline.arrRef spec0 w) :=
  fun | 0 => hF0_0 m c | 1 => hF0_1 m c | 2 => hF0_2 m c | 3 => hF0_3 m c | 4 => hF0_4 m c | 5 => hF0_5 m c | 6 => hF0_6 m c | 7 => hF0_7 m c | 8 => hF0_8 m c | ⟨_ + 9, h⟩ => absurd h (Nat.not_lt.2 (Nat.le_add_left _ _))
theorem hrest0 (c : Dev nD) (b : Ref sig .tc) (hb : b ∉ Finset.univ.image (Pipeline.arrRef spec0)) : VB m c b = VA m c b :=
  W2_of_ne m c b (fun e => hb (Finset.mem_image.mpr ⟨7, Finset.mem_univ _, e.symm⟩)) (fun e => hb (Finset.mem_image.mpr ⟨8, Finset.mem_univ _, e.symm⟩))

theorem hF1_0 (c : Dev nD) : (Reg1.dat1 (VB m) c).arrAt 0 cfg1.N = VC m c (Pipeline.arrRef spec1 0) := by
  rw [(Reg1.dat1 (VB m) c).arrAt_in 0 rfl _, Reg1.A_eq1]
  show VB m c main_arg1 = VC m c main_arg1
  exact (W3_of_ne m c main_arg1 (by decide) (by decide) (by decide) (by decide)).symm
theorem hF1_1 (c : Dev nD) : (Reg1.dat1 (VB m) c).arrAt 1 cfg1.N = VC m c (Pipeline.arrRef spec1 1) := by
  rw [(Reg1.dat1 (VB m) c).arrAt_in 1 rfl _, Reg1.A_eq1]
  show VB m c main_arg1 = VC m c main_arg1
  exact (W3_of_ne m c main_arg1 (by decide) (by decide) (by decide) (by decide)).symm
theorem hF1_2 (c : Dev nD) : (Reg1.dat1 (VB m) c).arrAt 2 cfg1.N = VC m c (Pipeline.arrRef spec1 2) := by
  rw [(Reg1.dat1 (VB m) c).arrAt_in 2 rfl _, Reg1.A_eq1]
  show VB m c main_v20_0 = VC m c main_v20_0
  exact (W3_of_ne m c main_v20_0 (by decide) (by decide) (by decide) (by decide)).symm
theorem hF1_3 (c : Dev nD) : (Reg1.dat1 (VB m) c).arrAt 3 cfg1.N = VC m c (Pipeline.arrRef spec1 3) := by
  rw [(Reg1.dat1 (VB m) c).arrAt_in 3 rfl _, Reg1.A_eq1]
  show VB m c main_v20_1 = VC m c main_v20_1
  exact (W3_of_ne m c main_v20_1 (by decide) (by decide) (by decide) (by decide)).symm
theorem hF1_4 (c : Dev nD) : (Reg1.dat1 (VB m) c).arrAt 4 cfg1.N = VC m c (Pipeline.arrRef spec1 4) := by
  rw [(Reg1.dat1 (VB m) c).arrAt_in 4 rfl _, Reg1.A_eq1]
  show VB m c main_v12 = VC m c main_v12
  exact (W3_of_ne m c main_v12 (by decide) (by decide) (by decide) (by decide)).symm
theorem hF1_5 (c : Dev nD) : (Reg1.dat1 (VB m) c).arrAt 5 cfg1.N = VC m c (Pipeline.arrRef spec1 5) := by
  rw [(Reg1.dat1 (VB m) c).arrAt_in 5 rfl _, Reg1.A_eq1]
  show VB m c main_v15 = VC m c main_v15
  exact (W3_of_ne m c main_v15 (by decide) (by decide) (by decide) (by decide)).symm
theorem hF1_6 (c : Dev nD) : (Reg1.dat1 (VB m) c).arrAt 6 cfg1.N = VC m c (Pipeline.arrRef spec1 6) := by
  rw [(Reg1.dat1 (VB m) c).arrAt_in 6 rfl _, Reg1.A_eq1]
  show VB m c main_v16 = VC m c main_v16
  exact (W3_of_ne m c main_v16 (by decide) (by decide) (by decide) (by decide)).symm
theorem hF1_7 (c : Dev nD) : (Reg1.dat1 (VB m) c).arrAt 7 cfg1.N = VC m c (Pipeline.arrRef spec1 7) := by
  rw [(Reg1.dat1 (VB m) c).arrAt_in 7 rfl _, Reg1.A_eq1]
  show VB m c main_v17 = VC m c main_v17
  exact (W3_of_ne m c main_v17 (by decide) (by decide) (by decide) (by decide)).symm
theorem hF1_8 (c : Dev nD) : (Reg1.dat1 (VB m) c).arrAt 8 cfg1.N = VC m c (Pipeline.arrRef spec1 8) := by
  show _ = VC m c main_v21_0; exact (W3_v21_0 m c).symm
theorem hF1_9 (c : Dev nD) : (Reg1.dat1 (VB m) c).arrAt 9 cfg1.N = VC m c (Pipeline.arrRef spec1 9) := by
  show _ = VC m c main_v21_1; exact (W3_v21_1 m c).symm
theorem hF1_10 (c : Dev nD) : (Reg1.dat1 (VB m) c).arrAt 10 cfg1.N = VC m c (Pipeline.arrRef spec1 10) := by
  show _ = VC m c main_v21_2; exact (W3_v21_2 m c).symm
theorem hF1_11 (c : Dev nD) : (Reg1.dat1 (VB m) c).arrAt 11 cfg1.N = VC m c (Pipeline.arrRef spec1 11) := by
  show _ = VC m c main_v21_3; exact (W3_v21_3 m c).symm
theorem hF1 (c : Dev nD) : ∀ w : Fin cfg1.W, (Reg1.dat1 (VB m) c).arrAt w cfg1.N = VC m c (Pipeline.arrRef spec1 w) :=
  fun | 0 => hF1_0 m c | 1 => hF1_1 m c | 2 => hF1_2 m c | 3 => hF1_3 m c | 4 => hF1_4 m c | 5 => hF1_5 m c | 6 => hF1_6 m c | 7 => hF1_7 m c | 8 => hF1_8 m c | 9 => hF1_9 m c | 10 => hF1_10 m c | 11 => hF1_11 m c | ⟨_ + 12, h⟩ => absurd h (Nat.not_lt.2 (Nat.le_add_left _ _))
theorem hrest1 (c : Dev nD) (b : Ref sig .tc) (hb : b ∉ Finset.univ.image (Pipeline.arrRef spec1)) : VC m c b = VB m c b :=
  W3_of_ne m c b (fun e => hb (Finset.mem_image.mpr ⟨8, Finset.mem_univ _, e.symm⟩)) (fun e => hb (Finset.mem_image.mpr ⟨9, Finset.mem_univ _, e.symm⟩))
    (fun e => hb (Finset.mem_image.mpr ⟨10, Finset.mem_univ _, e.symm⟩)) (fun e => hb (Finset.mem_image.mpr ⟨11, Finset.mem_univ _, e.symm⟩))

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => Reg0.dat0 (VA m) c
  | ⟨1, _⟩ => fun c => Reg1.dat1 (VB m) c

abbrev 𝒱₀ : Variants := Variants.none
abbrev L : GSem nD τ sig → Finset Unit := fun _ => ∅
abbrev lv : GSem nD τ sig → Unit → ℕ := fun _ _ => 0
/-- Beside the buffers: the generator register at some state, and nothing owed. -/
abbrev Rr (c : Dev nD) : sProp 𝕄 := iprop((∃ r, prngReg c r) ∗ ∃ W, owes (c : Thread nD τ) (0 : CellTallies nD τ sig Unit) W)

/-! ## Entering and leaving a region: the buffers dealt out and collected -/

theorem entry0 (c : Dev nD) : (StableHlo.held (c : Thread nD τ) (Pipeline.ucRefs τ sig) (Gen.V1 m c) : sProp 𝕄)
    ⊢ iprop((Reg0.dat0 (VA m) c).arrays ((Reg0.dat0 (VA m) c).arrAt · 0) ∗ Pipeline.unscopedRest spec0 c (VA m c)) := by
  rw [← Pipeline.unscopedBufs_held (Ix := Unit) (Name := ℕ) (U := UR sig nD τ) (Lvl := ℕ) c (Gen.V1 m c),
    Pipeline.unscopedBufs_split₀ cfgs 0 winFacts₀0.arr_unscoped c (VA m c)]
  exact sep_mono (Shares.arrays0_split (VA m) c _ (fun _ => rfl)) .rfl

theorem exit0 (c : Dev nD) : iprop((Reg0.dat0 (VA m) c).arrays ((Reg0.dat0 (VA m) c).arrAt · cfg0.N) ∗ Pipeline.unscopedRest spec0 c (VA m c))
    ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c (VB m c)]
  refine sep_mono (Shares.arrays0_join (VA m) (VB m) c _ (hF0 m c)) (Entails.of_eq ?_)
  unfold Pipeline.unscopedRest
  exact bigSep_congr fun b hb => by rw [hrest0 m c b (Finset.mem_sdiff.mp hb).2]

theorem entry1 (c : Dev nD) : (StableHlo.held (c : Thread nD τ) (Pipeline.ucRefs τ sig) (W2 m c) : sProp 𝕄)
    ⊢ iprop((Reg1.dat1 (VB m) c).arrays ((Reg1.dat1 (VB m) c).arrAt · 0) ∗ Pipeline.unscopedRest spec1 c (VB m c)) := by
  rw [← Pipeline.unscopedBufs_held (Ix := Unit) (Name := ℕ) (U := UR sig nD τ) (Lvl := ℕ) c (W2 m c),
    Pipeline.unscopedBufs_split₀ cfgs 1 winFacts₀1.arr_unscoped c (VB m c)]
  exact sep_mono (Shares.arrays1_split (VB m) c _ (fun _ => rfl)) .rfl

theorem exit1 (c : Dev nD) : iprop((Reg1.dat1 (VB m) c).arrays ((Reg1.dat1 (VB m) c).arrAt · cfg1.N) ∗ Pipeline.unscopedRest spec1 c (VB m c))
    ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c),
    Pipeline.unscopedBufs_split₀ cfgs 1 winFacts₀1.arr_unscoped c (VC m c)]
  refine sep_mono (Shares.arrays1_join (VB m) (VC m) c _ (hF1 m c)) (Entails.of_eq ?_)
  unfold Pipeline.unscopedRest
  exact bigSep_congr fun b hb => by rw [hrest1 m c b (Finset.mem_sdiff.mp hb).2]

end Cert.Kernel.Rec

end
-- ==== Proof.Bits.Segs.lean ====
/-
  The two pallas_calls as region records, and the program's frame.

  A region record says how a pallas_call is entered from the program state before it and how it gives that state
  back: the buffers behind its windows are dealt to the pipeline (the adjacency in two half-shares), the generator
  register and the scoped buffers the kernel may use go into the body's invariant, every other unscoped buffer
  passes by untouched; at the exit the arrays come back at what the write-backs left. The first pallas_call's
  invariant also carries the scratch buffer: taken out of the scoped buffers at entry at unknown contents, handed
  back at the end. With both records the generated conditional frame gives the frame claim: every weakly fair
  execution terminates, nothing faults, and each argument array ends as launched.
-/
import proofs.«152953_g41188736369293_cont_8to1_b_1949_15_alg».proof.Proof.Bits.Records

set_option maxRecDepth 16384

noncomputable section

namespace Cert.Kernel.Segs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Rec

variable {F : FTy → Type} [FloatOps F]

local notation "𝕄" => MT nD τ sig Unit (Elt F) ℕ (UR sig nD τ) ℕ

variable (m : (ℓ : Loc nD τ sig) → Buf (Elt F) ℓ)

/-- The first pallas_call's invariant at its first position, from the generator register and the scoped buffers no
    window stages: the scratch is one of those, at unknown contents. -/
theorem phi0_in (c : Dev nD) :
    iprop((∃ r, prngReg c r) ∗ Pipeline.scopedRest (Ix := Unit) (Name := ℕ) (U := UR sig nD τ) (Lvl := ℕ) (Val := Elt F) spec0 c)
      ⊢ (Reg0.Phi0 (VA m) c 0 : sProp 𝕄) := by
  unfold Reg0.Phi0
  rw [if_pos (show ((0 : Fin (cfg0.N + 1))).val = 0 from rfl), scopedRest0_eq]
  iintro ⟨Hp, ⟨%f, Hs⟩, Hr⟩
  isplitl [Hs]
  · iexists f; rw [owns_whole_eq]; iexists f; isplitr; · ipureintro; rfl
    iexact Hs
  isplitl [Hr]; · unfold Reg0.restScoped; iexact Hr
  iexact Hp

/-- and at its last position it gives them back, the scratch at whatever it now holds. -/
theorem phi0_out (c : Dev nD) :
    (Reg0.Phi0 (VA m) c (Fin.last cfg0.N) : sProp 𝕄)
      ⊢ iprop((∃ r, prngReg c r) ∗ Pipeline.scopedRest (Ix := Unit) (Name := ℕ) (U := UR sig nD τ) (Lvl := ℕ) (Val := Elt F) spec0 c) := by
  unfold Reg0.Phi0
  rw [if_neg (show ¬ (Fin.last cfg0.N).val = 0 from by decide), scopedRest0_eq, owns_whole_eq]
  iintro ⟨⟨%f, -, Hs⟩, Hr, Hp⟩
  isplitl [Hp]; · iexact Hp
  isplitl [Hs]; · iexists f; iexact Hs
  unfold Reg0.restScoped; iexact Hr

set_option backward.isDefEq.respectTransparency.types false in
/-- The first pallas_call: entered from the state after the host operations before it, left with its two result arrays
    at what its write-backs leave. The scratch goes into the invariant at unknown contents and comes back at the end. -/
def reg0 : RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (Reg0.body_obligation0 (VA m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Reg0.Phi0 (VA m) c 0 from rfl]
    iintro ⟨Hp, -, Hr⟩
    iapply (phi0_in m c)
    isplitl [Hp]; · iexact Hp
    iexact Hr
  hout c := by
    rw [Pipeline.ownSems0_none, show (pdats m 0 c).Φ (Fin.last _) = Reg0.Phi0 (VA m) c (Fin.last cfg0.N) from rfl]
    refine (phi0_out m c).trans ?_
    iintro ⟨Hp, Hr⟩
    isplitl [Hp]; · iexact Hp
    isplitr; · iempintro
    iexact Hr
  hexit c := by
    iintro ⟨Ha, HO, HY, Hrest⟩
    imodintro
    have hjoin : iprop((pdats m 0 c).arrays ((pdats m 0 c).arrAt · cfg0.N) ∗ Pipeline.unscopedRest spec0 c (VA m c))
        ⊢ (StableHlo.held (c : Thread nD τ) (Pipeline.ucRefs τ sig) (W2 m c) : sProp 𝕄) := exit0 m c
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from what the first left, left with its four result arrays at what its
    write-backs leave. Its body keeps nothing between points. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation1 (VB m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    have hjoin : iprop((pdats m 1 c).arrays ((pdats m 1 c).arrAt · cfg1.N) ∗ Pipeline.unscopedRest spec1 c (VB m c))
        ⊢ (StableHlo.held (c : Thread nD τ) (Pipeline.ucRefs τ sig) (W3 m c) : sProp 𝕄) := exit1 m c
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE FRAME, at any float instance: from any memory with zero counters every weakly fair execution of the program
    terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Gen.frame_cond (m := m) (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)

/-- info: 'Cert.Kernel.Segs.frame' depends on axioms: [propext, Classical.choice, Quot.sound] -/
#guard_msgs in #print axioms frame

end Cert.Kernel.Segs

end
-- ==== Proof.Pass1Body.lean ====
/-
  The first aggregation's kernel body as Hoare triples, at any float instance.

  One grid point of the first pallas_call handles two row blocks of the adjacency (one from the top half, one
  from the bottom half). The product support = x · W1 (10000 × 128) lives in a scratch buffer that persists
  from one grid point to the next: the first grid point computes and stores it, every later point only reads
  it. For each row block B (200 × 10000) the body forms

      h = max (B · support * s1 + sh1) 0          (200 × 128)
      t = h · W2                                   (200 × 64)

  and overwrites one whole output buffer with t. So there are two cases: at the first point the scratch ends at
  the freshly stored support and both outputs are computed from it; at a later point the scratch is left as
  found and both outputs are computed from what it held. The arithmetic stays folded inside the generated
  payload terms.
-/
import proofs.«152953_g41188736369293_cont_8to1_b_1949_15_alg».proof.Proof.Gen.KernelIdeal.Launch
import proofs.«152953_g41188736369293_cont_8to1_b_1949_15_alg».proof.Proof.Gen.KernelIdeal.Skeleton
import proofs.«152953_g41188736369293_cont_8to1_b_1949_15_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rS10000x128 : Rect S10000x128 := Rect.unit (s := S10000x128) ![0, 0] S10000x128.size inb_S10000x128_S10000x128_0_0
abbrev rS128x128 : Rect S128x128 := Rect.unit (s := S128x128) ![0, 0] S128x128.size inb_S128x128_S128x128_0_0
abbrev rS200x10000 : Rect S200x10000 := Rect.unit (s := S200x10000) ![0, 0] S200x10000.size inb_S200x10000_S200x10000_0_0
abbrev rS1x128 : Rect S1x128 := Rect.unit (s := S1x128) ![0, 0] S1x128.size inb_S1x128_S1x128_0_0
abbrev rS128x64 : Rect S128x64 := Rect.unit (s := S128x64) ![0, 0] S128x64.size inb_S128x64_S128x64_0_0
abbrev rS200x64 : Rect S200x64 := Rect.unit (s := S200x64) ![0, 0] S200x64.size inb_S200x64_S200x64_0_0

/-! ## What the buffers hold after the body -/

/-- The scratch after the first grid point: x · W1, stored whole. -/
def support (x1 : Vec F S10000x128 .f32) (x2 : Vec F S128x128 .bf16) : Vec F S10000x128 .bf16 :=
  View.canon [⟨rS10000x128, k0_pay2 (View.ld x1 rS10000x128) (View.ld x2 rS128x128)⟩]
/-- t for the top-half row block, from the scratch contents `s`. -/
def oA (x3 : Vec F S200x10000 .f32) (s : Vec F S10000x128 .bf16) (x5 x6 : Vec F S1x128 .f32) (x7 : Vec F S128x64 .bf16) : Vec F S200x64 .bf16 :=
  View.canon [⟨rS200x64, k0_pay3 (View.ld x3 rS200x10000) (View.ld s rS10000x128) (View.ld x5 rS1x128) (View.ld x6 rS1x128) (View.ld x7 rS128x64)⟩]
/-- t for the bottom-half row block, from the scratch contents `s`. -/
def oB (x4 : Vec F S200x10000 .f32) (s : Vec F S10000x128 .bf16) (x5 x6 : Vec F S1x128 .f32) (x7 : Vec F S128x64 .bf16) : Vec F S200x64 .bf16 :=
  View.canon [⟨rS200x64, k0_pay1 (k0_pay4 (View.ld x4 rS200x10000) (View.ld s rS10000x128) (View.ld x5 rS1x128)) (View.ld x6 rS1x128) (View.ld x7 rS128x64)⟩]

/-- A single whole-buffer store covers the buffer. -/
theorem cover_out (p0 : Vec F S200x64 .bf16) (y : S200x64.Idx) :
    ∃ pc ∈ ([⟨rS200x64, p0⟩] : List (View.Piece (Elt F) S200x64 .bf16)), y ∈ pc.1.set :=
  View.cover_of_tiled [⟨rS200x64, p0⟩] S200x64.size (by rfl) y
theorem cover_scratch (p0 : Vec F S10000x128 .bf16) (y : S10000x128.Idx) :
    ∃ pc ∈ ([⟨rS10000x128, p0⟩] : List (View.Piece (Elt F) S10000x128 .bf16)), y ∈ pc.1.set :=
  View.cover_of_tiled [⟨rS10000x128, p0⟩] S10000x128.size (by rfl) y

/-! ## The body's triples -/

set_option maxHeartbeats 1000000 in
/-- A later grid point: the scratch is read, never written. -/
theorem body_later (c : Dev nD) (E : Set ℕ) (i : grid0.Coords) (hc : ¬ Scalar.cmpi .ne (Scalar.extui (Scalar.cmpi .eq (BitVec.ofNat 32 (i 0).val) 0#32)) 0#32 = 1#1) (arg1 : Memref sig .tc .vmem S10000x128 .f32) (harg1 : arg1.IsWhole) (arg2 : Memref sig .tc .vmem S128x128 .bf16) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x64 .bf16) (harg7 : arg7.IsWhole) (arg8 : Memref sig .tc .vmem S200x64 .bf16) (harg8 : arg8.IsWhole) (arg9 : Memref sig .tc .vmem S200x64 .bf16) (harg9 : arg9.IsWhole) (arg10 : Memref sig .tc .vmem S10000x128 .bf16) (harg10 : arg10.IsWhole)
    (x1 : Vec F S10000x128 .f32) (x2 : Vec F S128x128 .bf16) (x3 : Vec F S200x10000 .f32) (x4 : Vec F S200x10000 .f32) (x5 : Vec F S1x128 .f32) (x6 : Vec F S1x128 .f32) (x7 : Vec F S128x64 .bf16) (s : Vec F S10000x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (oA x3 s x5 x6 x7) ∗ owns (c : Thread nD τ) arg9 fullShare (oB x4 s x5 x6 x7) ∗ owns (c : Thread nD τ) arg10 fullShare s) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  subst hf1 hf2 hf3 hf4 hf5 hf6 hf7 hf10
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_out _)
  isplitl [H9]
  · iexists _; isplitr
    swap; · iexact H9
    ipureintro
    exact View.read_writes_eq_canon _ _ _ (cover_out _)
  iexists f10; isplitr; · ipureintro; rfl
  iexact H10

set_option maxHeartbeats 1000000 in
/-- The first grid point: the scratch, whatever it held, is overwritten with x · W1 before anything reads it. -/
theorem body_first (c : Dev nD) (E : Set ℕ) (i : grid0.Coords) (hc : Scalar.cmpi .ne (Scalar.extui (Scalar.cmpi .eq (BitVec.ofNat 32 (i 0).val) 0#32)) 0#32 = 1#1) (arg1 : Memref sig .tc .vmem S10000x128 .f32) (harg1 : arg1.IsWhole) (arg2 : Memref sig .tc .vmem S128x128 .bf16) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x64 .bf16) (harg7 : arg7.IsWhole) (arg8 : Memref sig .tc .vmem S200x64 .bf16) (harg8 : arg8.IsWhole) (arg9 : Memref sig .tc .vmem S200x64 .bf16) (harg9 : arg9.IsWhole) (arg10 : Memref sig .tc .vmem S10000x128 .bf16) (harg10 : arg10.IsWhole)
    (x1 : Vec F S10000x128 .f32) (x2 : Vec F S128x128 .bf16) (x3 : Vec F S200x10000 .f32) (x4 : Vec F S200x10000 .f32) (x5 : Vec F S1x128 .f32) (x6 : Vec F S1x128 .f32) (x7 : Vec F S128x64 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (oA x3 (support x1 x2) x5 x6 x7) ∗ owns (c : Thread nD τ) arg9 fullShare (oB x4 (support x1 x2) x5 x6 x7) ∗ owns (c : Thread nD τ) arg10 fullShare (support x1 x2)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf1 hf2 hf3 hf4 hf5 hf6 hf7
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.readCov_eq_canon_ld _ _ _ (cover_scratch _)]
    exact View.read_writes_eq_canon _ _ _ (cover_out _)
  isplitl [H9]
  · iexists _; isplitr
    swap; · iexact H9
    ipureintro
    rw [View.readCov_eq_canon_ld _ _ _ (cover_scratch _)]
    exact View.read_writes_eq_canon _ _ _ (cover_out _)
  iexists _; isplitr
  swap; · iexact H10
  ipureintro
  exact View.read_writes_eq_canon _ _ _ (cover_scratch _)

end Cert.KernelIdeal.Pass1

end
-- ==== Proof.Region0.lean ====
/-
  The first pallas_call as a pipeline: what every window's staging buffer and the scratch hold after the body at
  each grid point, and the body obligation the pipeline rule asks for.

  The grid has 25 points. Point t stages row block t of the adjacency through window 2 and row block t + 25
  through window 3 — two windows onto ONE array, so each holds half of it; neither writes it. Windows 0, 1, 4, 5, 6
  stage whole arrays once (x, W1, the scale and shift of the first normalisation, W2). Windows 7 and 8 are the
  outputs: block t of t_top and of t_bot. The scratch is the one thing carried from point to point: before the
  first point it holds anything; from then on it holds support = x · W1, which the first point stores and every
  later point only reads. So the invariant at position k says "scratch at anything" for k = 0 and "scratch at
  support" for k > 0, beside the scoped buffers the kernel never touches and the generator register.
-/
import proofs.«152953_g41188736369293_cont_8to1_b_1949_15_alg».proof.Proof.Pass1Body

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The carried scratch -/

/-- The first grid point. -/
abbrev t₀ : Fin cfg0.N := ⟨0, by decide⟩

/-- support = x · W1, from the whole-array blocks of windows 0 and 1 (the same block at every point). -/
abbrev S0 (c : Dev nD) : Vec F S10000x128 .bf16 := Pass1.support (iblk0 V c 0 t₀) (iblk0 V c 1 t₀)

/-- The scoped buffers the first kernel never names: the second pallas_call's staging buffers, each at some contents. -/
def restScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

/-- The invariant at position `k`: the scratch at anything before the first point and at support after it, the
    untouched scoped buffers, the generator register at some state. -/
def Phi0 (c : Dev nD) (k : Fin (cfg0.N + 1)) : sProp 𝕄 :=
  iprop((if k.val = 0 then iprop(∃ d, owns (c : Thread nD τ) (Memref.whole cc0_scratch0) fullShare d)
      else owns (c : Thread nD τ) (Memref.whole cc0_scratch0) fullShare (S0 V c)) ∗ restScoped (F := F) c ∗ ∃ r, prngReg c r)

/-! ## The proof data -/

/-- Each input's buffer is left at its block; each output's at the body's result for the point's blocks and the
    carried support. The two adjacency windows split their array's share in halves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => Pass1.oA (iblk0 V c 2 t) (S0 V c) (iblk0 V c 4 t) (iblk0 V c 5 t) (iblk0 V c 6 t)
    | ⟨8, _⟩ => Pass1.oB (iblk0 V c 3 t) (S0 V c) (iblk0 V c 4 t) (iblk0 V c 5 t) (iblk0 V c 6 t)
  Φ k := Phi0 V c k
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = Pass1.oA (iblk0 V c 2 t) (S0 V c) (iblk0 V c 4 t) (iblk0 V c 5 t) (iblk0 V c 6 t) := by dsimp only [dat0]
theorem after0_8 (c : Dev nD) (t : Fin cfg0.N) : (dat0 V c).after 8 t = Pass1.oB (iblk0 V c 3 t) (S0 V c) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The branch on the grid coordinate, in closed form -/

/-- The body's branch is taken exactly at the first grid point. -/
theorem hcond : ∀ t : Fin cfg0.N, (Scalar.cmpi .ne (Scalar.extui (Scalar.cmpi .eq (BitVec.ofNat 32 ((grid0.coords t) 0).val) 0#32)) 0#32 = 1#1) ↔ t.val = 0 := by decide

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point. At the first point the scratch is overwritten with support before anything reads it; at a
    later point it is read as the invariant left it. Either way the next position's invariant holds it at support. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    show (dat0 V c).Φ t.castSucc = Phi0 V c t.castSucc from rfl, show (dat0 V c).Φ t.succ = Phi0 V c t.succ from rfl,
    after0_0, after0_1, after0_2, after0_3, after0_4, after0_5, after0_6, after0_7, after0_8]
  unfold Phi0
  rw [if_neg (show ¬ (t.succ : Fin (cfg0.N + 1)).val = 0 from Nat.succ_ne_zero _)]
  by_cases h0 : t.val = 0
  · have hc := (hcond t).mpr h0
    obtain rfl : t = t₀ := Fin.ext h0
    rw [if_pos (show (t₀.castSucc : Fin (cfg0.N + 1)).val = 0 from rfl)]
    iintro ⟨⟨Hs, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (Pass1.body_first c Set.univ (grid0.coords t₀) hc _ _ _ _ _ _ _ _ _ _ _ _ _ _ _ _ _ _ _ _ (iblk0 V c 0 t₀) (iblk0 V c 1 t₀) (iblk0 V c 2 t₀) (iblk0 V c 3 t₀) (iblk0 V c 4 t₀) (iblk0 V c 5 t₀) (iblk0 V c 6 t₀) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [Hs]; · iexact Hs
    iintro ⟨H0, H1, H2, H3, H4, H5, H6, H7, H8, Hs⟩
    isplitl [Hs Hrest Hp]
    · isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc := (not_congr (hcond t)).mpr h0
    rw [if_neg (show ¬ (t.castSucc : Fin (cfg0.N + 1)).val = 0 from h0)]
    iintro ⟨⟨Hs, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (Pass1.body_later c Set.univ (grid0.coords t) hc _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (S0 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [Hs]; · iexact Hs
    iintro ⟨H0, H1, H2, H3, H4, H5, H6, H7, H8, Hs⟩
    isplitl [Hs Hrest Hp]
    · isplitl [Hs]; · iexact Hs
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Reg0

end
-- ==== Proof.Pass2Body.lean ====
/-
  The second aggregation's kernel body as one Hoare triple, at any float instance.

  One grid point of the second pallas_call handles two row blocks of the adjacency (a block of the top half and
  the matching block of the bottom half). For each block B (200 × 10000) it forms

      mu  = (B[:, :5000] · t_top + B[:, 5000:] · t_bot) * s2 + sh2          (200 × 64)
      out = mu · dec_Wᵀ + dec_b                                              (200 × 1)

  and overwrites four whole output buffers with them. The body only loads whole buffers and stores whole
  buffers, so each output buffer ends as the canonical reading of its single store, and every input buffer is
  left as found. The arithmetic itself stays folded inside the generated payload terms.
-/
import proofs.«152953_g41188736369293_cont_8to1_b_1949_15_alg».proof.Proof.Gen.KernelIdeal.Launch
import proofs.«152953_g41188736369293_cont_8to1_b_1949_15_alg».proof.Proof.Gen.KernelIdeal.Skeleton
import proofs.«152953_g41188736369293_cont_8to1_b_1949_15_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rS200x10000 : Rect S200x10000 := Rect.unit (s := S200x10000) ![0, 0] S200x10000.size inb_S200x10000_S200x10000_0_0
abbrev rS5000x64 : Rect S5000x64 := Rect.unit (s := S5000x64) ![0, 0] S5000x64.size inb_S5000x64_S5000x64_0_0
abbrev rS1x64 : Rect S1x64 := Rect.unit (s := S1x64) ![0, 0] S1x64.size inb_S1x64_S1x64_0_0
abbrev rS64x1 : Rect S64x1 := Rect.unit (s := S64x1) ![0, 0] S64x1.size inb_S64x1_S64x1_0_0
abbrev rS1x1 : Rect S1x1 := Rect.unit (s := S1x1) ![0, 0] S1x1.size inb_S1x1_S1x1_0_0
abbrev rS200x64 : Rect S200x64 := Rect.unit (s := S200x64) ![0, 0] S200x64.size inb_S200x64_S200x64_0_0
abbrev rS200x1 : Rect S200x1 := Rect.unit (s := S200x1) ![0, 0] S200x1.size inb_S200x1_S200x1_0_0

/-! ## What each output buffer holds after the body -/

/-- mu for the top-half row block: the block is the first input buffer. -/
def o9 (x1 : Vec F S200x10000 .f32) (x2 : Vec F S200x10000 .f32) (x3 : Vec F S5000x64 .bf16) (x4 : Vec F S5000x64 .bf16) (x5 : Vec F S1x64 .f32) (x6 : Vec F S1x64 .f32) (x7 : Vec F S64x1 .f32) (x8 : Vec F S1x1 .f32) : Vec F S200x64 .f32 :=
  View.canon [⟨rS200x64, k1_pay3 (View.ld x1 rS200x10000) (View.ld x3 rS5000x64) (View.ld x4 rS5000x64) (View.ld x5 rS1x64) (View.ld x6 rS1x64)⟩]
/-- out for the top-half row block. -/
def o11 (x1 : Vec F S200x10000 .f32) (x2 : Vec F S200x10000 .f32) (x3 : Vec F S5000x64 .bf16) (x4 : Vec F S5000x64 .bf16) (x5 : Vec F S1x64 .f32) (x6 : Vec F S1x64 .f32) (x7 : Vec F S64x1 .f32) (x8 : Vec F S1x1 .f32) : Vec F S200x1 .f32 :=
  View.canon [⟨rS200x1, k1_pay4 (View.ld x1 rS200x10000) (View.ld x3 rS5000x64) (View.ld x4 rS5000x64) (View.ld x5 rS1x64) (View.ld x6 rS1x64) (View.ld x7 rS64x1) (View.ld x8 rS1x1)⟩]
/-- mu for the bottom-half row block: the block is the second input buffer. -/
def o10 (x1 : Vec F S200x10000 .f32) (x2 : Vec F S200x10000 .f32) (x3 : Vec F S5000x64 .bf16) (x4 : Vec F S5000x64 .bf16) (x5 : Vec F S1x64 .f32) (x6 : Vec F S1x64 .f32) (x7 : Vec F S64x1 .f32) (x8 : Vec F S1x1 .f32) : Vec F S200x64 .f32 :=
  View.canon [⟨rS200x64, k1_pay1 (k1_pay5 (View.ld x2 rS200x10000)) (k1_pay6 (View.ld x2 rS200x10000)) (View.ld x3 rS5000x64) (View.ld x4 rS5000x64) (View.ld x5 rS1x64) (View.ld x6 rS1x64)⟩]
/-- out for the bottom-half row block. -/
def o12 (x1 : Vec F S200x10000 .f32) (x2 : Vec F S200x10000 .f32) (x3 : Vec F S5000x64 .bf16) (x4 : Vec F S5000x64 .bf16) (x5 : Vec F S1x64 .f32) (x6 : Vec F S1x64 .f32) (x7 : Vec F S64x1 .f32) (x8 : Vec F S1x1 .f32) : Vec F S200x1 .f32 :=
  View.canon [⟨rS200x1, k1_pay2 (k1_pay5 (View.ld x2 rS200x10000)) (k1_pay6 (View.ld x2 rS200x10000)) (View.ld x3 rS5000x64) (View.ld x4 rS5000x64) (View.ld x5 rS1x64) (View.ld x6 rS1x64) (View.ld x7 rS64x1) (View.ld x8 rS1x1)⟩]

/-- A single whole-buffer store covers the buffer. -/
theorem cover64 (p0 : Vec F S200x64 .f32) (y : S200x64.Idx) :
    ∃ pc ∈ ([⟨rS200x64, p0⟩] : List (View.Piece (Elt F) S200x64 .f32)), y ∈ pc.1.set :=
  View.cover_of_tiled [⟨rS200x64, p0⟩] S200x64.size (by rfl) y
theorem cover1 (p0 : Vec F S200x1 .f32) (y : S200x1.Idx) :
    ∃ pc ∈ ([⟨rS200x1, p0⟩] : List (View.Piece (Elt F) S200x1 .f32)), y ∈ pc.1.set :=
  View.cover_of_tiled [⟨rS200x1, p0⟩] S200x1.size (by rfl) y

/-! ## The body's triple -/

set_option maxHeartbeats 1000000 in
/-- Run on whole staging buffers, the eight inputs at read contents and the four outputs at anything, the body
    reaches its continuation with the inputs as they were and each output at its canonical contents. -/
theorem body (c : Dev nD) (E : Set ℕ) (i : grid1.Coords) (arg1 : Memref sig .tc .vmem S200x10000 .f32) (harg1 : arg1.IsWhole) (arg2 : Memref sig .tc .vmem S200x10000 .f32) (harg2 : arg2.IsWhole) (arg3 : Memref sig .tc .vmem S5000x64 .bf16) (harg3 : arg3.IsWhole) (arg4 : Memref sig .tc .vmem S5000x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S200x64 .f32) (harg9 : arg9.IsWhole) (arg10 : Memref sig .tc .vmem S200x64 .f32) (harg10 : arg10.IsWhole) (arg11 : Memref sig .tc .vmem S200x1 .f32) (harg11 : arg11.IsWhole) (arg12 : Memref sig .tc .vmem S200x1 .f32) (harg12 : arg12.IsWhole)
    (x1 : Vec F S200x10000 .f32) (x2 : Vec F S200x10000 .f32) (x3 : Vec F S5000x64 .bf16) (x4 : Vec F S5000x64 .bf16) (x5 : Vec F S1x64 .f32) (x6 : Vec F S1x64 .f32) (x7 : Vec F S64x1 .f32) (x8 : Vec F S1x1 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (o9 x1 x2 x3 x4 x5 x6 x7 x8) ∗ owns (c : Thread nD τ) arg10 fullShare (o10 x1 x2 x3 x4 x5 x6 x7 x8) ∗ owns (c : Thread nD τ) arg11 fullShare (o11 x1 x2 x3 x4 x5 x6 x7 x8) ∗ owns (c : Thread nD τ) arg12 fullShare (o12 x1 x2 x3 x4 x5 x6 x7 x8)) -∗ K ⟨⟩))
      ⊢ wp frame (wpE (defs₀ (F := F)) Variants.none c none) E (cc1__pass2_kernel i arg1 harg1 arg2 harg2 arg3 harg3 arg4 harg4 arg5 harg5 arg6 harg6 arg7 harg7 arg8 harg8 arg9 harg9 arg10 harg10 arg11 harg11 arg12 harg12) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover64 _)
  isplitl [H10]
  · iexists _; isplitr
    swap; · iexact H10
    ipureintro
    exact View.read_writes_eq_canon _ _ _ (cover64 _)
  isplitl [H11]
  · iexists _; isplitr
    swap; · iexact H11
    ipureintro
    exact View.read_writes_eq_canon _ _ _ (cover1 _)
  iexists _; isplitr
  swap; · iexact H12
  ipureintro
  exact View.read_writes_eq_canon _ _ _ (cover1 _)

end Cert.KernelIdeal.Pass2

end
-- ==== Proof.Region1.lean ====
/-
  The second pallas_call as a pipeline: what every window's staging buffer holds after the body at each grid
  point, and the body obligation the pipeline rule asks for.

  The grid has 25 points. Point t stages row block t of the adjacency through window 0 and row block t + 25
  through window 1 — two windows onto ONE array, so each holds half of it, the left half-share and the right
  half-share; neither writes it. Windows 2–7 stage whole small arrays once (the two halves of t, the scale and
  shift of the second normalisation, the decoder's weights and bias). Windows 8–11 are the outputs: block t of
  mu (top), mu (bottom), out (top), out (bottom). The body keeps nothing from one point to the next.
-/
import proofs.«152953_g41188736369293_cont_8to1_b_1949_15_alg».proof.Proof.Pass2Body

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- Each input's buffer is left at its block; each output's at the body's result for the point's blocks. The two
    adjacency windows split their array's share in halves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => Pass2.o9 (iblk1 V c 0 t) (iblk1 V c 1 t) (iblk1 V c 2 t) (iblk1 V c 3 t) (iblk1 V c 4 t) (iblk1 V c 5 t) (iblk1 V c 6 t) (iblk1 V c 7 t)
    | ⟨9, _⟩ => Pass2.o10 (iblk1 V c 0 t) (iblk1 V c 1 t) (iblk1 V c 2 t) (iblk1 V c 3 t) (iblk1 V c 4 t) (iblk1 V c 5 t) (iblk1 V c 6 t) (iblk1 V c 7 t)
    | ⟨10, _⟩ => Pass2.o11 (iblk1 V c 0 t) (iblk1 V c 1 t) (iblk1 V c 2 t) (iblk1 V c 3 t) (iblk1 V c 4 t) (iblk1 V c 5 t) (iblk1 V c 6 t) (iblk1 V c 7 t)
    | ⟨11, _⟩ => Pass2.o12 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = Pass2.o9 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = Pass2.o10 (iblk1 V c 0 t) (iblk1 V c 1 t) (iblk1 V c 2 t) (iblk1 V c 3 t) (iblk1 V c 4 t) (iblk1 V c 5 t) (iblk1 V c 6 t) (iblk1 V c 7 t) := by dsimp only [dat1]
theorem after1_10 (c : Dev nD) (t : Fin cfg1.N) : (dat1 V c).after 10 t = Pass2.o11 (iblk1 V c 0 t) (iblk1 V c 1 t) (iblk1 V c 2 t) (iblk1 V c 3 t) (iblk1 V c 4 t) (iblk1 V c 5 t) (iblk1 V c 6 t) (iblk1 V c 7 t) := by dsimp only [dat1]
theorem after1_11 (c : Dev nD) (t : Fin cfg1.N) : (dat1 V c).after 11 t = Pass2.o12 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (Pass2.body c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Reg1

end
-- ==== Proof.Shares.lean ====
/-
  Two windows on one array: dealing the array's share out at a region's entry and collecting it at the exit.

  In both pallas_calls the adjacency matrix is staged through TWO input windows (row block t of the top half and
  row block t of the bottom half), so the pipeline's account of "its arrays" lists the adjacency twice, once per
  window, each at half of the full share. Between regions the program state holds each buffer once, at the full
  share. These lemmas convert between the two accounts: a full share is its left half and its right half, of the
  same contents, and neither window writes the array.
-/
import proofs.«152953_g41188736369293_cont_8to1_b_1949_15_alg».proof.Proof.Region0
import proofs.«152953_g41188736369293_cont_8to1_b_1949_15_alg».proof.Proof.Region1
import Idealize.ShloMosaic.Lib.Pipeline.Regions

set_option maxRecDepth 16384

noncomputable section

namespace Cert.KernelIdeal.Shares

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Pipeline 0: its arrays against the distinct buffers behind them -/

section
variable (V : (c : Dev nD) → (b : Ref sig .tc) → Buf (Elt F) ((c : Thread nD τ).loc b))

/-- One window's array, a whole buffer, at the contents read off `V`. -/
theorem arr0_w (c : Dev nD) (F' : (w : Fin cfg0.W) → Buf (Elt F) ((cfg0.win w).arr.view.loc (c : Thread nD τ)))
    (hF : ∀ w, F' w = V c (Pipeline.arrRef spec0 w)) (w : Fin cfg0.W) :
    ((cfg0.win w).arr.view.loc (c : Thread nD τ) ↦[(cfg0.win w).arr.view.set]{(Reg0.dat0 V c).share w} F' w : sProp 𝕄)
      = (((c : Thread nD τ).loc (Pipeline.arrRef spec0 w)) ↦{(Reg0.dat0 V c).share w} V c (Pipeline.arrRef spec0 w)) := by
  rw [(arr_whole0 w).set_eq_univ, hF w]

/-- The pipeline's arrays, window by window: the two adjacency windows at the two halves of the share. -/
theorem arrays0_chain (c : Dev nD) (F' : (w : Fin cfg0.W) → Buf (Elt F) ((cfg0.win w).arr.view.loc (c : Thread nD τ)))
    (hF : ∀ w, F' w = V c (Pipeline.arrRef spec0 w)) :
    ((Reg0.dat0 V c).arrays F' : sProp 𝕄) = (let Vc := V c; iprop((((c : Thread nD τ).loc main_arg0) ↦{fullShare} Vc main_arg0) ∗ (((c : Thread nD τ).loc main_v18) ↦{fullShare} Vc main_v18) ∗ (((c : Thread nD τ).loc main_arg1) ↦{fullShare.left} Vc main_arg1) ∗ (((c : Thread nD τ).loc main_arg1) ↦{fullShare.right} Vc main_arg1) ∗ (((c : Thread nD τ).loc main_v4) ↦{fullShare} Vc main_v4) ∗ (((c : Thread nD τ).loc main_v7) ↦{fullShare} Vc main_v7) ∗ (((c : Thread nD τ).loc main_v19) ↦{fullShare} Vc main_v19) ∗ (((c : Thread nD τ).loc main_v20_0) ↦{fullShare} Vc main_v20_0) ∗ (((c : Thread nD τ).loc main_v20_1) ↦{fullShare} Vc main_v20_1))) := by
  unfold Dat.arrays
  rw [bigSep_congr (fun w _ => arr0_w V c F' hF w), bigSep_W0]
  rfl

/-- The distinct buffers behind the windows, each whole at the full share. -/
theorem arrBufs0_chain (c : Dev nD) :
    (Pipeline.arrBufs spec0 c (V c) : sProp 𝕄) = (let Vc := V c; iprop((((c : Thread nD τ).loc main_arg0) ↦{fullShare} Vc main_arg0) ∗ (((c : Thread nD τ).loc main_v18) ↦{fullShare} Vc main_v18) ∗ (((c : Thread nD τ).loc main_arg1) ↦{fullShare} Vc main_arg1) ∗ (((c : Thread nD τ).loc main_v4) ↦{fullShare} Vc main_v4) ∗ (((c : Thread nD τ).loc main_v7) ↦{fullShare} Vc main_v7) ∗ (((c : Thread nD τ).loc main_v19) ↦{fullShare} Vc main_v19) ∗ (((c : Thread nD τ).loc main_v20_0) ↦{fullShare} Vc main_v20_0) ∗ (((c : Thread nD τ).loc main_v20_1) ↦{fullShare} Vc main_v20_1))) := by
  unfold Pipeline.arrBufs
  rw [bigSep_eq_bigSepL_of_eq [main_arg0, main_v18, main_arg1, main_v4, main_v7, main_v19, main_v20_0, main_v20_1] (by decide) (by decide)]
  rfl

/-- ENTRY: the buffers become the pipeline's arrays, the adjacency's full share dealt in halves to its two windows. -/
theorem arrays0_split (c : Dev nD) (F' : (w : Fin cfg0.W) → Buf (Elt F) ((cfg0.win w).arr.view.loc (c : Thread nD τ)))
    (hF : ∀ w, F' w = V c (Pipeline.arrRef spec0 w)) :
    (Pipeline.arrBufs spec0 c (V c) : sProp 𝕄) ⊢ (Reg0.dat0 V c).arrays F' := by
  rw [arrays0_chain V c F' hF, arrBufs0_chain V c]
  dsimp only
  iintro ⟨B0, B1, B2, B3, B4, B5, B6, B7⟩
  ihave Hh := (pointsTo_share (PosShare.mem_left_op_right fullShare)).1 $$ B2
  icases Hh with ⟨Hl, Hr⟩
  isplitl [B0]; · iexact B0
  isplitl [B1]; · iexact B1
  isplitl [Hl]; · iexact Hl
  isplitl [Hr]; · iexact Hr
  isplitl [B3]; · iexact B3
  isplitl [B4]; · iexact B4
  isplitl [B5]; · iexact B5
  isplitl [B6]; · iexact B6
  iexact B7

end

section
variable (V V' : (c : Dev nD) → (b : Ref sig .tc) → Buf (Elt F) ((c : Thread nD τ).loc b))

/-- EXIT: the pipeline's arrays, at contents read off a valuation `V'`, are the buffers at `V'`: the two halves of
    the adjacency's share come back together. (The proof data is stated at the ENTRY valuation `V`; only its shares matter here.) -/
theorem arrays0_join (c : Dev nD) (F' : (w : Fin cfg0.W) → Buf (Elt F) ((cfg0.win w).arr.view.loc (c : Thread nD τ)))
    (hF : ∀ w, F' w = V' c (Pipeline.arrRef spec0 w)) :
    ((Reg0.dat0 V c).arrays F' : sProp 𝕄) ⊢ Pipeline.arrBufs spec0 c (V' c) := by
  rw [arrBufs0_chain V' c]
  have h : ((Reg0.dat0 V c).arrays F' : sProp 𝕄) = (let Vc := V' c; iprop((((c : Thread nD τ).loc main_arg0) ↦{fullShare} Vc main_arg0) ∗ (((c : Thread nD τ).loc main_v18) ↦{fullShare} Vc main_v18) ∗ (((c : Thread nD τ).loc main_arg1) ↦{fullShare.left} Vc main_arg1) ∗ (((c : Thread nD τ).loc main_arg1) ↦{fullShare.right} Vc main_arg1) ∗ (((c : Thread nD τ).loc main_v4) ↦{fullShare} Vc main_v4) ∗ (((c : Thread nD τ).loc main_v7) ↦{fullShare} Vc main_v7) ∗ (((c : Thread nD τ).loc main_v19) ↦{fullShare} Vc main_v19) ∗ (((c : Thread nD τ).loc main_v20_0) ↦{fullShare} Vc main_v20_0) ∗ (((c : Thread nD τ).loc main_v20_1) ↦{fullShare} Vc main_v20_1))) := by
    unfold Dat.arrays
    rw [bigSep_congr (fun w _ => show ((cfg0.win w).arr.view.loc (c : Thread nD τ) ↦[(cfg0.win w).arr.view.set]{(Reg0.dat0 V c).share w} F' w : sProp 𝕄)
      = (((c : Thread nD τ).loc (Pipeline.arrRef spec0 w)) ↦{(Reg0.dat0 V c).share w} V' c (Pipeline.arrRef spec0 w)) from by rw [(arr_whole0 w).set_eq_univ, hF w]), bigSep_W0]
    rfl
  rw [h]
  dsimp only
  iintro ⟨A0, A1, A2, A3, A4, A5, A6, A7, A8⟩
  ihave Hj := (pointsTo_share (PosShare.mem_left_op_right fullShare)).2 $$ [A2 A3]
  · isplitl [A2]; · iexact A2
    iexact A3
  isplitl [A0]; · iexact A0
  isplitl [A1]; · iexact A1
  isplitl [Hj]; · iexact Hj
  isplitl [A4]; · iexact A4
  isplitl [A5]; · iexact A5
  isplitl [A6]; · iexact A6
  isplitl [A7]; · iexact A7
  iexact A8

end

/-! ## Pipeline 1: its arrays against the distinct buffers behind them -/

section
variable (V : (c : Dev nD) → (b : Ref sig .tc) → Buf (Elt F) ((c : Thread nD τ).loc b))

/-- One window's array, a whole buffer, at the contents read off `V`. -/
theorem arr1_w (c : Dev nD) (F' : (w : Fin cfg1.W) → Buf (Elt F) ((cfg1.win w).arr.view.loc (c : Thread nD τ)))
    (hF : ∀ w, F' w = V c (Pipeline.arrRef spec1 w)) (w : Fin cfg1.W) :
    ((cfg1.win w).arr.view.loc (c : Thread nD τ) ↦[(cfg1.win w).arr.view.set]{(Reg1.dat1 V c).share w} F' w : sProp 𝕄)
      = (((c : Thread nD τ).loc (Pipeline.arrRef spec1 w)) ↦{(Reg1.dat1 V c).share w} V c (Pipeline.arrRef spec1 w)) := by
  rw [(arr_whole1 w).set_eq_univ, hF w]

/-- The pipeline's arrays, window by window: the two adjacency windows at the two halves of the share. -/
theorem arrays1_chain (c : Dev nD) (F' : (w : Fin cfg1.W) → Buf (Elt F) ((cfg1.win w).arr.view.loc (c : Thread nD τ)))
    (hF : ∀ w, F' w = V c (Pipeline.arrRef spec1 w)) :
    ((Reg1.dat1 V c).arrays F' : sProp 𝕄) = (let Vc := V c; iprop((((c : Thread nD τ).loc main_arg1) ↦{fullShare.left} Vc main_arg1) ∗ (((c : Thread nD τ).loc main_arg1) ↦{fullShare.right} Vc main_arg1) ∗ (((c : Thread nD τ).loc main_v20_0) ↦{fullShare} Vc main_v20_0) ∗ (((c : Thread nD τ).loc main_v20_1) ↦{fullShare} Vc main_v20_1) ∗ (((c : Thread nD τ).loc main_v12) ↦{fullShare} Vc main_v12) ∗ (((c : Thread nD τ).loc main_v15) ↦{fullShare} Vc main_v15) ∗ (((c : Thread nD τ).loc main_v16) ↦{fullShare} Vc main_v16) ∗ (((c : Thread nD τ).loc main_v17) ↦{fullShare} Vc main_v17) ∗ (((c : Thread nD τ).loc main_v21_0) ↦{fullShare} Vc main_v21_0) ∗ (((c : Thread nD τ).loc main_v21_1) ↦{fullShare} Vc main_v21_1) ∗ (((c : Thread nD τ).loc main_v21_2) ↦{fullShare} Vc main_v21_2) ∗ (((c : Thread nD τ).loc main_v21_3) ↦{fullShare} Vc main_v21_3))) := by
  unfold Dat.arrays
  rw [bigSep_congr (fun w _ => arr1_w V c F' hF w), bigSep_W1]
  rfl

/-- The distinct buffers behind the windows, each whole at the full share. -/
theorem arrBufs1_chain (c : Dev nD) :
    (Pipeline.arrBufs spec1 c (V c) : sProp 𝕄) = (let Vc := V c; iprop((((c : Thread nD τ).loc main_arg1) ↦{fullShare} Vc main_arg1) ∗ (((c : Thread nD τ).loc main_v20_0) ↦{fullShare} Vc main_v20_0) ∗ (((c : Thread nD τ).loc main_v20_1) ↦{fullShare} Vc main_v20_1) ∗ (((c : Thread nD τ).loc main_v12) ↦{fullShare} Vc main_v12) ∗ (((c : Thread nD τ).loc main_v15) ↦{fullShare} Vc main_v15) ∗ (((c : Thread nD τ).loc main_v16) ↦{fullShare} Vc main_v16) ∗ (((c : Thread nD τ).loc main_v17) ↦{fullShare} Vc main_v17) ∗ (((c : Thread nD τ).loc main_v21_0) ↦{fullShare} Vc main_v21_0) ∗ (((c : Thread nD τ).loc main_v21_1) ↦{fullShare} Vc main_v21_1) ∗ (((c : Thread nD τ).loc main_v21_2) ↦{fullShare} Vc main_v21_2) ∗ (((c : Thread nD τ).loc main_v21_3) ↦{fullShare} Vc main_v21_3))) := by
  unfold Pipeline.arrBufs
  rw [bigSep_eq_bigSepL_of_eq [main_arg1, main_v20_0, main_v20_1, main_v12, main_v15, main_v16, main_v17, main_v21_0, main_v21_1, main_v21_2, main_v21_3] (by decide) (by decide)]
  rfl

/-- ENTRY: the buffers become the pipeline's arrays, the adjacency's full share dealt in halves to its two windows. -/
theorem arrays1_split (c : Dev nD) (F' : (w : Fin cfg1.W) → Buf (Elt F) ((cfg1.win w).arr.view.loc (c : Thread nD τ)))
    (hF : ∀ w, F' w = V c (Pipeline.arrRef spec1 w)) :
    (Pipeline.arrBufs spec1 c (V c) : sProp 𝕄) ⊢ (Reg1.dat1 V c).arrays F' := by
  rw [arrays1_chain V c F' hF, arrBufs1_chain V c]
  dsimp only
  iintro ⟨B0, B1, B2, B3, B4, B5, B6, B7, B8, B9, B10⟩
  ihave Hh := (pointsTo_share (PosShare.mem_left_op_right fullShare)).1 $$ B0
  icases Hh with ⟨Hl, Hr⟩
  isplitl [Hl]; · iexact Hl
  isplitl [Hr]; · iexact Hr
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact B10

end

section
variable (V V' : (c : Dev nD) → (b : Ref sig .tc) → Buf (Elt F) ((c : Thread nD τ).loc b))

/-- EXIT: the pipeline's arrays, at contents read off a valuation `V'`, are the buffers at `V'`: the two halves of
    the adjacency's share come back together. (The proof data is stated at the ENTRY valuation `V`; only its shares matter here.) -/
theorem arrays1_join (c : Dev nD) (F' : (w : Fin cfg1.W) → Buf (Elt F) ((cfg1.win w).arr.view.loc (c : Thread nD τ)))
    (hF : ∀ w, F' w = V' c (Pipeline.arrRef spec1 w)) :
    ((Reg1.dat1 V c).arrays F' : sProp 𝕄) ⊢ Pipeline.arrBufs spec1 c (V' c) := by
  rw [arrBufs1_chain V' c]
  have h : ((Reg1.dat1 V c).arrays F' : sProp 𝕄) = (let Vc := V' c; iprop((((c : Thread nD τ).loc main_arg1) ↦{fullShare.left} Vc main_arg1) ∗ (((c : Thread nD τ).loc main_arg1) ↦{fullShare.right} Vc main_arg1) ∗ (((c : Thread nD τ).loc main_v20_0) ↦{fullShare} Vc main_v20_0) ∗ (((c : Thread nD τ).loc main_v20_1) ↦{fullShare} Vc main_v20_1) ∗ (((c : Thread nD τ).loc main_v12) ↦{fullShare} Vc main_v12) ∗ (((c : Thread nD τ).loc main_v15) ↦{fullShare} Vc main_v15) ∗ (((c : Thread nD τ).loc main_v16) ↦{fullShare} Vc main_v16) ∗ (((c : Thread nD τ).loc main_v17) ↦{fullShare} Vc main_v17) ∗ (((c : Thread nD τ).loc main_v21_0) ↦{fullShare} Vc main_v21_0) ∗ (((c : Thread nD τ).loc main_v21_1) ↦{fullShare} Vc main_v21_1) ∗ (((c : Thread nD τ).loc main_v21_2) ↦{fullShare} Vc main_v21_2) ∗ (((c : Thread nD τ).loc main_v21_3) ↦{fullShare} Vc main_v21_3))) := by
    unfold Dat.arrays
    rw [bigSep_congr (fun w _ => show ((cfg1.win w).arr.view.loc (c : Thread nD τ) ↦[(cfg1.win w).arr.view.set]{(Reg1.dat1 V c).share w} F' w : sProp 𝕄)
      = (((c : Thread nD τ).loc (Pipeline.arrRef spec1 w)) ↦{(Reg1.dat1 V c).share w} V' c (Pipeline.arrRef spec1 w)) from by rw [(arr_whole1 w).set_eq_univ, hF w]), bigSep_W1]
    rfl
  rw [h]
  dsimp only
  iintro ⟨A0, A1, A2, A3, A4, A5, A6, A7, A8, A9, A10, A11⟩
  ihave Hj := (pointsTo_share (PosShare.mem_left_op_right fullShare)).2 $$ [A0 A1]
  · isplitl [A0]; · iexact A0
    iexact A1
  isplitl [Hj]; · iexact Hj
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  iexact A11

end

end Cert.KernelIdeal.Shares

end
-- ==== Proof.Records.lean ====
/-
  The two pallas_calls as segments of the program, and the program's frame.

  Between two items of the program (a stretch of host operations, a pallas_call) the core holds every unscoped
  buffer at a known valuation: the launch contents, then the host operations' results, then — after the first
  pallas_call — the same with its two result arrays at what its write-backs left, then — after the second — with
  its four result arrays likewise. Each pallas_call is entered by dealing the buffers behind its windows out of
  that state (the adjacency's share in halves to its two windows), run by the pipeline rule from its body
  obligation, and left by collecting the arrays back. The generator register and "the core owes nothing" ride
  along. The frame claim — every argument array ends as launched — then follows from the generated conditional
  frame.
-/
import proofs.«152953_g41188736369293_cont_8to1_b_1949_15_alg».proof.Proof.Shares
import proofs.«152953_g41188736369293_cont_8to1_b_1949_15_alg».proof.Proof.Gen.KernelIdeal.Regions

set_option maxRecDepth 16384

noncomputable section

namespace Cert.KernelIdeal.Rec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at the regions' boundaries -/

/-- What the first pallas_call is entered from: the launch contents after the host operations before it. -/
abbrev VA (c : Dev nD) (b : Ref sig .tc) : Buf (Elt F) ((c : Thread nD τ).loc b) := Gen.V1 m c b

/-- After the first pallas_call: its two result arrays at what its write-backs left, everything else as entered. -/
def W2 (c : Dev nD) : Valuation τ sig (Elt F) :=
  Function.update (Function.update (Gen.V1 m c) main_v20_0 ((Reg0.dat0 (VA m) c).arrAt 7 cfg0.N)) main_v20_1 ((Reg0.dat0 (VA m) c).arrAt 8 cfg0.N)

/-- What the second pallas_call is entered from (no host operation stands between the two). -/
abbrev VB (c : Dev nD) (b : Ref sig .tc) : Buf (Elt F) ((c : Thread nD τ).loc b) := W2 m c b

/-- After the second pallas_call: its four result arrays at what its write-backs left. -/
def W3 (c : Dev nD) : Valuation τ sig (Elt F) :=
  Function.update (Function.update (Function.update (Function.update (W2 m c) main_v21_0 ((Reg1.dat1 (VB m) c).arrAt 8 cfg1.N)) main_v21_1 ((Reg1.dat1 (VB m) c).arrAt 9 cfg1.N)) main_v21_2 ((Reg1.dat1 (VB m) c).arrAt 10 cfg1.N)) main_v21_3 ((Reg1.dat1 (VB m) c).arrAt 11 cfg1.N)

/-- The same read at the TensorCore's references. -/
abbrev VC (c : Dev nD) (b : Ref sig .tc) : Buf (Elt F) ((c : Thread nD τ).loc b) := W3 m c b

/-- What the regions leave in the buffers they may change, read off the two valuations. -/
def outs : Gen.Outs (F := F) := fun J r c => if J = 2 then W2 m c r else W3 m c r

theorem W2_of_ne (c : Dev nD) (b : Ref sig .tc) (h0 : b ≠ main_v20_0) (h1 : b ≠ main_v20_1) : W2 m c b = Gen.V1 m c b := by
  unfold W2; rw [Function.update_of_ne (StableHlo.devRef_ne_of_ne h1), Function.update_of_ne (StableHlo.devRef_ne_of_ne h0)]
theorem W2_v20_0 (c : Dev nD) : W2 m c main_v20_0 = (Reg0.dat0 (VA m) c).arrAt 7 cfg0.N := by
  unfold W2; rw [Function.update_of_ne (StableHlo.devRef_ne_of_ne (by decide) : (Proc.devRef .tc main_v20_0 : DevRef τ sig) ≠ Proc.devRef .tc main_v20_1), Function.update_self]
theorem W2_v20_1 (c : Dev nD) : W2 m c main_v20_1 = (Reg0.dat0 (VA m) c).arrAt 8 cfg0.N := by
  unfold W2; rw [Function.update_self]

theorem W3_of_ne (c : Dev nD) (b : Ref sig .tc) (h0 : b ≠ main_v21_0) (h1 : b ≠ main_v21_1) (h2 : b ≠ main_v21_2) (h3 : b ≠ main_v21_3) : W3 m c b = W2 m c b := by
  unfold W3; rw [Function.update_of_ne (StableHlo.devRef_ne_of_ne h3), Function.update_of_ne (StableHlo.devRef_ne_of_ne h2), Function.update_of_ne (StableHlo.devRef_ne_of_ne h1), Function.update_of_ne (StableHlo.devRef_ne_of_ne h0)]
theorem W3_v21_0 (c : Dev nD) : W3 m c main_v21_0 = (Reg1.dat1 (VB m) c).arrAt 8 cfg1.N := by
  unfold W3; rw [Function.update_of_ne (StableHlo.devRef_ne_of_ne (by decide) : (Proc.devRef .tc main_v21_0 : DevRef τ sig) ≠ Proc.devRef .tc main_v21_3), Function.update_of_ne (StableHlo.devRef_ne_of_ne (by decide) : (Proc.devRef .tc main_v21_0 : DevRef τ sig) ≠ Proc.devRef .tc main_v21_2), Function.update_of_ne (StableHlo.devRef_ne_of_ne (by decide) : (Proc.devRef .tc main_v21_0 : DevRef τ sig) ≠ Proc.devRef .tc main_v21_1), Function.update_self]
theorem W3_v21_1 (c : Dev nD) : W3 m c main_v21_1 = (Reg1.dat1 (VB m) c).arrAt 9 cfg1.N := by
  unfold W3; rw [Function.update_of_ne (StableHlo.devRef_ne_of_ne (by decide) : (Proc.devRef .tc main_v21_1 : DevRef τ sig) ≠ Proc.devRef .tc main_v21_3), Function.update_of_ne (StableHlo.devRef_ne_of_ne (by decide) : (Proc.devRef .tc main_v21_1 : DevRef τ sig) ≠ Proc.devRef .tc main_v21_2), Function.update_self]
theorem W3_v21_2 (c : Dev nD) : W3 m c main_v21_2 = (Reg1.dat1 (VB m) c).arrAt 10 cfg1.N := by
  unfold W3; rw [Function.update_of_ne (StableHlo.devRef_ne_of_ne (by decide) : (Proc.devRef .tc main_v21_2 : DevRef τ sig) ≠ Proc.devRef .tc main_v21_3), Function.update_self]
theorem W3_v21_3 (c : Dev nD) : W3 m c main_v21_3 = (Reg1.dat1 (VB m) c).arrAt 11 cfg1.N := by
  unfold W3; rw [Function.update_self]

/-- The generated boundary valuations, at these contents, are the two above. -/
theorem V2_eq (c : Dev nD) : Gen.V2 m (outs m) c = W2 m c := by
  have h0 : outs m 2 main_v20_0 c = (Reg0.dat0 (VA m) c).arrAt 7 cfg0.N := by unfold outs; rw [if_pos rfl]; exact W2_v20_0 m c
  have h1 : outs m 2 main_v20_1 c = (Reg0.dat0 (VA m) c).arrAt 8 cfg0.N := by unfold outs; rw [if_pos rfl]; exact W2_v20_1 m c
  show Function.update (Function.update (Gen.V1 m c) main_v20_0 (outs m 2 main_v20_0 c)) main_v20_1 (outs m 2 main_v20_1 c) = _
  rw [h0, h1]; rfl
theorem V3_eq (c : Dev nD) : Gen.V3 m (outs m) c = W3 m c := by
  have h0 : outs m 3 main_v21_0 c = (Reg1.dat1 (VB m) c).arrAt 8 cfg1.N := by unfold outs; rw [if_neg (by decide)]; exact W3_v21_0 m c
  have h1 : outs m 3 main_v21_1 c = (Reg1.dat1 (VB m) c).arrAt 9 cfg1.N := by unfold outs; rw [if_neg (by decide)]; exact W3_v21_1 m c
  have h2 : outs m 3 main_v21_2 c = (Reg1.dat1 (VB m) c).arrAt 10 cfg1.N := by unfold outs; rw [if_neg (by decide)]; exact W3_v21_2 m c
  have h3 : outs m 3 main_v21_3 c = (Reg1.dat1 (VB m) c).arrAt 11 cfg1.N := by unfold outs; rw [if_neg (by decide)]; exact W3_v21_3 m c
  show Function.update (Function.update (Function.update (Function.update (Gen.V2 m (outs m) c) main_v21_0 (outs m 3 main_v21_0 c)) main_v21_1 (outs m 3 main_v21_1 c)) main_v21_2 (outs m 3 main_v21_2 c)) main_v21_3 (outs m 3 main_v21_3 c) = _
  rw [h0, h1, h2, h3, V2_eq]; rfl

/-! ## Each pipeline's arrays at its exit, read off the next valuation -/

theorem hF0_0 (c : Dev nD) : (Reg0.dat0 (VA m) c).arrAt 0 cfg0.N = VB m c (Pipeline.arrRef spec0 0) := by
  rw [(Reg0.dat0 (VA m) c).arrAt_in 0 rfl _, Reg0.A_eq0]
  show VA m c main_arg0 = VB m c main_arg0
  exact (W2_of_ne m c main_arg0 (by decide) (by decide)).symm
theorem hF0_1 (c : Dev nD) : (Reg0.dat0 (VA m) c).arrAt 1 cfg0.N = VB m c (Pipeline.arrRef spec0 1) := by
  rw [(Reg0.dat0 (VA m) c).arrAt_in 1 rfl _, Reg0.A_eq0]
  show VA m c main_v18 = VB m c main_v18
  exact (W2_of_ne m c main_v18 (by decide) (by decide)).symm
theorem hF0_2 (c : Dev nD) : (Reg0.dat0 (VA m) c).arrAt 2 cfg0.N = VB m c (Pipeline.arrRef spec0 2) := by
  rw [(Reg0.dat0 (VA m) c).arrAt_in 2 rfl _, Reg0.A_eq0]
  show VA m c main_arg1 = VB m c main_arg1
  exact (W2_of_ne m c main_arg1 (by decide) (by decide)).symm
theorem hF0_3 (c : Dev nD) : (Reg0.dat0 (VA m) c).arrAt 3 cfg0.N = VB m c (Pipeline.arrRef spec0 3) := by
  rw [(Reg0.dat0 (VA m) c).arrAt_in 3 rfl _, Reg0.A_eq0]
  show VA m c main_arg1 = VB m c main_arg1
  exact (W2_of_ne m c main_arg1 (by decide) (by decide)).symm
theorem hF0_4 (c : Dev nD) : (Reg0.dat0 (VA m) c).arrAt 4 cfg0.N = VB m c (Pipeline.arrRef spec0 4) := by
  rw [(Reg0.dat0 (VA m) c).arrAt_in 4 rfl _, Reg0.A_eq0]
  show VA m c main_v4 = VB m c main_v4
  exact (W2_of_ne m c main_v4 (by decide) (by decide)).symm
theorem hF0_5 (c : Dev nD) : (Reg0.dat0 (VA m) c).arrAt 5 cfg0.N = VB m c (Pipeline.arrRef spec0 5) := by
  rw [(Reg0.dat0 (VA m) c).arrAt_in 5 rfl _, Reg0.A_eq0]
  show VA m c main_v7 = VB m c main_v7
  exact (W2_of_ne m c main_v7 (by decide) (by decide)).symm
theorem hF0_6 (c : Dev nD) : (Reg0.dat0 (VA m) c).arrAt 6 cfg0.N = VB m c (Pipeline.arrRef spec0 6) := by
  rw [(Reg0.dat0 (VA m) c).arrAt_in 6 rfl _, Reg0.A_eq0]
  show VA m c main_v19 = VB m c main_v19
  exact (W2_of_ne m c main_v19 (by decide) (by decide)).symm
theorem hF0_7 (c : Dev nD) : (Reg0.dat0 (VA m) c).arrAt 7 cfg0.N = VB m c (Pipeline.arrRef spec0 7) := by
  show _ = VB m c main_v20_0; exact (W2_v20_0 m c).symm
theorem hF0_8 (c : Dev nD) : (Reg0.dat0 (VA m) c).arrAt 8 cfg0.N = VB m c (Pipeline.arrRef spec0 8) := by
  show _ = VB m c main_v20_1; exact (W2_v20_1 m c).symm
theorem hF0 (c : Dev nD) : ∀ w : Fin cfg0.W, (Reg0.dat0 (VA m) c).arrAt w cfg0.N = VB m c (Pipeline.arrRef spec0 w) :=
  fun | 0 => hF0_0 m c | 1 => hF0_1 m c | 2 => hF0_2 m c | 3 => hF0_3 m c | 4 => hF0_4 m c | 5 => hF0_5 m c | 6 => hF0_6 m c | 7 => hF0_7 m c | 8 => hF0_8 m c | ⟨_ + 9, h⟩ => absurd h (Nat.not_lt.2 (Nat.le_add_left _ _))
theorem hrest0 (c : Dev nD) (b : Ref sig .tc) (hb : b ∉ Finset.univ.image (Pipeline.arrRef spec0)) : VB m c b = VA m c b :=
  W2_of_ne m c b (fun e => hb (Finset.mem_image.mpr ⟨7, Finset.mem_univ _, e.symm⟩)) (fun e => hb (Finset.mem_image.mpr ⟨8, Finset.mem_univ _, e.symm⟩))

theorem hF1_0 (c : Dev nD) : (Reg1.dat1 (VB m) c).arrAt 0 cfg1.N = VC m c (Pipeline.arrRef spec1 0) := by
  rw [(Reg1.dat1 (VB m) c).arrAt_in 0 rfl _, Reg1.A_eq1]
  show VB m c main_arg1 = VC m c main_arg1
  exact (W3_of_ne m c main_arg1 (by decide) (by decide) (by decide) (by decide)).symm
theorem hF1_1 (c : Dev nD) : (Reg1.dat1 (VB m) c).arrAt 1 cfg1.N = VC m c (Pipeline.arrRef spec1 1) := by
  rw [(Reg1.dat1 (VB m) c).arrAt_in 1 rfl _, Reg1.A_eq1]
  show VB m c main_arg1 = VC m c main_arg1
  exact (W3_of_ne m c main_arg1 (by decide) (by decide) (by decide) (by decide)).symm
theorem hF1_2 (c : Dev nD) : (Reg1.dat1 (VB m) c).arrAt 2 cfg1.N = VC m c (Pipeline.arrRef spec1 2) := by
  rw [(Reg1.dat1 (VB m) c).arrAt_in 2 rfl _, Reg1.A_eq1]
  show VB m c main_v20_0 = VC m c main_v20_0
  exact (W3_of_ne m c main_v20_0 (by decide) (by decide) (by decide) (by decide)).symm
theorem hF1_3 (c : Dev nD) : (Reg1.dat1 (VB m) c).arrAt 3 cfg1.N = VC m c (Pipeline.arrRef spec1 3) := by
  rw [(Reg1.dat1 (VB m) c).arrAt_in 3 rfl _, Reg1.A_eq1]
  show VB m c main_v20_1 = VC m c main_v20_1
  exact (W3_of_ne m c main_v20_1 (by decide) (by decide) (by decide) (by decide)).symm
theorem hF1_4 (c : Dev nD) : (Reg1.dat1 (VB m) c).arrAt 4 cfg1.N = VC m c (Pipeline.arrRef spec1 4) := by
  rw [(Reg1.dat1 (VB m) c).arrAt_in 4 rfl _, Reg1.A_eq1]
  show VB m c main_v12 = VC m c main_v12
  exact (W3_of_ne m c main_v12 (by decide) (by decide) (by decide) (by decide)).symm
theorem hF1_5 (c : Dev nD) : (Reg1.dat1 (VB m) c).arrAt 5 cfg1.N = VC m c (Pipeline.arrRef spec1 5) := by
  rw [(Reg1.dat1 (VB m) c).arrAt_in 5 rfl _, Reg1.A_eq1]
  show VB m c main_v15 = VC m c main_v15
  exact (W3_of_ne m c main_v15 (by decide) (by decide) (by decide) (by decide)).symm
theorem hF1_6 (c : Dev nD) : (Reg1.dat1 (VB m) c).arrAt 6 cfg1.N = VC m c (Pipeline.arrRef spec1 6) := by
  rw [(Reg1.dat1 (VB m) c).arrAt_in 6 rfl _, Reg1.A_eq1]
  show VB m c main_v16 = VC m c main_v16
  exact (W3_of_ne m c main_v16 (by decide) (by decide) (by decide) (by decide)).symm
theorem hF1_7 (c : Dev nD) : (Reg1.dat1 (VB m) c).arrAt 7 cfg1.N = VC m c (Pipeline.arrRef spec1 7) := by
  rw [(Reg1.dat1 (VB m) c).arrAt_in 7 rfl _, Reg1.A_eq1]
  show VB m c main_v17 = VC m c main_v17
  exact (W3_of_ne m c main_v17 (by decide) (by decide) (by decide) (by decide)).symm
theorem hF1_8 (c : Dev nD) : (Reg1.dat1 (VB m) c).arrAt 8 cfg1.N = VC m c (Pipeline.arrRef spec1 8) := by
  show _ = VC m c main_v21_0; exact (W3_v21_0 m c).symm
theorem hF1_9 (c : Dev nD) : (Reg1.dat1 (VB m) c).arrAt 9 cfg1.N = VC m c (Pipeline.arrRef spec1 9) := by
  show _ = VC m c main_v21_1; exact (W3_v21_1 m c).symm
theorem hF1_10 (c : Dev nD) : (Reg1.dat1 (VB m) c).arrAt 10 cfg1.N = VC m c (Pipeline.arrRef spec1 10) := by
  show _ = VC m c main_v21_2; exact (W3_v21_2 m c).symm
theorem hF1_11 (c : Dev nD) : (Reg1.dat1 (VB m) c).arrAt 11 cfg1.N = VC m c (Pipeline.arrRef spec1 11) := by
  show _ = VC m c main_v21_3; exact (W3_v21_3 m c).symm
theorem hF1 (c : Dev nD) : ∀ w : Fin cfg1.W, (Reg1.dat1 (VB m) c).arrAt w cfg1.N = VC m c (Pipeline.arrRef spec1 w) :=
  fun | 0 => hF1_0 m c | 1 => hF1_1 m c | 2 => hF1_2 m c | 3 => hF1_3 m c | 4 => hF1_4 m c | 5 => hF1_5 m c | 6 => hF1_6 m c | 7 => hF1_7 m c | 8 => hF1_8 m c | 9 => hF1_9 m c | 10 => hF1_10 m c | 11 => hF1_11 m c | ⟨_ + 12, h⟩ => absurd h (Nat.not_lt.2 (Nat.le_add_left _ _))
theorem hrest1 (c : Dev nD) (b : Ref sig .tc) (hb : b ∉ Finset.univ.image (Pipeline.arrRef spec1)) : VC m c b = VB m c b :=
  W3_of_ne m c b (fun e => hb (Finset.mem_image.mpr ⟨8, Finset.mem_univ _, e.symm⟩)) (fun e => hb (Finset.mem_image.mpr ⟨9, Finset.mem_univ _, e.symm⟩))
    (fun e => hb (Finset.mem_image.mpr ⟨10, Finset.mem_univ _, e.symm⟩)) (fun e => hb (Finset.mem_image.mpr ⟨11, Finset.mem_univ _, e.symm⟩))

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => Reg0.dat0 (VA m) c
  | ⟨1, _⟩ => fun c => Reg1.dat1 (VB m) c

abbrev 𝒱₀ : Variants := Variants.none
abbrev L : GSem nD τ sig → Finset Unit := fun _ => ∅
abbrev lv : GSem nD τ sig → Unit → ℕ := fun _ _ => 0
/-- Beside the buffers: the generator register at some state, and nothing owed. -/
abbrev Rr (c : Dev nD) : sProp 𝕄 := iprop((∃ r, prngReg c r) ∗ ∃ W, owes (c : Thread nD τ) (0 : CellTallies nD τ sig Unit) W)

/-! ## Entering and leaving a region: the buffers dealt out and collected -/

theorem entry0 (c : Dev nD) : (StableHlo.held (c : Thread nD τ) (Pipeline.ucRefs τ sig) (Gen.V1 m c) : sProp 𝕄)
    ⊢ iprop((Reg0.dat0 (VA m) c).arrays ((Reg0.dat0 (VA m) c).arrAt · 0) ∗ Pipeline.unscopedRest spec0 c (VA m c)) := by
  rw [← Pipeline.unscopedBufs_held (Ix := Unit) (Name := ℕ) (U := UR sig nD τ) (Lvl := ℕ) c (Gen.V1 m c),
    Pipeline.unscopedBufs_split₀ cfgs 0 winFacts₀0.arr_unscoped c (VA m c)]
  exact sep_mono (Shares.arrays0_split (VA m) c _ (fun _ => rfl)) .rfl

theorem exit0 (c : Dev nD) : iprop((Reg0.dat0 (VA m) c).arrays ((Reg0.dat0 (VA m) c).arrAt · cfg0.N) ∗ Pipeline.unscopedRest spec0 c (VA m c))
    ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c (VB m c)]
  refine sep_mono (Shares.arrays0_join (VA m) (VB m) c _ (hF0 m c)) (Entails.of_eq ?_)
  unfold Pipeline.unscopedRest
  exact bigSep_congr fun b hb => by rw [hrest0 m c b (Finset.mem_sdiff.mp hb).2]

theorem entry1 (c : Dev nD) : (StableHlo.held (c : Thread nD τ) (Pipeline.ucRefs τ sig) (W2 m c) : sProp 𝕄)
    ⊢ iprop((Reg1.dat1 (VB m) c).arrays ((Reg1.dat1 (VB m) c).arrAt · 0) ∗ Pipeline.unscopedRest spec1 c (VB m c)) := by
  rw [← Pipeline.unscopedBufs_held (Ix := Unit) (Name := ℕ) (U := UR sig nD τ) (Lvl := ℕ) c (W2 m c),
    Pipeline.unscopedBufs_split₀ cfgs 1 winFacts₀1.arr_unscoped c (VB m c)]
  exact sep_mono (Shares.arrays1_split (VB m) c _ (fun _ => rfl)) .rfl

theorem exit1 (c : Dev nD) : iprop((Reg1.dat1 (VB m) c).arrays ((Reg1.dat1 (VB m) c).arrAt · cfg1.N) ∗ Pipeline.unscopedRest spec1 c (VB m c))
    ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c),
    Pipeline.unscopedBufs_split₀ cfgs 1 winFacts₀1.arr_unscoped c (VC m c)]
  refine sep_mono (Shares.arrays1_join (VB m) (VC m) c _ (hF1 m c)) (Entails.of_eq ?_)
  unfold Pipeline.unscopedRest
  exact bigSep_congr fun b hb => by rw [hrest1 m c b (Finset.mem_sdiff.mp hb).2]

end Cert.KernelIdeal.Rec

end
-- ==== Proof.Segs.lean ====
/-
  The two pallas_calls as region records, and the program's frame.

  A region record says how a pallas_call is entered from the program state before it and how it gives that state
  back: the buffers behind its windows are dealt to the pipeline (the adjacency in two half-shares), the generator
  register and the scoped buffers the kernel may use go into the body's invariant, every other unscoped buffer
  passes by untouched; at the exit the arrays come back at what the write-backs left. The first pallas_call's
  invariant also carries the scratch buffer: taken out of the scoped buffers at entry at unknown contents, handed
  back at the end. With both records the generated conditional frame gives the frame claim: every weakly fair
  execution terminates, nothing faults, and each argument array ends as launched.
-/
import proofs.«152953_g41188736369293_cont_8to1_b_1949_15_alg».proof.Proof.Records

set_option maxRecDepth 16384

noncomputable section

namespace Cert.KernelIdeal.Segs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Rec

variable {F : FTy → Type} [FloatOps F]

local notation "𝕄" => MT nD τ sig Unit (Elt F) ℕ (UR sig nD τ) ℕ

variable (m : (ℓ : Loc nD τ sig) → Buf (Elt F) ℓ)

/-- The first pallas_call's invariant at its first position, from the generator register and the scoped buffers no
    window stages: the scratch is one of those, at unknown contents. -/
theorem phi0_in (c : Dev nD) :
    iprop((∃ r, prngReg c r) ∗ Pipeline.scopedRest (Ix := Unit) (Name := ℕ) (U := UR sig nD τ) (Lvl := ℕ) (Val := Elt F) spec0 c)
      ⊢ (Reg0.Phi0 (VA m) c 0 : sProp 𝕄) := by
  unfold Reg0.Phi0
  rw [if_pos (show ((0 : Fin (cfg0.N + 1))).val = 0 from rfl), scopedRest0_eq]
  iintro ⟨Hp, ⟨%f, Hs⟩, Hr⟩
  isplitl [Hs]
  · iexists f; rw [owns_whole_eq]; iexists f; isplitr; · ipureintro; rfl
    iexact Hs
  isplitl [Hr]; · unfold Reg0.restScoped; iexact Hr
  iexact Hp

/-- and at its last position it gives them back, the scratch at whatever it now holds. -/
theorem phi0_out (c : Dev nD) :
    (Reg0.Phi0 (VA m) c (Fin.last cfg0.N) : sProp 𝕄)
      ⊢ iprop((∃ r, prngReg c r) ∗ Pipeline.scopedRest (Ix := Unit) (Name := ℕ) (U := UR sig nD τ) (Lvl := ℕ) (Val := Elt F) spec0 c) := by
  unfold Reg0.Phi0
  rw [if_neg (show ¬ (Fin.last cfg0.N).val = 0 from by decide), scopedRest0_eq, owns_whole_eq]
  iintro ⟨⟨%f, -, Hs⟩, Hr, Hp⟩
  isplitl [Hp]; · iexact Hp
  isplitl [Hs]; · iexists f; iexact Hs
  unfold Reg0.restScoped; iexact Hr

set_option backward.isDefEq.respectTransparency.types false in
/-- The first pallas_call: entered from the state after the host operations before it, left with its two result arrays
    at what its write-backs leave. The scratch goes into the invariant at unknown contents and comes back at the end. -/
def reg0 : RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (Reg0.body_obligation0 (VA m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Reg0.Phi0 (VA m) c 0 from rfl]
    iintro ⟨Hp, -, Hr⟩
    iapply (phi0_in m c)
    isplitl [Hp]; · iexact Hp
    iexact Hr
  hout c := by
    rw [Pipeline.ownSems0_none, show (pdats m 0 c).Φ (Fin.last _) = Reg0.Phi0 (VA m) c (Fin.last cfg0.N) from rfl]
    refine (phi0_out m c).trans ?_
    iintro ⟨Hp, Hr⟩
    isplitl [Hp]; · iexact Hp
    isplitr; · iempintro
    iexact Hr
  hexit c := by
    iintro ⟨Ha, HO, HY, Hrest⟩
    imodintro
    have hjoin : iprop((pdats m 0 c).arrays ((pdats m 0 c).arrAt · cfg0.N) ∗ Pipeline.unscopedRest spec0 c (VA m c))
        ⊢ (StableHlo.held (c : Thread nD τ) (Pipeline.ucRefs τ sig) (W2 m c) : sProp 𝕄) := exit0 m c
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from what the first left, left with its four result arrays at what its
    write-backs leave. Its body keeps nothing between points. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation1 (VB m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    have hjoin : iprop((pdats m 1 c).arrays ((pdats m 1 c).arrAt · cfg1.N) ∗ Pipeline.unscopedRest spec1 c (VB m c))
        ⊢ (StableHlo.held (c : Thread nD τ) (Pipeline.ucRefs τ sig) (W3 m c) : sProp 𝕄) := exit1 m c
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE FRAME, at any float instance: from any memory with zero counters every weakly fair execution of the program
    terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Gen.frame_cond (m := m) (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)

/-- info: 'Cert.KernelIdeal.Segs.frame' depends on axioms: [propext, Classical.choice, Quot.sound] -/
#guard_msgs in #print axioms frame

end Cert.KernelIdeal.Segs

end
-- ==== Proof.RunAll.lean ====
/-
  The program's run with every buffer named at the end.

  The frame says the argument arrays end as launched. For the results one needs more: at the end every unscoped
  buffer holds what the last valuation says — the launch contents carried through the host operations before the
  pallas_calls, the two pallas_calls' write-backs, and the host operations after them (two concatenations, which
  put the top-half and bottom-half results together). This is the same composition of segments that gives the
  frame, read at every buffer instead of at the arguments only.
-/
import proofs.«152953_g41188736369293_cont_8to1_b_1949_15_alg».proof.Proof.Segs

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Rec Cert.KernelIdeal.Segs

variable {F : FTy → Type} [FloatOps F]

local notation "𝕄" => MT nD τ sig Unit (Elt F) ℕ (UR sig nD τ) ℕ

variable (m : (ℓ : Loc nD τ sig) → Buf (Elt F) ℓ)

/-- The contents of every unscoped buffer when the program returns. -/
abbrev Wend (c : Dev nD) : Valuation τ sig (Elt F) := StableHlo.after hostOps2 (W3 m c)

theorem V4_eq (c : Dev nD) : Gen.V4 m (outs m) c = Wend m c := by
  show StableHlo.after hostOps2 (Gen.V3 m (outs m) c) = _
  rw [V3_eq]

set_option backward.isDefEq.respectTransparency.types false in
/-- From any memory with zero counters every weakly fair execution of the program terminates, nothing faulting, and
    every unscoped buffer ends at the last valuation's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Wend m c b) := by
  have hpost1 : ∀ c : Dev nD, (reg1 m).post c ⊢ (iprop(StableHlo.held (c : Thread nD τ) (Pipeline.ucRefs τ sig) (Gen.V3 m (outs m) c) ∗ Rr c) : sProp 𝕄) :=
    fun c => by rw [V3_eq]; exact .rfl
  have hE2 : ∀ c : Dev nD, (Rr c : sProp 𝕄) ⊢ iprop(∃ W, owes (c : Thread nD τ) (0 : CellTallies nD τ sig Unit) W) :=
    fun c => by iintro ⟨-, HO⟩; iexact HO
  refine Pipeline.θ_run_regions_kit_dev (pcfgs (F := F)) Gen.adm (pdats m) () cellOf_inj emb₁ defs₀ 𝒱₀ L lv m ρ main
    (Gen.segs m (outs m) 𝒱₀ L lv (fun _ c => Rr c) () (pdats m) (reg0 m) (reg1 m))
    (fun c Q => by
      rewrite [main_chain c, Seg.run_eq_chain,
        show (Gen.segs m (outs m) 𝒱₀ L lv (fun _ c => Rr c) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V4 m (outs m) c))
    (hch := fun c => ⟨.rfl, .rfl, .rfl, hpost1 c, sep_mono .rfl (hE2 c)⟩)
    (hinit := ?_) (QY := fun c s => ∀ b ∈ Pipeline.ucRefs τ sig, s.mem ((c : Thread nD τ).1, b) = Wend m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · rw [V4_eq]
    unfold StableHlo.held
    iintro ⟨Hh, HSI⟩
    imodintro
    iapply (pointsTo_read_all (Pipeline.ucRefs τ sig) (fun b => ((c : Thread nD τ).1, b)) (Wend m c) s')
    isplitl [Hh] <;> iassumption

/-- info: 'Cert.KernelIdeal.RunAll.run_all' depends on axioms: [propext, Classical.choice, Quot.sound] -/
#guard_msgs in #print axioms run_all

end Cert.KernelIdeal.RunAll

end
-- ==== Proof.Spec.lean ====
/-
  The two closed forms of the computation, over extended reals, as functions of the fourteen argument arrays.

  A two-layer graph convolution with inference-mode batch normalisation and a linear decoder, over
  x[10000,128], adj[10000,10000], W1[128,128], W2[128,64], g1 b1 m1 v1 [128], g2 b2 m2 v2 [64], decW[1,64], decb[1].

  * The FOLDED form (suffix K): the normalisation is a per-channel scale s = g / sqrt (v + eps) and shift
    sh = b - m * s applied as acc * s + sh, and the 10000-term contraction of the second aggregation is the sum of
    its two halves of 5000 terms.
  * The DIRECT form (suffix R): the normalisation is (acc - m) / sqrt (v + eps) * g + b and the contraction is one
    sum of 10000 terms.

  Every stage is a curried function of literal coordinates (Fin 10000, Fin 128, Fin 64, Fin 5000); the array-shaped
  versions at the end read a stage at an index of the literal shape. This module imports no program. The shapes are
  this module's own abbreviations, with the same definitions the printed programs use.
-/
import Idealize.ShloMosaic.PureOps.Ideal
import Idealize.ShloMosaic.Lib.ValueIdx

noncomputable section

namespace Cert.Spec

open Idealize.ShloMosaic Idealize.ShloMosaic.ValueIdx

abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S1x64 : Shape := ⟨2, ![1, 64]⟩
abbrev S1 : Shape := ⟨1, ![1]⟩
abbrev S10000x64 : Shape := ⟨2, ![10000, 64]⟩
abbrev S5000x64 : Shape := ⟨2, ![5000, 64]⟩
abbrev S10000x1 : Shape := ⟨2, ![10000, 1]⟩

/-- An array of extended reals over a shape. -/
abbrev Arr (s : Shape) : Type := s.Idx → EReal

/-- The fourteen argument arrays. -/
structure Args where
  x : Arr S10000x128
  adj : Arr S10000x10000
  W1 : Arr S128x128
  W2 : Arr S128x64
  g1 : Arr S128
  b1 : Arr S128
  m1 : Arr S128
  v1 : Arr S128
  g2 : Arr S64
  b2 : Arr S64
  m2 : Arr S64
  v2 : Arr S64
  decW : Arr S1x64
  decb : Arr S1

/-- The stabiliser of the variance: the single-precision pattern nearest 1e-5, the same word in both forms. -/
def eps : EReal := Ideal.ofBits .f32 0x3727C5AC#32

/-- Row i of the lower half, as a row of the whole. -/
abbrev lo (i : Fin 5000) : Fin 10000 := ⟨i.val, by omega⟩
/-- Row i of the upper half, as a row of the whole. -/
abbrev hi (i : Fin 5000) : Fin 10000 := ⟨5000 + i.val, by omega⟩

/-! ## Stages shared by the two forms -/

/-- support = x · W1. -/
def support (a : Args) (r : Fin 10000) (c : Fin 128) : EReal :=
  ∑ k : Fin 128, a.x (ix2 r k) * a.W1 (ix2 k c)

/-- The first aggregation, adj · support. -/
def agg1 (a : Args) (r : Fin 10000) (c : Fin 128) : EReal :=
  ∑ i : Fin 10000, a.adj (ix2 r i) * support a i c

/-- sqrt (v1 + eps), per channel. -/
def q1 (a : Args) (c : Fin 128) : EReal := Ideal.sqrt (a.v1 (ix1 c) + eps)
/-- sqrt (v2 + eps), per channel. -/
def q2 (a : Args) (c : Fin 64) : EReal := Ideal.sqrt (a.v2 (ix1 c) + eps)

/-! ## The folded form -/

/-- The first layer's scale, g1 / sqrt (v1 + eps). -/
def s1 (a : Args) (c : Fin 128) : EReal := Ideal.div (a.g1 (ix1 c)) (q1 a c)
/-- The first layer's shift, b1 - m1 * s1. -/
def sh1 (a : Args) (c : Fin 128) : EReal := a.b1 (ix1 c) - a.m1 (ix1 c) * s1 a c
/-- The hidden layer: max (agg1 * s1 + sh1) 0. -/
def hK (a : Args) (r : Fin 10000) (c : Fin 128) : EReal := max (agg1 a r c * s1 a c + sh1 a c) 0
/-- t = h · W2. -/
def tK (a : Args) (r : Fin 10000) (c : Fin 64) : EReal := ∑ k : Fin 128, hK a r k * a.W2 (ix2 k c)
/-- The second aggregation as the sum of its two halves. -/
def acc2K (a : Args) (r : Fin 10000) (c : Fin 64) : EReal :=
  (∑ i : Fin 5000, a.adj (ix2 r (lo i)) * tK a (lo i) c) + (∑ i : Fin 5000, a.adj (ix2 r (hi i)) * tK a (hi i) c)
/-- The second layer's scale, g2 / sqrt (v2 + eps). -/
def s2 (a : Args) (c : Fin 64) : EReal := Ideal.div (a.g2 (ix1 c)) (q2 a c)
/-- The second layer's shift, b2 - m2 * s2. -/
def sh2 (a : Args) (c : Fin 64) : EReal := a.b2 (ix1 c) - a.m2 (ix1 c) * s2 a c
/-- mu = acc2 * s2 + sh2. -/
def muKc (a : Args) (r : Fin 10000) (c : Fin 64) : EReal := acc2K a r c * s2 a c + sh2 a c
/-- out = mu · decWᵀ + decb. -/
def outKc (a : Args) (r : Fin 10000) : EReal := (∑ c : Fin 64, muKc a r c * a.decW (ix2 0 c)) + a.decb (ix1 0)

/-! ## The direct form -/

/-- The hidden layer: max ((agg1 - m1) / sqrt (v1 + eps) * g1 + b1) 0. -/
def hR (a : Args) (r : Fin 10000) (c : Fin 128) : EReal :=
  max (Ideal.div (agg1 a r c - a.m1 (ix1 c)) (q1 a c) * a.g1 (ix1 c) + a.b1 (ix1 c)) 0
/-- t = h · W2. -/
def tR (a : Args) (r : Fin 10000) (c : Fin 64) : EReal := ∑ k : Fin 128, hR a r k * a.W2 (ix2 k c)
/-- The second aggregation as one sum. -/
def agg2R (a : Args) (r : Fin 10000) (c : Fin 64) : EReal := ∑ i : Fin 10000, a.adj (ix2 r i) * tR a i c
/-- mu = (agg2 - m2) / sqrt (v2 + eps) * g2 + b2. -/
def muRc (a : Args) (r : Fin 10000) (c : Fin 64) : EReal :=
  Ideal.div (agg2R a r c - a.m2 (ix1 c)) (q2 a c) * a.g2 (ix1 c) + a.b2 (ix1 c)
/-- out = mu · decWᵀ + decb. -/
def outRc (a : Args) (r : Fin 10000) : EReal := (∑ c : Fin 64, muRc a r c * a.decW (ix2 0 c)) + a.decb (ix1 0)

/-! ## Array-shaped versions -/

def supportArr (a : Args) : Arr S10000x128 := fun j => support a (j 0) (j 1)
def hKArr (a : Args) : Arr S10000x128 := fun j => hK a (j 0) (j 1)
def tKArr (a : Args) : Arr S10000x64 := fun j => tK a (j 0) (j 1)
/-- Rows 0 … 4999 of t. -/
def tLoArr (a : Args) : Arr S5000x64 := fun j => tK a (lo (j 0)) (j 1)
/-- Rows 5000 … 9999 of t. -/
def tHiArr (a : Args) : Arr S5000x64 := fun j => tK a (hi (j 0)) (j 1)
def acc2KArr (a : Args) : Arr S10000x64 := fun j => acc2K a (j 0) (j 1)
def muK (a : Args) : Arr S10000x64 := fun j => muKc a (j 0) (j 1)
def outK (a : Args) : Arr S10000x1 := fun j => outKc a (j 0)
def muR (a : Args) : Arr S10000x64 := fun j => muRc a (j 0) (j 1)
def outR (a : Args) : Arr S10000x1 := fun j => outRc a (j 0)

end Cert.Spec

end
-- ==== Proof.Tail.lean ====
/-
  What the host operations after the two pallas_calls leave, read at an index.

  The second pallas_call writes its results in halves: mu for rows 0…4999 and for rows 5000…9999, and likewise
  out. The program then concatenates each pair along the rows. So row r of the final mu is row r of the first
  half when r < 5000, and row r - 5000 of the second half otherwise; the same for out.
-/
import proofs.«152953_g41188736369293_cont_8to1_b_1949_15_alg».proof.Proof.RunAll
import proofs.«152953_g41188736369293_cont_8to1_b_1949_15_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Tail

open Cert.KernelIdeal Cert.KernelIdeal.Gen Cert.KernelIdeal.Rec Cert.KernelIdeal.RunAll
open Idealize.ShloMosaic Idealize.ShloMosaic.TcCoe Idealize.SL.Sem Idealize.ShloMosaic.ValueIdx

variable (m : (ℓ : Loc nD τ sig) → Buf (Elt Ideal) ℓ)

/-- Rows 0…4999 of `main_v22` are the first piece's rows. -/
theorem v22_lo (c : Dev nD) (r : Fin 5000) (k : Fin 64) :
    (Wend m c main_v22 : S10000x64.Idx → EReal) (ix2 (Cert.Spec.lo r) k) = (W3 m c main_v21_0 : S5000x64.Idx → EReal) (ix2 r k) := by
  show (StableHlo.after hostOps2 (W3 m c) (Proc.devRef .tc main_v22) : S10000x64.Idx → EReal) (ix2 (Cert.Spec.lo r) k) = _
  after_results
  show concatenate S10000x64 0 [⟨S5000x64, (W3 m c (Proc.devRef .tc main_v21_0) : S5000x64.Idx → EReal)⟩, ⟨S5000x64, (W3 m c (Proc.devRef .tc main_v21_1) : S5000x64.Idx → EReal)⟩] concatenates_S5000x64_S5000x64_S10000x64_d0 (ix2 (Cert.Spec.lo r) k) = _
  exact concatenate_pair_apply_left 0 _ _ concatenates_S5000x64_S5000x64_S10000x64_d0 (ix2 (Cert.Spec.lo r) k) rfl (ix2 r k) (fun b => by match b with | ⟨0, _⟩ => rfl | ⟨1, _⟩ => rfl)

/-- Rows 5000…9999 of `main_v22` are the second piece's rows. -/
theorem v22_hi (c : Dev nD) (r : Fin 5000) (k : Fin 64) :
    (Wend m c main_v22 : S10000x64.Idx → EReal) (ix2 (Cert.Spec.hi r) k) = (W3 m c main_v21_1 : S5000x64.Idx → EReal) (ix2 r k) := by
  show (StableHlo.after hostOps2 (W3 m c) (Proc.devRef .tc main_v22) : S10000x64.Idx → EReal) (ix2 (Cert.Spec.hi r) k) = _
  after_results
  show concatenate S10000x64 0 [⟨S5000x64, (W3 m c (Proc.devRef .tc main_v21_0) : S5000x64.Idx → EReal)⟩, ⟨S5000x64, (W3 m c (Proc.devRef .tc main_v21_1) : S5000x64.Idx → EReal)⟩] concatenates_S5000x64_S5000x64_S10000x64_d0 (ix2 (Cert.Spec.hi r) k) = _
  exact concatenate_pair_apply_right 0 _ _ concatenates_S5000x64_S5000x64_S10000x64_d0 (ix2 (Cert.Spec.hi r) k) rfl rfl (ix2 r k)
    (fun b hb => by match b with | ⟨0, _⟩ => exact absurd rfl hb | ⟨1, _⟩ => rfl)
    (by show r.val + 5000 = 5000 + r.val; omega)

/-- Rows 0…4999 of `main_v23` are the first piece's rows. -/
theorem v23_lo (c : Dev nD) (r : Fin 5000)  :
    (Wend m c main_v23 : S10000x1.Idx → EReal) (ix2 (Cert.Spec.lo r) (0 : Fin 1)) = (W3 m c main_v21_2 : S5000x1.Idx → EReal) (ix2 r (0 : Fin 1)) := by
  show (StableHlo.after hostOps2 (W3 m c) (Proc.devRef .tc main_v23) : S10000x1.Idx → EReal) (ix2 (Cert.Spec.lo r) (0 : Fin 1)) = _
  after_results
  show concatenate S10000x1 0 [⟨S5000x1, (W3 m c (Proc.devRef .tc main_v21_2) : S5000x1.Idx → EReal)⟩, ⟨S5000x1, (W3 m c (Proc.devRef .tc main_v21_3) : S5000x1.Idx → EReal)⟩] concatenates_S5000x1_S5000x1_S10000x1_d0 (ix2 (Cert.Spec.lo r) (0 : Fin 1)) = _
  exact concatenate_pair_apply_left 0 _ _ concatenates_S5000x1_S5000x1_S10000x1_d0 (ix2 (Cert.Spec.lo r) (0 : Fin 1)) rfl (ix2 r (0 : Fin 1)) (fun b => by match b with | ⟨0, _⟩ => rfl | ⟨1, _⟩ => rfl)

/-- Rows 5000…9999 of `main_v23` are the second piece's rows. -/
theorem v23_hi (c : Dev nD) (r : Fin 5000)  :
    (Wend m c main_v23 : S10000x1.Idx → EReal) (ix2 (Cert.Spec.hi r) (0 : Fin 1)) = (W3 m c main_v21_3 : S5000x1.Idx → EReal) (ix2 r (0 : Fin 1)) := by
  show (StableHlo.after hostOps2 (W3 m c) (Proc.devRef .tc main_v23) : S10000x1.Idx → EReal) (ix2 (Cert.Spec.hi r) (0 : Fin 1)) = _
  after_results
  show concatenate S10000x1 0 [⟨S5000x1, (W3 m c (Proc.devRef .tc main_v21_2) : S5000x1.Idx → EReal)⟩, ⟨S5000x1, (W3 m c (Proc.devRef .tc main_v21_3) : S5000x1.Idx → EReal)⟩] concatenates_S5000x1_S5000x1_S10000x1_d0 (ix2 (Cert.Spec.hi r) (0 : Fin 1)) = _
  exact concatenate_pair_apply_right 0 _ _ concatenates_S5000x1_S5000x1_S10000x1_d0 (ix2 (Cert.Spec.hi r) (0 : Fin 1)) rfl rfl (ix2 r (0 : Fin 1))
    (fun b hb => by match b with | ⟨0, _⟩ => exact absurd rfl hb | ⟨1, _⟩ => rfl)
    (by show r.val + 5000 = 5000 + r.val; omega)

end Cert.KernelIdeal.Tail

end
-- ==== Proof.RefSide.lean ====
/-
  The reference program's three results, read index by index, are the direct form of the specification.

  Each stage of the reference (a product of matrices as a sum of products, a per-channel array broadcast along the
  rows, a pointwise operation) is read at an index built from literal coordinates, from the stages before it; the
  chain ends at the direct form's mu and out. The stages and their read-at-an-index lemmas are the imported
  generated ones; written here is only the chaining and the identification of the composed index functions with
  plain coordinates.
-/
import proofs.«152953_g41188736369293_cont_8to1_b_1949_15_alg».proof.Proof.Gen.ReferenceIdeal.Read
import proofs.«152953_g41188736369293_cont_8to1_b_1949_15_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Spec (Args support agg1 q1 q2 hR tR agg2R muRc outRc muR outR eps)

/-- Two index functions of a rank-two shape agree when they agree at both axes. -/
local macro "idx2" : term => `(funext fun a => by match a with | ⟨0, _⟩ => rfl | ⟨1, _⟩ => rfl)
/-- Two index functions of a rank-one shape agree when they agree at the axis. -/
local macro "idx1" : term => `(funext fun a => by match a with | ⟨0, _⟩ => rfl)

/-! ## The first layer -/

theorem v0_at (a : Args) (r : Fin 10000) (c : Fin 128) :
    val_main_v0 (F := Ideal) a.x a.W1 (ix2 r c) = support a r c := by
  rw [val_main_v0_apply]; unfold Cert.Spec.support
  refine Finset.sum_congr rfl fun k _ => ?_
  rw [show lidx_main_v0 (ix2 r c) k = ix2 r k from idx2, show ridx_main_v0 (ix2 r c) k = ix2 k c from idx2]

theorem v1_at (a : Args) (r : Fin 10000) (c : Fin 128) :
    val_main_v1 (F := Ideal) a.x a.adj a.W1 (ix2 r c) = agg1 a r c := by
  rw [val_main_v1_apply]; unfold Cert.Spec.agg1
  refine Finset.sum_congr rfl fun k _ => ?_
  rw [show lidx_main_v1 (ix2 r c) k = ix2 r k from idx2, show ridx_main_v1 (ix2 r c) k = ix2 k c from idx2, v0_at]

theorem v3_at (a : Args) (r : Fin 10000) (c : Fin 128) :
    val_main_v3 (F := Ideal) a.m1 (ix2 r c) = a.m1 (ix1 c) := by
  rw [val_main_v3_apply, val_main_v2_apply]; exact congrArg a.m1 idx1

theorem v9_at (a : Args) (r : Fin 10000) (c : Fin 128) :
    val_main_v9 (F := Ideal) a.v1 (ix2 r c) = q1 a c := by
  rw [val_main_v9_apply, val_main_v8_apply, val_main_v7_apply, val_main_v6_apply, val_main_v5_apply, val_main_cst_apply,
    show idx_main_v8 (idx_main_v9 (ix2 r c)) = ix1 c from idx1]
  rfl

theorem v12_at (a : Args) (r : Fin 10000) (c : Fin 128) :
    val_main_v12 (F := Ideal) a.g1 (ix2 r c) = a.g1 (ix1 c) := by
  rw [val_main_v12_apply, val_main_v11_apply]; exact congrArg a.g1 idx1

theorem v15_at (a : Args) (r : Fin 10000) (c : Fin 128) :
    val_main_v15 (F := Ideal) a.b1 (ix2 r c) = a.b1 (ix1 c) := by
  rw [val_main_v15_apply, val_main_v14_apply]; exact congrArg a.b1 idx1

theorem v18_at (a : Args) (r : Fin 10000) (c : Fin 128) :
    val_main_v18 (F := Ideal) a.x a.adj a.W1 a.g1 a.b1 a.m1 a.v1 (ix2 r c) = hR a r c := by
  rw [val_main_v18_apply, val_main_v16_apply, val_main_v13_apply, val_main_v10_apply, val_main_v4_apply, v1_at, v3_at, v9_at,
    v12_at, v15_at, val_main_v17_apply, val_main_cst_0_apply]
  simp only [Ideal.maximumf_def, Ideal.addf_def, Ideal.mulf_def, Ideal.hostDivf_def, Ideal.subf_def, Ideal.ofBits_def,
    Ideal.ofBits_zero_f32]
  rfl

/-! ## The second layer -/

theorem v19_at (a : Args) (r : Fin 10000) (c : Fin 64) :
    val_main_v19 (F := Ideal) a.x a.adj a.W1 a.W2 a.g1 a.b1 a.m1 a.v1 (ix2 r c) = tR a r c := by
  rw [val_main_v19_apply]; unfold Cert.Spec.tR
  refine Finset.sum_congr rfl fun k _ => ?_
  rw [show lidx_main_v19 (ix2 r c) k = ix2 r k from idx2, show ridx_main_v19 (ix2 r c) k = ix2 k c from idx2, v18_at]

theorem v20_at (a : Args) (r : Fin 10000) (c : Fin 64) :
    val_main_v20 (F := Ideal) a.x a.adj a.W1 a.W2 a.g1 a.b1 a.m1 a.v1 (ix2 r c) = agg2R a r c := by
  rw [val_main_v20_apply]; unfold Cert.Spec.agg2R
  refine Finset.sum_congr rfl fun k _ => ?_
  rw [show lidx_main_v20 (ix2 r c) k = ix2 r k from idx2, show ridx_main_v20 (ix2 r c) k = ix2 k c from idx2, v19_at]

theorem v22_at (a : Args) (r : Fin 10000) (c : Fin 64) :
    val_main_v22 (F := Ideal) a.m2 (ix2 r c) = a.m2 (ix1 c) := by
  rw [val_main_v22_apply, val_main_v21_apply]; exact congrArg a.m2 idx1

theorem v28_at (a : Args) (r : Fin 10000) (c : Fin 64) :
    val_main_v28 (F := Ideal) a.v2 (ix2 r c) = q2 a c := by
  rw [val_main_v28_apply, val_main_v27_apply, val_main_v26_apply, val_main_v25_apply, val_main_v24_apply, val_main_cst_1_apply,
    show idx_main_v27 (idx_main_v28 (ix2 r c)) = ix1 c from idx1]
  rfl

theorem v31_at (a : Args) (r : Fin 10000) (c : Fin 64) :
    val_main_v31 (F := Ideal) a.g2 (ix2 r c) = a.g2 (ix1 c) := by
  rw [val_main_v31_apply, val_main_v30_apply]; exact congrArg a.g2 idx1

theorem v34_at (a : Args) (r : Fin 10000) (c : Fin 64) :
    val_main_v34 (F := Ideal) a.b2 (ix2 r c) = a.b2 (ix1 c) := by
  rw [val_main_v34_apply, val_main_v33_apply]; exact congrArg a.b2 idx1

theorem v35_at (a : Args) (r : Fin 10000) (c : Fin 64) :
    val_main_v35 (F := Ideal) a.x a.adj a.W1 a.W2 a.g1 a.b1 a.m1 a.v1 a.g2 a.b2 a.m2 a.v2 (ix2 r c) = muRc a r c := by
  rw [val_main_v35_apply, val_main_v32_apply, val_main_v29_apply, val_main_v23_apply, v20_at, v22_at, v28_at, v31_at, v34_at]
  simp only [Ideal.addf_def, Ideal.mulf_def, Ideal.hostDivf_def, Ideal.subf_def]
  rfl

/-! ## The decoder -/

theorem v36_at (a : Args) (k : Fin 64) (z : Fin 1) :
    val_main_v36 (F := Ideal) a.decW (ix2 k z) = a.decW (ix2 0 k) := by
  rw [val_main_v36_apply, Subsingleton.elim z 0]; exact congrArg a.decW idx2

theorem v39_at (a : Args) (r : Fin 10000) (z : Fin 1) :
    val_main_v39 (F := Ideal) a.decb (ix2 r z) = a.decb (ix1 0) := by
  rw [val_main_v39_apply, val_main_v38_apply]; exact congrArg a.decb idx1

theorem v40_at (a : Args) (r : Fin 10000) (z : Fin 1) :
    val_main_v40 (F := Ideal) a.x a.adj a.W1 a.W2 a.g1 a.b1 a.m1 a.v1 a.g2 a.b2 a.m2 a.v2 a.decW a.decb (ix2 r z) = outRc a r := by
  rw [val_main_v40_apply, val_main_v37_apply, v39_at]; unfold Cert.Spec.outRc
  simp only [Ideal.addf_def]
  refine congrArg (· + a.decb (ix1 0)) (Finset.sum_congr rfl fun k _ => ?_)
  rw [show lidx_main_v37 (ix2 r z) k = ix2 r k from idx2, show ridx_main_v37 (ix2 r z) k = ix2 k z from idx2, v35_at, v36_at]

/-! ## The results as arrays -/

/-- The reference's mu is the direct form's. -/
theorem mu_eq (a : Args) :
    val_main_v35 (F := Ideal) a.x a.adj a.W1 a.W2 a.g1 a.b1 a.m1 a.v1 a.g2 a.b2 a.m2 a.v2 = muR a := by
  funext j
  obtain ⟨r, c, rfl⟩ : ∃ (r : Fin 10000) (c : Fin 64), j = ix2 r c := ⟨j 0, j 1, eq_ix2 j⟩
  exact v35_at a r c

/-- The reference's out is the direct form's. -/
theorem out_eq (a : Args) :
    val_main_v40 (F := Ideal) a.x a.adj a.W1 a.W2 a.g1 a.b1 a.m1 a.v1 a.g2 a.b2 a.m2 a.v2 a.decW a.decb = outR a := by
  funext j
  obtain ⟨r, z, rfl⟩ : ∃ (r : Fin 10000) (z : Fin 1), j = ix2 r z := ⟨j 0, j 1, eq_ix2 j⟩
  exact v40_at a r z

end Cert.ReferenceIdeal.RefValue

end
-- ==== Proof.Algebra.lean ====
/-
  The law joining the two forms of the specification, over extended reals with real witnesses.

  When every entry of every argument array is a real number and the two variance arrays are nonnegative, the folded
  form and the direct form are the same function: the square root of a variance plus the (positive) stabiliser is a
  positive real q, every sum is a finite sum of reals, and over the reals
  (A - m) / q * g + b = A * (g / q) + (b - m * (g / q)); a sum over 10000 indices is the sum over its first 5000
  plus the sum over its last 5000, in any commutative monoid.
-/
import proofs.«152953_g41188736369293_cont_8to1_b_1949_15_alg».proof.Proof.Spec

noncomputable section

namespace Cert.Spec

open Idealize.ShloMosaic Idealize.ShloMosaic.ValueIdx

/-! ## Real entries -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max_zero {x : EReal} (hx : IsReal x) : IsReal (max x 0) := by
  obtain ⟨a, rfl⟩ := hx
  rcases le_total (a : EReal) 0 with h | h
  · rw [max_eq_right h]; exact ⟨0, rfl⟩
  · rw [max_eq_left h]; exact ⟨a, rfl⟩

/-- A finite sum of coerced reals is the coercion of the sum. -/
theorem coe_sum {ι : Type} (s : Finset ι) (g : ι → ℝ) : ∑ k ∈ s, ((g k : ℝ) : EReal) = ((∑ k ∈ s, g k : ℝ) : EReal) := by
  classical
  induction s using Finset.induction_on with
  | empty => simp
  | insert i s hi ih => rw [Finset.sum_insert hi, Finset.sum_insert hi, EReal.coe_add, ih]

theorem IsReal.sum {ι : Type} [Fintype ι] {f : ι → EReal} (h : ∀ k, IsReal (f k)) : IsReal (∑ k, f k) := by
  choose g hg using h
  exact ⟨∑ k, g k, by rw [← coe_sum]; exact Finset.sum_congr rfl fun k _ => hg k⟩

/-- A quotient of a real by a nonzero real is real. -/
theorem IsReal.div {x : EReal} {q : ℝ} (hx : IsReal x) (hq : q ≠ 0) : IsReal (Ideal.div x (q : EReal)) := by
  rw [Ideal.div_coe hq]; exact hx.mul ⟨_, rfl⟩

/-- The hypotheses of the law: every entry of every argument array is real, and the variances are nonnegative. -/
structure Args.Good (a : Args) : Prop where
  x : ∀ j, IsReal (a.x j)
  adj : ∀ j, IsReal (a.adj j)
  W1 : ∀ j, IsReal (a.W1 j)
  W2 : ∀ j, IsReal (a.W2 j)
  g1 : ∀ j, IsReal (a.g1 j)
  b1 : ∀ j, IsReal (a.b1 j)
  m1 : ∀ j, IsReal (a.m1 j)
  v1 : ∀ j, IsReal (a.v1 j)
  g2 : ∀ j, IsReal (a.g2 j)
  b2 : ∀ j, IsReal (a.b2 j)
  m2 : ∀ j, IsReal (a.m2 j)
  v2 : ∀ j, IsReal (a.v2 j)
  decW : ∀ j, IsReal (a.decW j)
  decb : ∀ j, IsReal (a.decb j)
  v1_nonneg : ∀ j, 0 ≤ a.v1 j
  v2_nonneg : ∀ j, 0 ≤ a.v2 j

/-! ## The stabiliser and the square roots -/

/-- The stabiliser is a positive real. -/
theorem eps_pos : ∃ e : ℝ, 0 < e ∧ eps = (e : EReal) := by
  refine ⟨(2 ^ 23 + 2606508 : ℕ) * (2 : ℝ) ^ ((110 : ℤ) - 127 - 23), by positivity, ?_⟩
  simp [eps, Ideal.ofBits, Ideal.ieee, -EReal.coe_mul]

/-- The square root of a nonnegative real plus the stabiliser is a positive real. -/
theorem sqrt_add_eps {v : EReal} (hv : IsReal v) (h0 : 0 ≤ v) : ∃ q : ℝ, 0 < q ∧ Ideal.sqrt (v + eps) = (q : EReal) := by
  obtain ⟨r, rfl⟩ := hv
  obtain ⟨e, he, hE⟩ := eps_pos
  have hr : 0 ≤ r := by exact_mod_cast h0
  have hpos : 0 < r + e := by linarith
  refine ⟨Real.sqrt (r + e), Real.sqrt_pos.2 hpos, ?_⟩
  rw [hE, ← EReal.coe_add, Ideal.sqrt_coe, if_neg (not_lt.2 hpos.le)]

/-! ## The fold of the normalisation, for one channel -/

theorem bn_fold (A m g b q : ℝ) (hq : q ≠ 0) :
    Ideal.div ((A : EReal) - (m : EReal)) (q : EReal) * (g : EReal) + (b : EReal)
      = (A : EReal) * Ideal.div (g : EReal) (q : EReal) + ((b : EReal) - (m : EReal) * Ideal.div (g : EReal) (q : EReal)) := by
  rw [Ideal.div_coe hq, Ideal.div_coe hq]
  norm_cast
  ring

theorem fold {A m g b : EReal} (q : ℝ) (hA : IsReal A) (hm : IsReal m) (hg : IsReal g) (hb : IsReal b) (hq : q ≠ 0) :
    Ideal.div (A - m) (q : EReal) * g + b = A * Ideal.div g (q : EReal) + (b - m * Ideal.div g (q : EReal)) := by
  obtain ⟨A, rfl⟩ := hA; obtain ⟨m, rfl⟩ := hm; obtain ⟨g, rfl⟩ := hg; obtain ⟨b, rfl⟩ := hb
  exact bn_fold A m g b q hq

/-! ## A sum over 10000 indices by halves -/

theorem sum_halves {M : Type} [AddCommMonoid M] (f : Fin 10000 → M) :
    ∑ i : Fin 10000, f i = (∑ i : Fin 5000, f (lo i)) + ∑ i : Fin 5000, f (hi i) :=
  Fin.sum_univ_add (a := 5000) (b := 5000) f

/-! ## Every stage is real -/

section
variable (a : Args) (h : a.Good)
include h

theorem support_real (r : Fin 10000) (c : Fin 128) : IsReal (support a r c) :=
  IsReal.sum fun _ => (h.x _).mul (h.W1 _)

theorem agg1_real (r : Fin 10000) (c : Fin 128) : IsReal (agg1 a r c) :=
  IsReal.sum fun i => (h.adj _).mul (support_real a h i c)

theorem q1_pos (c : Fin 128) : ∃ q : ℝ, 0 < q ∧ q1 a c = (q : EReal) := sqrt_add_eps (h.v1 _) (h.v1_nonneg _)
theorem q2_pos (c : Fin 64) : ∃ q : ℝ, 0 < q ∧ q2 a c = (q : EReal) := sqrt_add_eps (h.v2 _) (h.v2_nonneg _)

theorem s1_real (c : Fin 128) : IsReal (s1 a c) := by
  obtain ⟨q, hq, e⟩ := q1_pos a h c
  unfold s1; rw [e]; exact (h.g1 _).div hq.ne'

theorem sh1_real (c : Fin 128) : IsReal (sh1 a c) := (h.b1 _).sub ((h.m1 _).mul (s1_real a h c))

theorem hK_real (r : Fin 10000) (c : Fin 128) : IsReal (hK a r c) :=
  (((agg1_real a h r c).mul (s1_real a h c)).add (sh1_real a h c)).max_zero

theorem tK_real (r : Fin 10000) (c : Fin 64) : IsReal (tK a r c) :=
  IsReal.sum fun k => (hK_real a h r k).mul (h.W2 _)

theorem acc2K_real (r : Fin 10000) (c : Fin 64) : IsReal (acc2K a r c) :=
  (IsReal.sum fun i => (h.adj _).mul (tK_real a h (lo i) c)).add (IsReal.sum fun i => (h.adj _).mul (tK_real a h (hi i) c))

/-! ## The two forms agree -/

theorem hR_eq (r : Fin 10000) (c : Fin 128) : hR a r c = hK a r c := by
  obtain ⟨q, hq, e⟩ := q1_pos a h c
  unfold hR hK sh1 s1
  rw [e, fold q (agg1_real a h r c) (h.m1 _) (h.g1 _) (h.b1 _) hq.ne']

theorem tR_eq (r : Fin 10000) (c : Fin 64) : tR a r c = tK a r c := by
  unfold tR tK
  exact Finset.sum_congr rfl fun k _ => by rw [hR_eq a h]

theorem agg2R_eq (r : Fin 10000) (c : Fin 64) : agg2R a r c = acc2K a r c := by
  unfold agg2R acc2K
  rw [sum_halves]
  congr 1 <;> exact Finset.sum_congr rfl fun i _ => by rw [tR_eq a h]

theorem muRc_eq (r : Fin 10000) (c : Fin 64) : muRc a r c = muKc a r c := by
  obtain ⟨q, hq, e⟩ := q2_pos a h c
  unfold muRc muKc sh2 s2
  rw [e, agg2R_eq a h, fold q (acc2K_real a h r c) (h.m2 _) (h.g2 _) (h.b2 _) hq.ne']

theorem outRc_eq (r : Fin 10000) : outRc a r = outKc a r := by
  unfold outRc outKc
  exact congrArg (· + a.decb (ix1 0)) (Finset.sum_congr rfl fun c _ => by rw [muRc_eq a h])

/-- Under the hypotheses the direct form's mu is the folded form's. -/
theorem muR_eq : muR a = muK a := funext fun j => muRc_eq a h (j 0) (j 1)

/-- Under the hypotheses the direct form's out is the folded form's. -/
theorem outR_eq : outR a = outK a := funext fun j => outRc_eq a h (j 0)

end

end Cert.Spec

end
-- ==== Proof.PreDecode.lean ====
/-
  The precondition, decoded: when the printed predicate evaluates to true on the fourteen argument arrays read as
  extended reals, every entry of every array is a real number and the two variance arrays are nonnegative.

  The predicate is a conjunction of sixteen "all entries satisfy" tests: fourteen of |x| < +infinity, one per array,
  and two of v >= 0. A conjunction that is true has every conjunct true; an "all" that is true holds at every index;
  an extended real whose absolute value is below +infinity is neither infinity, hence a real.
-/
import proofs.«152953_g41188736369293_cont_8to1_b_1949_15_alg».proof.Proof.Gen.Pre_finite_inputs
import proofs.«152953_g41188736369293_cont_8to1_b_1949_15_alg».proof.Proof.Algebra
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Decode

open Idealize.ShloMosaic Idealize.ShloMosaic.ValueIdx Cert.Pre_finite_inputs Cert.Pre_finite_inputs.Gen
open Cert.Spec (IsReal)

/-- The rank-zero shape has one index. -/
instance : Subsingleton S_.Idx := ⟨fun a b => funext fun d => d.elim0⟩

/-- The pattern of +infinity denotes the top element. -/
theorem ofBits_inf : Ideal.ofBits .f32 0x7F800000#32 = ⊤ := by
  simp [Ideal.ofBits, Ideal.ieee]

/-- An extended real whose absolute value is below the top element is a real. -/
theorem isReal_of_abs_lt_top (x : EReal) (h : max x (-x) < ⊤) : IsReal x := by
  induction x using EReal.rec with
  | bot => simp at h
  | coe r => exact ⟨r, rfl⟩
  | top => simp at h

/-- An entry that passes the finiteness test is a real. -/
theorem real_of_finite {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) : IsReal (x i) := by
  have hb' : broadcastInDim s ![] hb (constant (F := Ideal) S_ .f32 0x7F800000#32) i = Ideal.ofBits .f32 0x7F800000#32 :=
    broadcastInDim_apply _ hb _ i ix0 (fun a => a.elim0)
  have h' : Ideal.cmp .olt (max (x i) (-(x i))) (Ideal.ofBits .f32 0x7F800000#32) = 1#1 := by rw [← hb']; exact h
  rw [ofBits_inf] at h'
  refine isReal_of_abs_lt_top _ ?_
  by_contra hn
  simp [Ideal.cmp, hn] at h'

/-- An entry that passes the sign test is nonnegative. -/
theorem nonneg_of_ge {s : Shape} (x : FVec Ideal s .f32) (hb : S_.BroadcastsInDim s (![] : Fin 0 → Fin s.rank)) (i : s.Idx)
    (h : cmpf .oge x (broadcastInDim s ![] hb (constant (F := Ideal) S_ .f32 0x00000000#32)) i = 1#1) : 0 ≤ x i := by
  have hb' : broadcastInDim s ![] hb (constant (F := Ideal) S_ .f32 0x00000000#32) i = Ideal.ofBits .f32 0x00000000#32 :=
    broadcastInDim_apply _ hb _ i ix0 (fun a => a.elim0)
  have h' : Ideal.cmp .oge (x i) (Ideal.ofBits .f32 0x00000000#32) = 1#1 := by rw [← hb']; exact h
  rw [Ideal.ofBits_zero_f32] at h'
  by_contra hn
  simp [Ideal.cmp, hn] at h'

/-- The precondition true of the fourteen arrays gives the hypotheses of the law joining the two forms. -/
theorem good_of_pre (x0 : FVec Ideal S10000x128 .f32) (x1 : FVec Ideal S10000x10000 .f32) (x2 : FVec Ideal S128x128 .f32)
    (x3 : FVec Ideal S128x64 .f32) (x4 x5 x6 x7 : FVec Ideal S128 .f32) (x8 x9 x10 x11 : FVec Ideal S64 .f32)
    (x12 : FVec Ideal S1x64 .f32) (x13 : FVec Ideal S1 .f32)
    (hpre : fn (F := Ideal) x0 x1 x2 x3 x4 x5 x6 x7 x8 x9 x10 x11 x12 x13 = (fun _ => 1#1)) :
    Cert.Spec.Args.Good ⟨x0, x1, x2, x3, x4, x5, x6, x7, x8, x9, x10, x11, x12, x13⟩ := by
  have h0 := congrFun hpre ix0
  dsimp only [fn, fn_part1, fn_part2, fn_part3, fn_part4] at h0
  obtain ⟨h0, e75⟩ := IntOp.andi_eq_one.1 h0
  obtain ⟨h0, e71⟩ := IntOp.andi_eq_one.1 h0
  obtain ⟨h0, e67⟩ := IntOp.andi_eq_one.1 h0
  obtain ⟨h0, e62⟩ := IntOp.andi_eq_one.1 h0
  obtain ⟨h0, e57⟩ := IntOp.andi_eq_one.1 h0
  obtain ⟨h0, e52⟩ := IntOp.andi_eq_one.1 h0
  obtain ⟨h0, e47⟩ := IntOp.andi_eq_one.1 h0
  obtain ⟨h0, e42⟩ := IntOp.andi_eq_one.1 h0
  obtain ⟨h0, e37⟩ := IntOp.andi_eq_one.1 h0
  obtain ⟨h0, e32⟩ := IntOp.andi_eq_one.1 h0
  obtain ⟨h0, e27⟩ := IntOp.andi_eq_one.1 h0
  obtain ⟨h0, e22⟩ := IntOp.andi_eq_one.1 h0
  obtain ⟨h0, e17⟩ := IntOp.andi_eq_one.1 h0
  obtain ⟨h0, e12⟩ := IntOp.andi_eq_one.1 h0
  obtain ⟨e3, e7⟩ := IntOp.andi_eq_one.1 h0
  exact
    { x := fun j => real_of_finite x0 _ j (Host.reduce_andi_all _ _ _ _ _ e3 j)
      adj := fun j => real_of_finite x1 _ j (Host.reduce_andi_all _ _ _ _ _ e7 j)
      W1 := fun j => real_of_finite x2 _ j (Host.reduce_andi_all _ _ _ _ _ e12 j)
      W2 := fun j => real_of_finite x3 _ j (Host.reduce_andi_all _ _ _ _ _ e17 j)
      g1 := fun j => real_of_finite x4 _ j (Host.reduce_andi_all _ _ _ _ _ e22 j)
      b1 := fun j => real_of_finite x5 _ j (Host.reduce_andi_all _ _ _ _ _ e27 j)
      m1 := fun j => real_of_finite x6 _ j (Host.reduce_andi_all _ _ _ _ _ e32 j)
      v1 := fun j => real_of_finite x7 _ j (Host.reduce_andi_all _ _ _ _ _ e37 j)
      g2 := fun j => real_of_finite x8 _ j (Host.reduce_andi_all _ _ _ _ _ e42 j)
      b2 := fun j => real_of_finite x9 _ j (Host.reduce_andi_all _ _ _ _ _ e47 j)
      m2 := fun j => real_of_finite x10 _ j (Host.reduce_andi_all _ _ _ _ _ e52 j)
      v2 := fun j => real_of_finite x11 _ j (Host.reduce_andi_all _ _ _ _ _ e57 j)
      decW := fun j => real_of_finite x12 _ j (Host.reduce_andi_all _ _ _ _ _ e62 j)
      decb := fun j => real_of_finite x13 _ j (Host.reduce_andi_all _ _ _ _ _ e67 j)
      v1_nonneg := fun j => nonneg_of_ge x7 _ j (Host.reduce_andi_all _ _ _ _ _ e71 j)
      v2_nonneg := fun j => nonneg_of_ge x11 _ j (Host.reduce_andi_all _ _ _ _ _ e75 j) }

end Cert.Pre_finite_inputs.Decode

end
-- ==== Proof.RefFinal.lean ====
/-
  The reference program's run, under the precondition, in the folded form of the specification.

  From memories that agree on the fourteen argument arrays, with the precondition true of them: every weakly fair
  execution of the reference terminates with its three results at out, mu, mu of the folded form of those arrays, and
  the arguments unchanged. The run and the stages are the imported generated ones; the results are the direct form
  index by index, the direct form is the folded form under the decoded precondition.
-/
import proofs.«152953_g41188736369293_cont_8to1_b_1949_15_alg».proof.Defs
import proofs.«152953_g41188736369293_cont_8to1_b_1949_15_alg».proof.Proof.RefSide
import proofs.«152953_g41188736369293_cont_8to1_b_1949_15_alg».proof.Proof.Algebra
import proofs.«152953_g41188736369293_cont_8to1_b_1949_15_alg».proof.Proof.PreDecode

noncomputable section

namespace Cert.Final

open Idealize.ShloMosaic Idealize.ShloMosaic.TcCoe Idealize.SL.Sem

/-- The fourteen argument arrays of a memory of the idealized kernel, on a device. -/
abbrev kernelArgs (m : (ℓ : Loc Cert.KernelIdeal.nD Cert.KernelIdeal.τ Cert.KernelIdeal.sig) → Buf (Elt Ideal) ℓ) (c : Dev Cert.KernelIdeal.nD) : Cert.Spec.Args :=
  ⟨m ((c.tc : Thread Cert.KernelIdeal.nD Cert.KernelIdeal.τ).loc Cert.KernelIdeal.main_arg0),
   m ((c.tc : Thread Cert.KernelIdeal.nD Cert.KernelIdeal.τ).loc Cert.KernelIdeal.main_arg1),
   m ((c.tc : Thread Cert.KernelIdeal.nD Cert.KernelIdeal.τ).loc Cert.KernelIdeal.main_arg2),
   m ((c.tc : Thread Cert.KernelIdeal.nD Cert.KernelIdeal.τ).loc Cert.KernelIdeal.main_arg3),
   m ((c.tc : Thread Cert.KernelIdeal.nD Cert.KernelIdeal.τ).loc Cert.KernelIdeal.main_arg4),
   m ((c.tc : Thread Cert.KernelIdeal.nD Cert.KernelIdeal.τ).loc Cert.KernelIdeal.main_arg5),
   m ((c.tc : Thread Cert.KernelIdeal.nD Cert.KernelIdeal.τ).loc Cert.KernelIdeal.main_arg6),
   m ((c.tc : Thread Cert.KernelIdeal.nD Cert.KernelIdeal.τ).loc Cert.KernelIdeal.main_arg7),
   m ((c.tc : Thread Cert.KernelIdeal.nD Cert.KernelIdeal.τ).loc Cert.KernelIdeal.main_arg8),
   m ((c.tc : Thread Cert.KernelIdeal.nD Cert.KernelIdeal.τ).loc Cert.KernelIdeal.main_arg9),
   m ((c.tc : Thread Cert.KernelIdeal.nD Cert.KernelIdeal.τ).loc Cert.KernelIdeal.main_arg10),
   m ((c.tc : Thread Cert.KernelIdeal.nD Cert.KernelIdeal.τ).loc Cert.KernelIdeal.main_arg11),
   m ((c.tc : Thread Cert.KernelIdeal.nD Cert.KernelIdeal.τ).loc Cert.KernelIdeal.main_arg12),
   m ((c.tc : Thread Cert.KernelIdeal.nD Cert.KernelIdeal.τ).loc Cert.KernelIdeal.main_arg13)⟩

/-- The fourteen argument arrays of a memory of the idealized reference, on a device. -/
abbrev refArgs (m' : (ℓ : Loc Cert.ReferenceIdeal.nD Cert.ReferenceIdeal.τ Cert.ReferenceIdeal.sig) → Buf (Elt Ideal) ℓ) (c : Dev Cert.ReferenceIdeal.nD) : Cert.Spec.Args :=
  ⟨m' ((c.tc : Thread Cert.ReferenceIdeal.nD Cert.ReferenceIdeal.τ).loc Cert.ReferenceIdeal.main_arg0),
   m' ((c.tc : Thread Cert.ReferenceIdeal.nD Cert.ReferenceIdeal.τ).loc Cert.ReferenceIdeal.main_arg1),
   m' ((c.tc : Thread Cert.ReferenceIdeal.nD Cert.ReferenceIdeal.τ).loc Cert.ReferenceIdeal.main_arg2),
   m' ((c.tc : Thread Cert.ReferenceIdeal.nD Cert.ReferenceIdeal.τ).loc Cert.ReferenceIdeal.main_arg3),
   m' ((c.tc : Thread Cert.ReferenceIdeal.nD Cert.ReferenceIdeal.τ).loc Cert.ReferenceIdeal.main_arg4),
   m' ((c.tc : Thread Cert.ReferenceIdeal.nD Cert.ReferenceIdeal.τ).loc Cert.ReferenceIdeal.main_arg5),
   m' ((c.tc : Thread Cert.ReferenceIdeal.nD Cert.ReferenceIdeal.τ).loc Cert.ReferenceIdeal.main_arg6),
   m' ((c.tc : Thread Cert.ReferenceIdeal.nD Cert.ReferenceIdeal.τ).loc Cert.ReferenceIdeal.main_arg7),
   m' ((c.tc : Thread Cert.ReferenceIdeal.nD Cert.ReferenceIdeal.τ).loc Cert.ReferenceIdeal.main_arg8),
   m' ((c.tc : Thread Cert.ReferenceIdeal.nD Cert.ReferenceIdeal.τ).loc Cert.ReferenceIdeal.main_arg9),
   m' ((c.tc : Thread Cert.ReferenceIdeal.nD Cert.ReferenceIdeal.τ).loc Cert.ReferenceIdeal.main_arg10),
   m' ((c.tc : Thread Cert.ReferenceIdeal.nD Cert.ReferenceIdeal.τ).loc Cert.ReferenceIdeal.main_arg11),
   m' ((c.tc : Thread Cert.ReferenceIdeal.nD Cert.ReferenceIdeal.τ).loc Cert.ReferenceIdeal.main_arg12),
   m' ((c.tc : Thread Cert.ReferenceIdeal.nD Cert.ReferenceIdeal.τ).loc Cert.ReferenceIdeal.main_arg13)⟩

/-- The precondition true of a memory gives the hypotheses of the law for its argument arrays. -/
theorem good_of_pre (m : (ℓ : Loc Cert.KernelIdeal.nD Cert.KernelIdeal.τ Cert.KernelIdeal.sig) → Buf (Elt Ideal) ℓ) (hpre : Cert.Pre_KernelIdeal m) (c : Dev Cert.KernelIdeal.nD) :
    (kernelArgs m c).Good :=
  Cert.Pre_finite_inputs.Decode.good_of_pre _ _ _ _ _ _ _ _ _ _ _ _ _ _ (hpre c)

/-- Memories that agree on the arguments have the same argument arrays. -/
theorem refArgs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    refArgs m' c = kernelArgs m c := by
  obtain ⟨e0, e1, e2, e3, e4, e5, e6, e7, e8, e9, e10, e11, e12, e13⟩ := hagree
  simp only [refArgs, kernelArgs, e0, e1, e2, e3, e4, e5, e6, e7, e8, e9, e10, e11, e12, e13]

/-- The reference's run, in the folded form of the kernel memory's argument arrays. -/
theorem reference_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v40) = Cert.Spec.outK (kernelArgs m c)
      ∧ r.2.mem ((c.tc : Thread Cert.ReferenceIdeal.nD Cert.ReferenceIdeal.τ).loc Cert.ReferenceIdeal.main_v35) = Cert.Spec.muK (kernelArgs m c)
      ∧ r.2.mem ((c.tc : Thread Cert.ReferenceIdeal.nD Cert.ReferenceIdeal.τ).loc Cert.ReferenceIdeal.main_v35) = Cert.Spec.muK (kernelArgs m c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) := by
  refine (θ_run Cert.ReferenceIdeal.defs _ _).mono (fun r h c => ?_) (Cert.ReferenceIdeal.Value.run (F := Ideal) m' g')
  obtain ⟨h40, h35, h35', hrest⟩ := h c
  have e : refArgs m' c = kernelArgs m c := refArgs_eq m m' c (hagree c)
  have hgood : (kernelArgs m c).Good := good_of_pre m hpre c
  have hmu : Cert.ReferenceIdeal.Read.val_main_v35 (F := Ideal) (refArgs m' c).x (refArgs m' c).adj (refArgs m' c).W1 (refArgs m' c).W2
      (refArgs m' c).g1 (refArgs m' c).b1 (refArgs m' c).m1 (refArgs m' c).v1 (refArgs m' c).g2 (refArgs m' c).b2 (refArgs m' c).m2
      (refArgs m' c).v2 = Cert.Spec.muK (kernelArgs m c) := by
    rw [Cert.ReferenceIdeal.RefValue.mu_eq, e, Cert.Spec.muR_eq _ hgood]
  have hout : Cert.ReferenceIdeal.Read.val_main_v40 (F := Ideal) (refArgs m' c).x (refArgs m' c).adj (refArgs m' c).W1 (refArgs m' c).W2
      (refArgs m' c).g1 (refArgs m' c).b1 (refArgs m' c).m1 (refArgs m' c).v1 (refArgs m' c).g2 (refArgs m' c).b2 (refArgs m' c).m2
      (refArgs m' c).v2 (refArgs m' c).decW (refArgs m' c).decb = Cert.Spec.outK (kernelArgs m c) := by
    rw [Cert.ReferenceIdeal.RefValue.out_eq, e, Cert.Spec.outR_eq _ hgood]
  refine ⟨?_, ?_, ?_, hrest⟩
  · rw [h40, Cert.ReferenceIdeal.Read.val_main_v40_eq]; exact hout
  · rw [h35, Cert.ReferenceIdeal.Read.val_main_v35_eq]; exact hmu
  · rw [h35', Cert.ReferenceIdeal.Read.val_main_v35_eq]; exact hmu

end Cert.Final

end
-- ==== Proof.HostVals.lean ====
/-
  What the host operations before the two pallas_calls leave, read at an index, at the exact instance.

  Before the first pallas_call the program folds each eval-mode normalisation into a scale and a shift per channel,

      s = g / sqrt (v + eps),      sh = b - m * s,

  reshaped to a row, transposes the decoder's weight row into a column, reshapes its bias, and converts the two
  weight matrices to a narrower float format (a change of format is the identity on extended reals). These are the
  arrays the kernels' windows stage. Each lemma reads one of them at an index as the corresponding stage of the
  specification.
-/
import proofs.«152953_g41188736369293_cont_8to1_b_1949_15_alg».proof.Proof.Records
import proofs.«152953_g41188736369293_cont_8to1_b_1949_15_alg».proof.Proof.RefFinal
import Idealize.ShloMosaic.Lib.StableHlo.Run
import Idealize.ShloMosaic.Lib.ValueIdx
import Idealize.ShloMosaic.Lib.ValueLayout

set_option maxRecDepth 16384

noncomputable section

namespace Cert.KernelIdeal.HostVals

open Cert.KernelIdeal Cert.KernelIdeal.Gen Cert.KernelIdeal.Rec
open Idealize.ShloMosaic Idealize.ShloMosaic.TcCoe Idealize.SL.Sem Idealize.ShloMosaic.ValueIdx

variable (m : (ℓ : Loc nD τ sig) → Buf (Elt Ideal) ℓ)

/-- The fourteen argument arrays as launched, as the specification's record. -/
abbrev args (c : Dev nD) : Cert.Spec.Args := Cert.Final.kernelArgs m c

/-- The first normalisation's scale row. -/
theorem v4_at (c : Dev nD) (k : Fin 128) : (Gen.V1 m c main_v4 : S1x128.Idx → EReal) (ix2 0 k) = Cert.Spec.s1 (args m c) k := by
  show (StableHlo.after hostOps0 (fun b => m (c, b)) (Proc.devRef .tc main_v4) : S1x128.Idx → EReal) (ix2 0 k) = _
  after_results
  show shapeCast S1x128 (Host.divf (m (c, Proc.devRef .tc main_arg4)) (Host.sqrt (addf (m (c, Proc.devRef .tc main_arg7)) (broadcastInDim S128 ![] bcast_S_S128 (constant (F := Ideal) S_ .f32 0x3727C5AC#32))))) shapeCasts_S128_S1x128 (ix2 0 k) = _
  rw [shapeCast_a_1a_apply]
  rfl

/-- The first normalisation's shift row. -/
theorem v7_at (c : Dev nD) (k : Fin 128) : (Gen.V1 m c main_v7 : S1x128.Idx → EReal) (ix2 0 k) = Cert.Spec.sh1 (args m c) k := by
  show (StableHlo.after hostOps0 (fun b => m (c, b)) (Proc.devRef .tc main_v7) : S1x128.Idx → EReal) (ix2 0 k) = _
  after_results
  show shapeCast S1x128 (subf (m (c, Proc.devRef .tc main_arg5)) (mulf (m (c, Proc.devRef .tc main_arg6)) (Host.divf (m (c, Proc.devRef .tc main_arg4)) (Host.sqrt (addf (m (c, Proc.devRef .tc main_arg7)) (broadcastInDim S128 ![] bcast_S_S128 (constant (F := Ideal) S_ .f32 0x3727C5AC#32))))))) shapeCasts_S128_S1x128 (ix2 0 k) = _
  rw [shapeCast_a_1a_apply]
  rfl

set_option maxHeartbeats 1000000 in
/-- The second normalisation's scale row. -/
theorem v12_at (c : Dev nD) (k : Fin 64) : (Gen.V1 m c main_v12 : S1x64.Idx → EReal) (ix2 0 k) = Cert.Spec.s2 (args m c) k := by
  show (StableHlo.after hostOps0 (fun b => m (c, b)) (Proc.devRef .tc main_v12) : S1x64.Idx → EReal) (ix2 0 k) = _
  after_results
  show shapeCast S1x64 (Host.divf (m (c, Proc.devRef .tc main_arg8)) (Host.sqrt (addf (m (c, Proc.devRef .tc main_arg11)) (broadcastInDim S64 ![] bcast_S_S64 (constant (F := Ideal) S_ .f32 0x3727C5AC#32))))) shapeCasts_S64_S1x64 (ix2 0 k) = _
  rw [shapeCast_a_1a_apply]
  rfl

set_option maxHeartbeats 1000000 in
/-- The second normalisation's shift row. -/
theorem v15_at (c : Dev nD) (k : Fin 64) : (Gen.V1 m c main_v15 : S1x64.Idx → EReal) (ix2 0 k) = Cert.Spec.sh2 (args m c) k := by
  show (StableHlo.after hostOps0 (fun b => m (c, b)) (Proc.devRef .tc main_v15) : S1x64.Idx → EReal) (ix2 0 k) = _
  after_results
  show shapeCast S1x64 (subf (m (c, Proc.devRef .tc main_arg9)) (mulf (m (c, Proc.devRef .tc main_arg10)) (Host.divf (m (c, Proc.devRef .tc main_arg8)) (Host.sqrt (addf (m (c, Proc.devRef .tc main_arg11)) (broadcastInDim S64 ![] bcast_S_S64 (constant (F := Ideal) S_ .f32 0x3727C5AC#32))))))) shapeCasts_S64_S1x64 (ix2 0 k) = _
  rw [shapeCast_a_1a_apply]
  rfl

set_option maxHeartbeats 1000000 in
/-- The decoder's weights as a column. -/
theorem v16_at (c : Dev nD) (k : Fin 64) : (Gen.V1 m c main_v16 : S64x1.Idx → EReal) (ix2 k 0) = (args m c).decW (ix2 0 k) := by
  show (StableHlo.after hostOps0 (fun b => m (c, b)) (Proc.devRef .tc main_v16) : S64x1.Idx → EReal) (ix2 k 0) = _
  after_results
  exact transpose_ix2_apply (m (c, Proc.devRef .tc main_arg12)) transposes_S1x64_S64x1_1_0 k 0

set_option maxHeartbeats 1000000 in
/-- The decoder's bias as a one-by-one array. -/
theorem v17_at (c : Dev nD) : (Gen.V1 m c main_v17 : S1x1.Idx → EReal) (ix2 0 0) = (args m c).decb (ix1 0) := by
  show (StableHlo.after hostOps0 (fun b => m (c, b)) (Proc.devRef .tc main_v17) : S1x1.Idx → EReal) (ix2 0 0) = _
  after_results
  show shapeCast S1x1 (m (c, Proc.devRef .tc main_arg13)) shapeCasts_S1_S1x1 (ix2 0 0) = _
  rw [shapeCast_a_1a_apply]

set_option maxHeartbeats 1000000 in
/-- The converted weight matrices are the weight matrices. -/
theorem v18_eq (c : Dev nD) : (Gen.V1 m c main_v18 : S128x128.Idx → EReal) = (args m c).W1 := by
  show (StableHlo.after hostOps0 (fun b => m (c, b)) (Proc.devRef .tc main_v18) : S128x128.Idx → EReal) = _
  after_results
  rfl
set_option maxHeartbeats 1000000 in
theorem v19_eq (c : Dev nD) : (Gen.V1 m c main_v19 : S128x64.Idx → EReal) = (args m c).W2 := by
  show (StableHlo.after hostOps0 (fun b => m (c, b)) (Proc.devRef .tc main_v19) : S128x64.Idx → EReal) = _
  after_results
  rfl

/-- No host operation writes an argument. -/
theorem arg0_eq (c : Dev nD) : (Gen.V1 m c main_arg0 : S10000x128.Idx → EReal) = (args m c).x := Gen.V1_of m c main_arg0 (by decide)
theorem arg1_eq (c : Dev nD) : (Gen.V1 m c main_arg1 : S10000x10000.Idx → EReal) = (args m c).adj := Gen.V1_of m c main_arg1 (by decide)

end Cert.KernelIdeal.HostVals

end
-- ==== Proof.Val0Pay.lean ====
/-
  The first pallas_call's payloads read at an index, at the ideal instance, over variables of the literal vector types.

  A change of float format is the identity, a cast of a shape to itself is the identity, a product into a zero
  accumulator is the sum of products over the contracted axis, a [1,128] row broadcast along 200 rows reads the row at
  the column. So the stored support is X · W at an index, and each stored block of t is, at row ρ and column k,
  the sum over l of max ((Σ i, A(ρ,i) * S(i,l)) * s1(0,l) + sh1(0,l)) 0 * W2(l,k).
-/
import proofs.«152953_g41188736369293_cont_8to1_b_1949_15_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val0

open Cert.KernelIdeal Cert.KernelIdeal.Gen
open Idealize.ShloMosaic Idealize.ShloMosaic.ValueIdx

/-! ## The three products -/

theorem lhs1_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs1_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs1_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs1_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- The product into a zero accumulator, read at an index: the sum of products over the contracted axis. -/
theorem mm1 {φ₁ φ₂ : FTy} (lhs : FVec Ideal S10000x128 φ₁) (rhs : FVec Ideal S128x128 φ₂) (i : Fin 10000) (j : Fin 128) :
    FloatOps.matmul dot_S10000x128_S128x128_S10000x128_1_0_0_1_n_n none lhs rhs (constant S10000x128 .f32 0x00000000#32) (ix2 i j) = ∑ k : Fin 128, lhs (ix2 i k) * rhs (ix2 k j) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 i j) ((ValueIdx.contrEquiv1 dot_S10000x128_S128x128_S10000x128_1_0_0_1_n_n 128 rfl rfl).symm k) = ix2 i k := funext fun a => Fin.ext (by
    match a with
    | ⟨0, _⟩ => exact lhs1_0 _ _
    | ⟨1, _⟩ => exact (lhs1_1 _ _).trans hk)
  have er : dot_S10000x128_S128x128_S10000x128_1_0_0_1_n_n.rhsIdx (ix2 i j) ((ValueIdx.contrEquiv1 dot_S10000x128_S128x128_S10000x128_1_0_0_1_n_n 128 rfl rfl).symm k) = ix2 k j := funext fun a => Fin.ext (by
    match a with
    | ⟨0, _⟩ => exact (rhs1_0 _ _).trans hk
    | ⟨1, _⟩ => exact rhs1_1 _ _)
  rw [el, er]

theorem lhs2_0 (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs2_1 (i : S200x128.Idx) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem rhs2_0 (i : S200x128.Idx) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem rhs2_1 (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl
/-- The product into a zero accumulator, read at an index: the sum of products over the contracted axis. -/
theorem mm2 {φ₁ φ₂ : FTy} (lhs : FVec Ideal S200x10000 φ₁) (rhs : FVec Ideal S10000x128 φ₂) (i : Fin 200) (j : Fin 128) :
    FloatOps.matmul dot_S200x10000_S10000x128_S200x128_1_0_0_1_n_n none lhs rhs (constant S200x128 .f32 0x00000000#32) (ix2 i j) = ∑ k : Fin 10000, lhs (ix2 i k) * rhs (ix2 k j) := by
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx (ix2 i j) ((ValueIdx.contrEquiv1 dot_S200x10000_S10000x128_S200x128_1_0_0_1_n_n 10000 rfl rfl).symm k) = ix2 i k := funext fun a => Fin.ext (by
    match a with
    | ⟨0, _⟩ => exact lhs2_0 _ _
    | ⟨1, _⟩ => exact (lhs2_1 _ _).trans hk)
  have er : dot_S200x10000_S10000x128_S200x128_1_0_0_1_n_n.rhsIdx (ix2 i j) ((ValueIdx.contrEquiv1 dot_S200x10000_S10000x128_S200x128_1_0_0_1_n_n 10000 rfl rfl).symm k) = ix2 k j := funext fun a => Fin.ext (by
    match a with
    | ⟨0, _⟩ => exact (rhs2_0 _ _).trans hk
    | ⟨1, _⟩ => exact rhs2_1 _ _)
  rw [el, er]

theorem lhs3_0 (i : S200x64.Idx) (q : dot_S200x128_S128x64_S200x64_1_0_0_1_n_n.contr.Idx) : (dot_S200x128_S128x64_S200x64_1_0_0_1_n_n.lhsIdx i q 0).val = (i 0).val := by
  unfold DotDims.lhsIdx
  rw [dif_neg (show ¬(0 : Fin S200x128.rank) ∈ dot_S200x128_S128x64_S200x64_1_0_0_1_n_n.lhsBatch by decide), dif_pos (show (0 : Fin S200x128.rank) ∈ dot_S200x128_S128x64_S200x64_1_0_0_1_n_n.lhsNonContracting by decide)]
  rfl
theorem lhs3_1 (i : S200x64.Idx) (q : dot_S200x128_S128x64_S200x64_1_0_0_1_n_n.contr.Idx) : (dot_S200x128_S128x64_S200x64_1_0_0_1_n_n.lhsIdx i q 1).val = (q ⟨0, by decide⟩).val :=
  dot_S200x128_S128x64_S200x64_1_0_0_1_n_n.lhsIdx_val_of_single rfl i q
theorem rhs3_0 (i : S200x64.Idx) (q : dot_S200x128_S128x64_S200x64_1_0_0_1_n_n.contr.Idx) : (dot_S200x128_S128x64_S200x64_1_0_0_1_n_n.rhsIdx i q 0).val = (q ⟨0, by decide⟩).val :=
  dot_S200x128_S128x64_S200x64_1_0_0_1_n_n.rhsIdx_val_of_single rfl i q
theorem rhs3_1 (i : S200x64.Idx) (q : dot_S200x128_S128x64_S200x64_1_0_0_1_n_n.contr.Idx) : (dot_S200x128_S128x64_S200x64_1_0_0_1_n_n.rhsIdx i q 1).val = (i 1).val := by
  unfold DotDims.rhsIdx
  rw [dif_neg (show ¬(1 : Fin S128x64.rank) ∈ dot_S200x128_S128x64_S200x64_1_0_0_1_n_n.rhsBatch by decide), dif_pos (show (1 : Fin S128x64.rank) ∈ dot_S200x128_S128x64_S200x64_1_0_0_1_n_n.rhsNonContracting by decide)]
  rfl
/-- The product into a zero accumulator, read at an index: the sum of products over the contracted axis. -/
theorem mm3 {φ₁ φ₂ : FTy} (lhs : FVec Ideal S200x128 φ₁) (rhs : FVec Ideal S128x64 φ₂) (i : Fin 200) (j : Fin 64) :
    FloatOps.matmul dot_S200x128_S128x64_S200x64_1_0_0_1_n_n none lhs rhs (constant S200x64 .f32 0x00000000#32) (ix2 i j) = ∑ k : Fin 128, lhs (ix2 i k) * rhs (ix2 k j) := by
  rw [Ideal.matmul_constant_zero_apply, ← Equiv.sum_comp (ValueIdx.contrEquiv1 dot_S200x128_S128x64_S200x64_1_0_0_1_n_n 128 rfl rfl).symm]
  refine Finset.sum_congr rfl fun k _ => ?_
  have hk := ValueIdx.contrEquiv1_symm_val dot_S200x128_S128x64_S200x64_1_0_0_1_n_n 128 rfl rfl k
  have el : dot_S200x128_S128x64_S200x64_1_0_0_1_n_n.lhsIdx (ix2 i j) ((ValueIdx.contrEquiv1 dot_S200x128_S128x64_S200x64_1_0_0_1_n_n 128 rfl rfl).symm k) = ix2 i k := funext fun a => Fin.ext (by
    match a with
    | ⟨0, _⟩ => exact lhs3_0 _ _
    | ⟨1, _⟩ => exact (lhs3_1 _ _).trans hk)
  have er : dot_S200x128_S128x64_S200x64_1_0_0_1_n_n.rhsIdx (ix2 i j) ((ValueIdx.contrEquiv1 dot_S200x128_S128x64_S200x64_1_0_0_1_n_n 128 rfl rfl).symm k) = ix2 k j := funext fun a => Fin.ext (by
    match a with
    | ⟨0, _⟩ => exact (rhs3_0 _ _).trans hk
    | ⟨1, _⟩ => exact rhs3_1 _ _)
  rw [el, er]

/-! ## The row broadcast -/

/-- A [1,128] row broadcast along 200 rows, read at (ρ, l), is the row at (0, l). -/
theorem row_at (v : FVec Ideal S1x128 .f32) (ρ : Fin 200) (l : Fin 128) :
    broadcastTo S200x128 v broadcasts_S1x128_S200x128 (ix2 ρ l) = v (ix2 0 l) :=
  broadcastTo_apply v broadcasts_S1x128_S200x128 (ix2 ρ l) (ix2 0 l) (fun a => by
    match a with
    | ⟨0, _⟩ => rfl
    | ⟨1, _⟩ => rfl)

/-! ## The payloads -/

/-- One row block's t from the scratch contents S, at row ρ of the block and column k. -/
def tBlk (A : FVec Ideal S200x10000 .f32) (S : FVec Ideal S10000x128 .bf16) (s1 sh1 : FVec Ideal S1x128 .f32) (W2 : FVec Ideal S128x64 .bf16)
    (ρ : Fin 200) (k : Fin 64) : EReal :=
  ∑ l : Fin 128, max ((∑ i : Fin 10000, A (ix2 ρ i) * S (ix2 i l)) * s1 (ix2 0 l) + sh1 (ix2 0 l)) 0 * W2 (ix2 l k)

/-- The stored support at an index. -/
theorem pay2_at (X : FVec Ideal S10000x128 .f32) (W : FVec Ideal S128x128 .bf16) (i : Fin 10000) (l : Fin 128) :
    k0_pay2 (F := Ideal) X W (ix2 i l) = ∑ p : Fin 128, X (ix2 i p) * W (ix2 p l) := by
  unfold k0_pay2
  simp only [shapeCast_self]
  exact mm1 (φ₁ := .bf16) (φ₂ := .bf16) _ W i l

/-- The aggregation of one row block times the scale row, at an index. -/
theorem pay4_at (B : FVec Ideal S200x10000 .f32) (S : FVec Ideal S10000x128 .bf16) (s1 : FVec Ideal S1x128 .f32) (ρ : Fin 200) (l : Fin 128) :
    k0_pay4 (F := Ideal) B S s1 (ix2 ρ l) = (∑ i : Fin 10000, B (ix2 ρ i) * S (ix2 i l)) * s1 (ix2 0 l) := by
  unfold k0_pay4
  simp only [shapeCast_self]
  show FloatOps.matmul dot_S200x10000_S10000x128_S200x128_1_0_0_1_n_n none _ S (constant S200x128 .f32 0x00000000#32) (ix2 ρ l)
      * broadcastTo S200x128 s1 broadcasts_S1x128_S200x128 (ix2 ρ l) = _
  rw [mm2 (φ₁ := .bf16) (φ₂ := .bf16), row_at]
  rfl

/-- The top-half block of t at an index. -/
theorem pay3_at (A : FVec Ideal S200x10000 .f32) (S : FVec Ideal S10000x128 .bf16) (s1 sh1 : FVec Ideal S1x128 .f32) (W2 : FVec Ideal S128x64 .bf16)
    (ρ : Fin 200) (k : Fin 64) : k0_pay3 (F := Ideal) A S s1 sh1 W2 (ix2 ρ k) = tBlk A S s1 sh1 W2 ρ k := by
  unfold k0_pay3
  simp only [shapeCast_self]
  refine (mm3 (φ₁ := .bf16) (φ₂ := .bf16) _ W2 ρ k).trans ?_
  unfold tBlk
  refine Finset.sum_congr rfl fun l _ => congrArg (· * W2 (ix2 l k)) ?_
  show max (FloatOps.matmul dot_S200x10000_S10000x128_S200x128_1_0_0_1_n_n none _ S (constant S200x128 .f32 0x00000000#32) (ix2 ρ l)
      * broadcastTo S200x128 s1 broadcasts_S1x128_S200x128 (ix2 ρ l) + broadcastTo S200x128 sh1 broadcasts_S1x128_S200x128 (ix2 ρ l))
      (Ideal.ofBits .f32 0x00000000#32) = _
  rw [mm2 (φ₁ := .bf16) (φ₂ := .bf16), row_at, row_at, Ideal.ofBits_zero_f32]
  rfl

/-- The bottom-half block of t at an index, from the aggregation times the scale row. -/
theorem pay1_at (v30 : FVec Ideal S200x128 .f32) (sh1 : FVec Ideal S1x128 .f32) (W2 : FVec Ideal S128x64 .bf16) (ρ : Fin 200) (k : Fin 64) :
    k0_pay1 (F := Ideal) v30 sh1 W2 (ix2 ρ k) = ∑ l : Fin 128, max (v30 (ix2 ρ l) + sh1 (ix2 0 l)) 0 * W2 (ix2 l k) := by
  unfold k0_pay1
  simp only [shapeCast_self]
  refine (mm3 (φ₁ := .bf16) (φ₂ := .bf16) _ W2 ρ k).trans ?_
  refine Finset.sum_congr rfl fun l _ => congrArg (· * W2 (ix2 l k)) ?_
  show max (v30 (ix2 ρ l) + broadcastTo S200x128 sh1 broadcasts_S1x128_S200x128 (ix2 ρ l)) (Ideal.ofBits .f32 0x00000000#32) = _
  rw [row_at, Ideal.ofBits_zero_f32]

/-- The bottom-half block of t at an index. -/
theorem pay14_at (B : FVec Ideal S200x10000 .f32) (S : FVec Ideal S10000x128 .bf16) (s1 sh1 : FVec Ideal S1x128 .f32) (W2 : FVec Ideal S128x64 .bf16)
    (ρ : Fin 200) (k : Fin 64) : k0_pay1 (F := Ideal) (k0_pay4 (F := Ideal) B S s1) sh1 W2 (ix2 ρ k) = tBlk B S s1 sh1 W2 ρ k := by
  rw [pay1_at]
  unfold tBlk
  exact Finset.sum_congr rfl fun l _ => by rw [pay4_at]

end Cert.KernelIdeal.Val0

end
-- ==== Proof.Val0Blocks.lean ====
/-
  The first pallas_call's stored blocks and staged input blocks, read at an index, at the ideal instance.

  Each stored buffer is one whole-buffer store of a payload over whole-buffer loads, so it is the payload of the
  loaded arrays. Each input window's block at grid point t is its array read at block index times block size plus the
  coordinate inside the block: windows 0, 1, 4, 5, 6 stage whole arrays, window 2 rows 200 t … of the adjacency,
  window 3 rows 200 (t + 25) … of it.
-/
import proofs.«152953_g41188736369293_cont_8to1_b_1949_15_alg».proof.Proof.Region0
import proofs.«152953_g41188736369293_cont_8to1_b_1949_15_alg».proof.Proof.Val0Pay

set_option maxRecDepth 16384

noncomputable section

namespace Cert.KernelIdeal.Val0

open Cert.KernelIdeal Cert.KernelIdeal.Gen
open Idealize.ShloMosaic Idealize.ShloMosaic.TcCoe Idealize.ShloMosaic.ValueIdx
open Idealize.ShloMosaic.Pipeline (Dat)

/-! ## The stored buffers -/

theorem hz : (![0, 0] : Fin 2 → Nat) = fun _ => 0 := funext fun a => by fin_cases a <;> rfl

/-- The stored support at an index. -/
theorem support_at (X : Vec Ideal S10000x128 .f32) (W : Vec Ideal S128x128 .bf16) (i : Fin 10000) (l : Fin 128) :
    Pass1.support (F := Ideal) X W (ix2 i l) = ∑ p : Fin 128, X (ix2 i p) * W (ix2 p l) := by
  unfold Pass1.support
  rw [View.canon_unit_zero hz]
  simp only [View.ld_unit_zero (S := S10000x128) hz, View.ld_unit_zero (S := S128x128) hz]
  exact pay2_at X W i l

/-- The stored top-half block of t at an index. -/
theorem oA_at (A : Vec Ideal S200x10000 .f32) (S : Vec Ideal S10000x128 .bf16) (s1 sh1 : Vec Ideal S1x128 .f32) (W2 : Vec Ideal S128x64 .bf16)
    (ρ : Fin 200) (k : Fin 64) : Pass1.oA (F := Ideal) A S s1 sh1 W2 (ix2 ρ k) = tBlk A S s1 sh1 W2 ρ k := by
  unfold Pass1.oA
  rw [View.canon_unit_zero hz]
  simp only [View.ld_unit_zero (S := S200x10000) hz, View.ld_unit_zero (S := S10000x128) hz, View.ld_unit_zero (S := S1x128) hz,
    View.ld_unit_zero (S := S128x64) hz]
  exact pay3_at A S s1 sh1 W2 ρ k

/-- The stored bottom-half block of t at an index. -/
theorem oB_at (B : Vec Ideal S200x10000 .f32) (S : Vec Ideal S10000x128 .bf16) (s1 sh1 : Vec Ideal S1x128 .f32) (W2 : Vec Ideal S128x64 .bf16)
    (ρ : Fin 200) (k : Fin 64) : Pass1.oB (F := Ideal) B S s1 sh1 W2 (ix2 ρ k) = tBlk B S s1 sh1 W2 ρ k := by
  unfold Pass1.oB
  rw [View.canon_unit_zero hz]
  simp only [View.ld_unit_zero (S := S200x10000) hz, View.ld_unit_zero (S := S10000x128) hz, View.ld_unit_zero (S := S1x128) hz,
    View.ld_unit_zero (S := S128x64) hz]
  exact pay14_at B S s1 sh1 W2 ρ k

/-! ## The staged input blocks -/

section
variable (V : (c : Dev nD) → (b : Ref sig .tc) → Buf (Elt Ideal) ((c : Thread nD τ).loc b))

theorem idx0 : ∀ t : Fin cfg0.N, win0_0.index t 0 = 0 ∧ win0_0.index t 1 = 0 :=
  (by decide +kernel : ∀ t : Fin grid0.N, _)
/-- Window 0 stages its whole array at every point. -/
theorem iblk0_at (c : Dev nD) (t : Fin cfg0.N) (p : Fin 10000) (q : Fin 128) :
    (Reg0.iblk0 V c 0 t : S10000x128.Idx → EReal) (ix2 p q) = (V c main_arg0 : S10000x128.Idx → EReal) (ix2 p q) := by
  obtain ⟨h0, h1⟩ := idx0 t
  unfold Reg0.iblk0
  rw [View.read_apply]
  show (V c main_arg0 : S10000x128.Idx → EReal) _ = (V c main_arg0 : S10000x128.Idx → EReal) _
  congr 1
  funext a; apply Fin.ext
  match a with
  | ⟨0, _⟩ => show win0_0.index t 0 * 10000 + 1 * p.val = p.val; rw [h0]; omega
  | ⟨1, _⟩ => show win0_0.index t 1 * 128 + 1 * q.val = q.val; rw [h1]; omega

theorem idx1 : ∀ t : Fin cfg0.N, win0_1.index t 0 = 0 ∧ win0_1.index t 1 = 0 :=
  (by decide +kernel : ∀ t : Fin grid0.N, _)
/-- Window 1 stages its whole array at every point. -/
theorem iblk1_at (c : Dev nD) (t : Fin cfg0.N) (p : Fin 128) (q : Fin 128) :
    (Reg0.iblk0 V c 1 t : S128x128.Idx → EReal) (ix2 p q) = (V c main_v18 : S128x128.Idx → EReal) (ix2 p q) := by
  obtain ⟨h0, h1⟩ := idx1 t
  unfold Reg0.iblk0
  rw [View.read_apply]
  show (V c main_v18 : S128x128.Idx → EReal) _ = (V c main_v18 : S128x128.Idx → EReal) _
  congr 1
  funext a; apply Fin.ext
  match a with
  | ⟨0, _⟩ => show win0_1.index t 0 * 128 + 1 * p.val = p.val; rw [h0]; omega
  | ⟨1, _⟩ => show win0_1.index t 1 * 128 + 1 * q.val = q.val; rw [h1]; omega

theorem idx4 : ∀ t : Fin cfg0.N, win0_4.index t 0 = 0 ∧ win0_4.index t 1 = 0 :=
  (by decide +kernel : ∀ t : Fin grid0.N, _)
/-- Window 4 stages its whole array at every point. -/
theorem iblk4_at (c : Dev nD) (t : Fin cfg0.N) (p : Fin 1) (q : Fin 128) :
    (Reg0.iblk0 V c 4 t : S1x128.Idx → EReal) (ix2 p q) = (V c main_v4 : S1x128.Idx → EReal) (ix2 p q) := by
  obtain ⟨h0, h1⟩ := idx4 t
  unfold Reg0.iblk0
  rw [View.read_apply]
  show (V c main_v4 : S1x128.Idx → EReal) _ = (V c main_v4 : S1x128.Idx → EReal) _
  congr 1
  funext a; apply Fin.ext
  match a with
  | ⟨0, _⟩ => show win0_4.index t 0 * 1 + 1 * p.val = p.val; rw [h0]; omega
  | ⟨1, _⟩ => show win0_4.index t 1 * 128 + 1 * q.val = q.val; rw [h1]; omega

theorem idx5 : ∀ t : Fin cfg0.N, win0_5.index t 0 = 0 ∧ win0_5.index t 1 = 0 :=
  (by decide +kernel : ∀ t : Fin grid0.N, _)
/-- Window 5 stages its whole array at every point. -/
theorem iblk5_at (c : Dev nD) (t : Fin cfg0.N) (p : Fin 1) (q : Fin 128) :
    (Reg0.iblk0 V c 5 t : S1x128.Idx → EReal) (ix2 p q) = (V c main_v7 : S1x128.Idx → EReal) (ix2 p q) := by
  obtain ⟨h0, h1⟩ := idx5 t
  unfold Reg0.iblk0
  rw [View.read_apply]
  show (V c main_v7 : S1x128.Idx → EReal) _ = (V c main_v7 : S1x128.Idx → EReal) _
  congr 1
  funext a; apply Fin.ext
  match a with
  | ⟨0, _⟩ => show win0_5.index t 0 * 1 + 1 * p.val = p.val; rw [h0]; omega
  | ⟨1, _⟩ => show win0_5.index t 1 * 128 + 1 * q.val = q.val; rw [h1]; omega

theorem idx6 : ∀ t : Fin cfg0.N, win0_6.index t 0 = 0 ∧ win0_6.index t 1 = 0 :=
  (by decide +kernel : ∀ t : Fin grid0.N, _)
/-- Window 6 stages its whole array at every point. -/
theorem iblk6_at (c : Dev nD) (t : Fin cfg0.N) (p : Fin 128) (q : Fin 64) :
    (Reg0.iblk0 V c 6 t : S128x64.Idx → EReal) (ix2 p q) = (V c main_v19 : S128x64.Idx → EReal) (ix2 p q) := by
  obtain ⟨h0, h1⟩ := idx6 t
  unfold Reg0.iblk0
  rw [View.read_apply]
  show (V c main_v19 : S128x64.Idx → EReal) _ = (V c main_v19 : S128x64.Idx → EReal) _
  congr 1
  funext a; apply Fin.ext
  match a with
  | ⟨0, _⟩ => show win0_6.index t 0 * 128 + 1 * p.val = p.val; rw [h0]; omega
  | ⟨1, _⟩ => show win0_6.index t 1 * 64 + 1 * q.val = q.val; rw [h1]; omega

theorem idx2 : ∀ t : Fin cfg0.N, win0_2.index t 0 = t.val ∧ win0_2.index t 1 = 0 :=
  (by decide +kernel : ∀ t : Fin grid0.N, _)
theorem idx3 : ∀ t : Fin cfg0.N, win0_3.index t 0 = t.val + 25 ∧ win0_3.index t 1 = 0 :=
  (by decide +kernel : ∀ t : Fin grid0.N, _)

/-- Window 2's block at point t is rows 200 t … 200 t + 199 of the adjacency. -/
theorem iblk2_at (c : Dev nD) (t : Fin cfg0.N) (ρ : Fin 200) (i r : Fin 10000) (hr : r.val = 200 * t.val + ρ.val) :
    (Reg0.iblk0 V c 2 t : S200x10000.Idx → EReal) (ix2 ρ i) = (V c main_arg1 : S10000x10000.Idx → EReal) (ix2 r i) := by
  obtain ⟨h0, h1⟩ := idx2 t
  unfold Reg0.iblk0
  rw [View.read_apply]
  show (V c main_arg1 : S10000x10000.Idx → EReal) _ = (V c main_arg1 : S10000x10000.Idx → EReal) _
  congr 1
  funext a; apply Fin.ext
  match a with
  | ⟨0, _⟩ => show win0_2.index t 0 * 200 + 1 * ρ.val = r.val; rw [h0, hr]; omega
  | ⟨1, _⟩ => show win0_2.index t 1 * 10000 + 1 * i.val = i.val; rw [h1]; omega

/-- Window 3's block at point t is rows 200 (t + 25) … of the adjacency. -/
theorem iblk3_at (c : Dev nD) (t : Fin cfg0.N) (ρ : Fin 200) (i r : Fin 10000) (hr : r.val = 200 * (t.val + 25) + ρ.val) :
    (Reg0.iblk0 V c 3 t : S200x10000.Idx → EReal) (ix2 ρ i) = (V c main_arg1 : S10000x10000.Idx → EReal) (ix2 r i) := by
  obtain ⟨h0, h1⟩ := idx3 t
  unfold Reg0.iblk0
  rw [View.read_apply]
  show (V c main_arg1 : S10000x10000.Idx → EReal) _ = (V c main_arg1 : S10000x10000.Idx → EReal) _
  congr 1
  funext a; apply Fin.ext
  match a with
  | ⟨0, _⟩ => show win0_3.index t 0 * 200 + 1 * ρ.val = r.val; rw [h0, hr]; omega
  | ⟨1, _⟩ => show win0_3.index t 1 * 10000 + 1 * i.val = i.val; rw [h1]; omega

end

end Cert.KernelIdeal.Val0

end
-- ==== Proof.Val0Spec.lean ====
/-
  The folded form's first layer as a function of SIX arrays: the scale and the shift of the normalisation enter as
  [1,128] rows rather than through the four per-channel arrays they are computed from. At the rows the specification
  computes, these are the specification's stages.
-/
import proofs.«152953_g41188736369293_cont_8to1_b_1949_15_alg».proof.Proof.Spec

noncomputable section

namespace Cert.Spec

open Idealize.ShloMosaic Idealize.ShloMosaic.ValueIdx

abbrev S1x128 : Shape := ⟨2, ![1, 128]⟩

/-- support = X · W1. -/
def supportG (X : Arr S10000x128) (W1 : Arr S128x128) (i : Fin 10000) (l : Fin 128) : EReal :=
  ∑ p : Fin 128, X (ix2 i p) * W1 (ix2 p l)

/-- The hidden layer from a scale row and a shift row: max ((A · support) * S1 + SH1) 0. -/
def hG (X : Arr S10000x128) (W1 : Arr S128x128) (A : Arr S10000x10000) (S1 SH1 : Arr S1x128) (r : Fin 10000) (l : Fin 128) : EReal :=
  max ((∑ i : Fin 10000, A (ix2 r i) * supportG X W1 i l) * S1 (ix2 0 l) + SH1 (ix2 0 l)) 0

/-- t = h · W2. -/
def tG (X : Arr S10000x128) (W1 : Arr S128x128) (A : Arr S10000x10000) (S1 SH1 : Arr S1x128) (W2 : Arr S128x64)
    (r : Fin 10000) (k : Fin 64) : EReal :=
  ∑ l : Fin 128, hG X W1 A S1 SH1 r l * W2 (ix2 l k)

/-- The scale of the first normalisation as a row. -/
def s1Row (a : Args) : Arr S1x128 := fun j => s1 a (j 1)
/-- The shift of the first normalisation as a row. -/
def sh1Row (a : Args) : Arr S1x128 := fun j => sh1 a (j 1)

/-- At the specification's rows, t is the specification's. -/
theorem tG_eq (a : Args) (r : Fin 10000) (k : Fin 64) : tG a.x a.W1 a.adj (s1Row a) (sh1Row a) a.W2 r k = tK a r k := rfl

end Cert.Spec

end
-- ==== Proof.Val0Out7.lean ====
/-
  Output window 7 of the first pallas_call: the array it is flushed to ends holding, at row r and column k, the
  generalised t at row lo r — as ONE function of the six arrays the region finds.

  Grid point t writes back rows 200 t … 200 t + 199. What it writes is the stored block, which at row ρ of the block is
  the generalised t at row 200 t + ρ of the whole: the adjacency rows the point staged are those rows, the
  other five arrays are staged whole. The 25 blocks tile the 5000 rows, so the array ends at that function everywhere.
-/
import proofs.«152953_g41188736369293_cont_8to1_b_1949_15_alg».proof.Proof.Val0Blocks
import proofs.«152953_g41188736369293_cont_8to1_b_1949_15_alg».proof.Proof.Val0Spec

set_option maxRecDepth 16384

noncomputable section

namespace Cert.KernelIdeal.Val0

open Cert.KernelIdeal Cert.KernelIdeal.Gen
open Idealize.ShloMosaic Idealize.ShloMosaic.TcCoe Idealize.ShloMosaic.ValueIdx
open Idealize.ShloMosaic.Pipeline (Dat)

section
variable (V : (c : Dev nD) → (b : Ref sig .tc) → Buf (Elt Ideal) ((c : Thread nD τ).loc b))

/-- The generalised t of the six arrays the region finds: x, W1, the adjacency, the scale row, the shift row, W2. -/
def T (c : Dev nD) (r : Fin 10000) (k : Fin 64) : EReal :=
  Cert.Spec.tG (V c main_arg0) (V c main_v18) (V c main_arg1) (V c main_v4) (V c main_v7) (V c main_v19) r k

/-- The carried support at an index. -/
theorem S0_at (c : Dev nD) (i : Fin 10000) (l : Fin 128) :
    (Reg0.S0 V c : S10000x128.Idx → EReal) (ix2 i l) = Cert.Spec.supportG (V c main_arg0) (V c main_v18) i l := by
  refine (support_at (Reg0.iblk0 V c 0 Reg0.t₀) (Reg0.iblk0 V c 1 Reg0.t₀) i l).trans ?_
  unfold Cert.Spec.supportG
  refine Finset.sum_congr rfl fun p _ => ?_
  rw [iblk0_at V c Reg0.t₀ i p, iblk1_at V c Reg0.t₀ p l]

/-- A row block's t, from the blocks staged at point t for adjacency window w, is the generalised t at the row of the
    whole the block's row is. -/
theorem tBlk_eq (c : Dev nD) (t : Fin cfg0.N) (A : S200x10000.Idx → EReal) (ρ : Fin 200) (k : Fin 64) (r : Fin 10000)
    (hA : ∀ i : Fin 10000, A (ix2 ρ i) = (V c main_arg1 : S10000x10000.Idx → EReal) (ix2 r i)) :
    tBlk A (Reg0.S0 V c) (Reg0.iblk0 V c 4 t) (Reg0.iblk0 V c 5 t) (Reg0.iblk0 V c 6 t) ρ k = T V c r k := by
  unfold tBlk T Cert.Spec.tG Cert.Spec.hG
  refine Finset.sum_congr rfl fun l _ => ?_
  rw [iblk6_at V c t l k, iblk4_at V c t 0 l, iblk5_at V c t 0 l]
  refine congrArg (fun z => max (z * (V c main_v4 : S1x128.Idx → EReal) (ix2 0 l) + (V c main_v7 : S1x128.Idx → EReal) (ix2 0 l)) 0
    * (V c main_v19 : S128x64.Idx → EReal) (ix2 l k)) (Finset.sum_congr rfl fun i _ => ?_)
  rw [hA i, S0_at V c i l]

/-- What window 7's array ends holding. -/
def G7 (c : Dev nD) : S5000x64.Idx → EReal := fun j => T V c (Cert.Spec.lo (j 0)) (j 1)

theorem idx7 : ∀ t : Fin cfg0.N, win0_7.index t 0 = t.val ∧ win0_7.index t 1 = 0 :=
  (by decide +kernel : ∀ t : Fin grid0.N, _)

/-- WHAT POINT t WRITES BACK is block t of G7. -/
theorem flushed7_eq (c : Dev nD) (t : Fin cfg0.N) :
    (Reg0.dat0 V c).flushed 7 t = ((cfg0.win 7).blk t).view.read (Elt Ideal) (G7 V c) := by
  obtain ⟨h0, h1⟩ := idx7 t
  have hN : cfg0.N = 25 := N_0
  have ht : t.val < 25 := by have := t.isLt; omega
  show (cfg0.win 7).cut (grid0.coords t) ((Reg0.dat0 V c).after 7 t) = _
  rw [Reg0.after0_7]
  funext y
  obtain ⟨ρ, k, rfl⟩ : ∃ (ρ : Fin 200) (k : Fin 64), y = ix2 ρ k := ⟨y 0, y 1, eq_ix2 y⟩
  rw [View.read_apply]
  obtain ⟨r5, hr5, hemb⟩ : ∃ r5 : Fin 5000, r5.val = 200 * t.val + ρ.val ∧ ((cfg0.win 7).blk t).view.emb (ix2 ρ k) = ix2 r5 k := by
    refine ⟨⟨200 * t.val + ρ.val, by have := ρ.isLt; omega⟩, rfl, ?_⟩
    funext a; apply Fin.ext
    match a with
    | ⟨0, _⟩ => show win0_7.index t 0 * 200 + 1 * ρ.val = 200 * t.val + ρ.val; rw [h0]; omega
    | ⟨1, _⟩ => show win0_7.index t 1 * 64 + 1 * k.val = k.val; rw [h1]; omega
  rw [hemb]
  refine (oA_at (Reg0.iblk0 V c 2 t) (Reg0.S0 V c) (Reg0.iblk0 V c 4 t) (Reg0.iblk0 V c 5 t) (Reg0.iblk0 V c 6 t) ρ k).trans ?_
  exact tBlk_eq V c t (Reg0.iblk0 V c 2 t) ρ k (Cert.Spec.lo r5)
    (fun i => iblk2_at V c t ρ i (Cert.Spec.lo r5) (by show r5.val = 200 * t.val + ρ.val; exact hr5))

/-- An index of the array is in point t's block iff each coordinate is in the block's range on its axis. -/
theorem mem_blk7 (t : Fin cfg0.N) (i : S5000x64.Idx) :
    i ∈ ((cfg0.win 7).blk t).view.set ↔ ∀ a : Fin 2, win0_7.index t a * S200x64.size a ≤ (i a).val ∧ (i a).val < win0_7.index t a * S200x64.size a + S200x64.size a := by
  show i ∈ ((View.whole main_v20_0).slice (win0_7.rect t)).set ↔ _
  rw [View.set_slice_whole, Rect.mem_set_unit]
  exact Iff.rfl

/-- Every row is in the block of the point its row number divided by 200 names. -/
theorem cover7 (i : S5000x64.Idx) : ∃ t : Fin cfg0.N, (cfg0.win 7).flush t = true ∧ i ∈ ((cfg0.win 7).blk t).view.set := by
  have hN : cfg0.N = 25 := N_0
  have hi0 : (i 0).val < 5000 := (i 0).isLt
  have hi1 : (i 1).val < 64 := (i 1).isLt
  refine ⟨⟨(i 0).val / 200, by rw [hN]; omega⟩, flush0_7 _, ?_⟩
  rw [mem_blk7]
  obtain ⟨h0, h1⟩ := idx7 ⟨(i 0).val / 200, by rw [hN]; omega⟩
  intro a
  match a with
  | ⟨0, _⟩ =>
    show win0_7.index _ 0 * 200 ≤ (i 0).val ∧ (i 0).val < win0_7.index _ 0 * 200 + 200
    rw [h0]; show (i 0).val / 200 * 200 ≤ (i 0).val ∧ (i 0).val < (i 0).val / 200 * 200 + 200; omega
  | ⟨1, _⟩ =>
    show win0_7.index _ 1 * 64 ≤ (i 1).val ∧ (i 1).val < win0_7.index _ 1 * 64 + 64
    rw [h1]; omega

/-- THE ARRAY window 7 is flushed to, after the region: G7 of the six arrays the region finds. -/
theorem arrAt7 (c : Dev nD) : (Reg0.dat0 V c).arrAt 7 cfg0.N = G7 V c :=
  (Reg0.dat0 V c).arrAt_eq_of_cover 7 (G7 V c) (fun t _ => flushed7_eq V c t) (cover7)

/-- The same, index by index with explicit coordinates. -/
theorem arrAt7_at (c : Dev nD) (r : Fin 5000) (k : Fin 64) :
    ((Reg0.dat0 V c).arrAt 7 cfg0.N : S5000x64.Idx → EReal) (ix2 r k) = T V c (Cert.Spec.lo r) k := by
  rw [arrAt7 V c]; rfl

end

end Cert.KernelIdeal.Val0

end
-- ==== Proof.Val0Out8.lean ====
/-
  Output window 8 of the first pallas_call: the array it is flushed to ends holding, at row r and column k, the
  generalised t at row hi r — as ONE function of the six arrays the region finds.

  Grid point t writes back rows 200 t … 200 t + 199. What it writes is the stored block, which at row ρ of the block is
  the generalised t at row 200 (t + 25) + ρ of the whole: the adjacency rows the point staged are those rows, the
  other five arrays are staged whole. The 25 blocks tile the 5000 rows, so the array ends at that function everywhere.
-/
import proofs.«152953_g41188736369293_cont_8to1_b_1949_15_alg».proof.Proof.Val0Out7

set_option maxRecDepth 16384

noncomputable section

namespace Cert.KernelIdeal.Val0

open Cert.KernelIdeal Cert.KernelIdeal.Gen
open Idealize.ShloMosaic Idealize.ShloMosaic.TcCoe Idealize.ShloMosaic.ValueIdx
open Idealize.ShloMosaic.Pipeline (Dat)

section
variable (V : (c : Dev nD) → (b : Ref sig .tc) → Buf (Elt Ideal) ((c : Thread nD τ).loc b))

/-- What window 8's array ends holding. -/
def G8 (c : Dev nD) : S5000x64.Idx → EReal := fun j => T V c (Cert.Spec.hi (j 0)) (j 1)

theorem idx8 : ∀ t : Fin cfg0.N, win0_8.index t 0 = t.val ∧ win0_8.index t 1 = 0 :=
  (by decide +kernel : ∀ t : Fin grid0.N, _)

/-- WHAT POINT t WRITES BACK is block t of G8. -/
theorem flushed8_eq (c : Dev nD) (t : Fin cfg0.N) :
    (Reg0.dat0 V c).flushed 8 t = ((cfg0.win 8).blk t).view.read (Elt Ideal) (G8 V c) := by
  obtain ⟨h0, h1⟩ := idx8 t
  have hN : cfg0.N = 25 := N_0
  have ht : t.val < 25 := by have := t.isLt; omega
  show (cfg0.win 8).cut (grid0.coords t) ((Reg0.dat0 V c).after 8 t) = _
  rw [Reg0.after0_8]
  funext y
  obtain ⟨ρ, k, rfl⟩ : ∃ (ρ : Fin 200) (k : Fin 64), y = ix2 ρ k := ⟨y 0, y 1, eq_ix2 y⟩
  rw [View.read_apply]
  obtain ⟨r5, hr5, hemb⟩ : ∃ r5 : Fin 5000, r5.val = 200 * t.val + ρ.val ∧ ((cfg0.win 8).blk t).view.emb (ix2 ρ k) = ix2 r5 k := by
    refine ⟨⟨200 * t.val + ρ.val, by have := ρ.isLt; omega⟩, rfl, ?_⟩
    funext a; apply Fin.ext
    match a with
    | ⟨0, _⟩ => show win0_8.index t 0 * 200 + 1 * ρ.val = 200 * t.val + ρ.val; rw [h0]; omega
    | ⟨1, _⟩ => show win0_8.index t 1 * 64 + 1 * k.val = k.val; rw [h1]; omega
  rw [hemb]
  refine (oB_at (Reg0.iblk0 V c 3 t) (Reg0.S0 V c) (Reg0.iblk0 V c 4 t) (Reg0.iblk0 V c 5 t) (Reg0.iblk0 V c 6 t) ρ k).trans ?_
  exact tBlk_eq V c t (Reg0.iblk0 V c 3 t) ρ k (Cert.Spec.hi r5)
    (fun i => iblk3_at V c t ρ i (Cert.Spec.hi r5) (by show 5000 + r5.val = 200 * (t.val + 25) + ρ.val; omega))

/-- An index of the array is in point t's block iff each coordinate is in the block's range on its axis. -/
theorem mem_blk8 (t : Fin cfg0.N) (i : S5000x64.Idx) :
    i ∈ ((cfg0.win 8).blk t).view.set ↔ ∀ a : Fin 2, win0_8.index t a * S200x64.size a ≤ (i a).val ∧ (i a).val < win0_8.index t a * S200x64.size a + S200x64.size a := by
  show i ∈ ((View.whole main_v20_1).slice (win0_8.rect t)).set ↔ _
  rw [View.set_slice_whole, Rect.mem_set_unit]
  exact Iff.rfl

/-- Every row is in the block of the point its row number divided by 200 names. -/
theorem cover8 (i : S5000x64.Idx) : ∃ t : Fin cfg0.N, (cfg0.win 8).flush t = true ∧ i ∈ ((cfg0.win 8).blk t).view.set := by
  have hN : cfg0.N = 25 := N_0
  have hi0 : (i 0).val < 5000 := (i 0).isLt
  have hi1 : (i 1).val < 64 := (i 1).isLt
  refine ⟨⟨(i 0).val / 200, by rw [hN]; omega⟩, flush0_8 _, ?_⟩
  rw [mem_blk8]
  obtain ⟨h0, h1⟩ := idx8 ⟨(i 0).val / 200, by rw [hN]; omega⟩
  intro a
  match a with
  | ⟨0, _⟩ =>
    show win0_8.index _ 0 * 200 ≤ (i 0).val ∧ (i 0).val < win0_8.index _ 0 * 200 + 200
    rw [h0]; show (i 0).val / 200 * 200 ≤ (i 0).val ∧ (i 0).val < (i 0).val / 200 * 200 + 200; omega
  | ⟨1, _⟩ =>
    show win0_8.index _ 1 * 64 ≤ (i 1).val ∧ (i 1).val < win0_8.index _ 1 * 64 + 64
    rw [h1]; omega

/-- THE ARRAY window 8 is flushed to, after the region: G8 of the six arrays the region finds. -/
theorem arrAt8 (c : Dev nD) : (Reg0.dat0 V c).arrAt 8 cfg0.N = G8 V c :=
  (Reg0.dat0 V c).arrAt_eq_of_cover 8 (G8 V c) (fun t _ => flushed8_eq V c t) (cover8)

/-- The same, index by index with explicit coordinates. -/
theorem arrAt8_at (c : Dev nD) (r : Fin 5000) (k : Fin 64) :
    ((Reg0.dat0 V c).arrAt 8 cfg0.N : S5000x64.Idx → EReal) (ix2 r k) = T V c (Cert.Spec.hi r) k := by
  rw [arrAt8 V c]; rfl

end

end Cert.KernelIdeal.Val0

end
-- ==== Proof.Val1Pay.lean ====
/-
  The second aggregation's arithmetic, read at one element.

  For a block B of 200 rows of the adjacency (200 × 10000), the two halves of t (5000 × 64 each), the scale and
  shift of the second normalisation (1 × 64), the decoder's weights (64 × 1) and bias (1 × 1), the body computes

      mu(p, k)  = ((Σ_{i < 5000} B(p, i) · t_top(i, k)) + (Σ_{i < 5000} B(p, 5000 + i) · t_bot(i, k))) · s2(0, k) + sh2(0, k)
      out(p)    = (Σ_{k < 64} mu(p, k) · w(k, 0)) + b(0, 0)

  over the extended reals: a change of float format is the identity there, a matrix product into a zero
  accumulator is the plain sum over the contracted axis, a slice reads its operand at the shifted index and a
  row broadcast reads row 0. The same two formulas, with the row taken in the whole adjacency, are what the
  result arrays hold; they are stated once, for any number of rows.
-/
import proofs.«152953_g41188736369293_cont_8to1_b_1949_15_alg».proof.Proof.Gen.KernelIdeal.Skeleton
import proofs.«152953_g41188736369293_cont_8to1_b_1949_15_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx
open Cert.Spec (lo hi)
open scoped BigOperators

/-! ## The two formulas, for a matrix of n rows and 10000 columns -/

/-- mu at row r, channel k: the two half contractions added, then scaled and shifted. -/
def muRow {n : Nat} (A : (⟨2, ![n, 10000]⟩ : Shape).Idx → EReal) (TA TB : (⟨2, ![5000, 64]⟩ : Shape).Idx → EReal)
    (S2 SH2 : (⟨2, ![1, 64]⟩ : Shape).Idx → EReal) (r : Fin n) (k : Fin 64) : EReal :=
  ((∑ i : Fin 5000, A (ix2 r (lo i)) * TA (ix2 i k)) + (∑ i : Fin 5000, A (ix2 r (hi i)) * TB (ix2 i k))) * S2 (ix2 0 k) + SH2 (ix2 0 k)

/-- out at row r: mu's row against the decoder's column, plus the bias. -/
def outRow {n : Nat} (A : (⟨2, ![n, 10000]⟩ : Shape).Idx → EReal) (TA TB : (⟨2, ![5000, 64]⟩ : Shape).Idx → EReal)
    (S2 SH2 : (⟨2, ![1, 64]⟩ : Shape).Idx → EReal) (DW : (⟨2, ![64, 1]⟩ : Shape).Idx → EReal)
    (DB : (⟨2, ![1, 1]⟩ : Shape).Idx → EReal) (r : Fin n) : EReal :=
  (∑ k : Fin 64, muRow A TA TB S2 SH2 r k * DW (ix2 k 0)) + DB (ix2 0 0)

/-- Both formulas depend on the matrix only through the one row they name. -/
theorem muRow_congr {n n' : Nat} (A : (⟨2, ![n, 10000]⟩ : Shape).Idx → EReal) (A' : (⟨2, ![n', 10000]⟩ : Shape).Idx → EReal)
    (TA TB : (⟨2, ![5000, 64]⟩ : Shape).Idx → EReal) (S2 SH2 : (⟨2, ![1, 64]⟩ : Shape).Idx → EReal)
    (r : Fin n) (r' : Fin n') (h : ∀ q : Fin 10000, A (ix2 r q) = A' (ix2 r' q)) (k : Fin 64) :
    muRow A TA TB S2 SH2 r k = muRow A' TA TB S2 SH2 r' k := by
  unfold muRow
  simp only [h]

theorem outRow_congr {n n' : Nat} (A : (⟨2, ![n, 10000]⟩ : Shape).Idx → EReal) (A' : (⟨2, ![n', 10000]⟩ : Shape).Idx → EReal)
    (TA TB : (⟨2, ![5000, 64]⟩ : Shape).Idx → EReal) (S2 SH2 : (⟨2, ![1, 64]⟩ : Shape).Idx → EReal)
    (DW : (⟨2, ![64, 1]⟩ : Shape).Idx → EReal) (DB : (⟨2, ![1, 1]⟩ : Shape).Idx → EReal)
    (r : Fin n) (r' : Fin n') (h : ∀ q : Fin 10000, A (ix2 r q) = A' (ix2 r' q)) :
    outRow A TA TB S2 SH2 DW DB r = outRow A' TA TB S2 SH2 DW DB r' := by
  unfold outRow
  simp only [muRow_congr A A' TA TB S2 SH2 r r' h]

/-! ## The contraction 200 × 5000 by 5000 × 64 -/

abbrev D5000 := dot_S200x5000_S5000x64_S200x64_1_0_0_1_n_n

theorem D5000_lhs0 (j : S200x64.Idx) (q : D5000.contr.Idx) : (D5000.lhsIdx j q 0).val = (j 0).val := by
  unfold DotDims.lhsIdx
  rw [dif_neg (show ¬(0 : Fin S200x5000.rank) ∈ D5000.lhsBatch by decide), dif_pos (show (0 : Fin S200x5000.rank) ∈ D5000.lhsNonContracting by decide)]
  rfl
theorem D5000_rhs1 (j : S200x64.Idx) (q : D5000.contr.Idx) : (D5000.rhsIdx j q 1).val = (j 1).val := by
  unfold DotDims.rhsIdx
  rw [dif_neg (show ¬(1 : Fin S5000x64.rank) ∈ D5000.rhsBatch by decide), dif_pos (show (1 : Fin S5000x64.rank) ∈ D5000.rhsNonContracting by decide)]
  rfl

theorem D5000_lhs (p : Fin 200) (k : Fin 64) (i : Fin 5000) :
    D5000.lhsIdx (ix2 p k) ((contrEquiv1 D5000 5000 rfl rfl).symm i) = ix2 p i :=
  funext fun a => Fin.ext (by
    match a with
    | ⟨0, _⟩ => exact D5000_lhs0 _ _
    | ⟨1, _⟩ => exact (D5000.lhsIdx_val_of_single rfl _ _).trans (contrEquiv1_symm_val D5000 5000 rfl rfl i))
theorem D5000_rhs (p : Fin 200) (k : Fin 64) (i : Fin 5000) :
    D5000.rhsIdx (ix2 p k) ((contrEquiv1 D5000 5000 rfl rfl).symm i) = ix2 i k :=
  funext fun a => Fin.ext (by
    match a with
    | ⟨0, _⟩ => exact (D5000.rhsIdx_val_of_single rfl _ _).trans (contrEquiv1_symm_val D5000 5000 rfl rfl i)
    | ⟨1, _⟩ => exact D5000_rhs1 _ _)

/-- The product into a zero accumulator, at (p, k): the sum over the 5000 contracted positions. -/
theorem mm5000_apply (a : FVec Ideal S200x5000 .bf16) (b : FVec Ideal S5000x64 .bf16) (p : Fin 200) (k : Fin 64) :
    matmul D5000 none a b (constant (F := Ideal) S200x64 .f32 0x00000000#32) (ix2 p k) = ∑ i : Fin 5000, a (ix2 p i) * b (ix2 i k) := by
  refine (Ideal.matmul_constant_zero_apply D5000 none a b (ix2 p k)).trans ?_
  rw [← Equiv.sum_comp (contrEquiv1 D5000 5000 rfl rfl).symm]
  refine Finset.sum_congr rfl fun i _ => ?_
  rw [D5000_lhs, D5000_rhs]

/-! ## The contraction 200 × 64 by 64 × 1 -/

abbrev D64 := dot_S200x64_S64x1_S200x1_1_0_0_1_n_n

theorem D64_lhs0 (j : S200x1.Idx) (q : D64.contr.Idx) : (D64.lhsIdx j q 0).val = (j 0).val := by
  unfold DotDims.lhsIdx
  rw [dif_neg (show ¬(0 : Fin S200x64.rank) ∈ D64.lhsBatch by decide), dif_pos (show (0 : Fin S200x64.rank) ∈ D64.lhsNonContracting by decide)]
  rfl
theorem D64_rhs1 (j : S200x1.Idx) (q : D64.contr.Idx) : (D64.rhsIdx j q 1).val = (j 1).val := by
  unfold DotDims.rhsIdx
  rw [dif_neg (show ¬(1 : Fin S64x1.rank) ∈ D64.rhsBatch by decide), dif_pos (show (1 : Fin S64x1.rank) ∈ D64.rhsNonContracting by decide)]
  rfl

theorem D64_lhs (p : Fin 200) (k : Fin 64) :
    D64.lhsIdx (ix2 p 0) ((contrEquiv1 D64 64 rfl rfl).symm k) = ix2 p k :=
  funext fun a => Fin.ext (by
    match a with
    | ⟨0, _⟩ => exact D64_lhs0 _ _
    | ⟨1, _⟩ => exact (D64.lhsIdx_val_of_single rfl _ _).trans (contrEquiv1_symm_val D64 64 rfl rfl k))
theorem D64_rhs (p : Fin 200) (k : Fin 64) :
    D64.rhsIdx (ix2 p 0) ((contrEquiv1 D64 64 rfl rfl).symm k) = ix2 k 0 :=
  funext fun a => Fin.ext (by
    match a with
    | ⟨0, _⟩ => exact (D64.rhsIdx_val_of_single rfl _ _).trans (contrEquiv1_symm_val D64 64 rfl rfl k)
    | ⟨1, _⟩ => exact D64_rhs1 _ _)

/-- The product into a zero accumulator, at row p: the sum over the 64 channels. -/
theorem mm64_apply (a : FVec Ideal S200x64 .f32) (b : FVec Ideal S64x1 .f32) (p : Fin 200) :
    matmul D64 none a b (constant (F := Ideal) S200x1 .f32 0x00000000#32) (ix2 p 0) = ∑ k : Fin 64, a (ix2 p k) * b (ix2 k 0) := by
  refine (Ideal.matmul_constant_zero_apply D64 none a b (ix2 p 0)).trans ?_
  rw [← Equiv.sum_comp (contrEquiv1 D64 64 rfl rfl).symm]
  refine Finset.sum_congr rfl fun k _ => ?_
  rw [D64_lhs, D64_rhs]

/-! ## The layout operations -/

/-- The left half of a block's columns. -/
theorem sliceLo_apply (v : FVec Ideal S200x10000 .bf16) (p : Fin 200) (i : Fin 5000) :
    extractStridedSlice S200x5000 ![0, 0] v slices_S200x10000_o0_0_S200x5000 (ix2 p i) = v (ix2 p (lo i)) :=
  extractStridedSlice_apply _ _ _ _ _ fun a => by
    match a with
    | ⟨0, _⟩ => show p.val = 0 + p.val; omega
    | ⟨1, _⟩ => show i.val = 0 + i.val; omega
/-- The right half of a block's columns. -/
theorem sliceHi_apply (v : FVec Ideal S200x10000 .bf16) (p : Fin 200) (i : Fin 5000) :
    extractStridedSlice S200x5000 ![0, 5000] v slices_S200x10000_o0_5000_S200x5000 (ix2 p i) = v (ix2 p (hi i)) :=
  extractStridedSlice_apply _ _ _ _ _ fun a => by
    match a with
    | ⟨0, _⟩ => show p.val = 0 + p.val; omega
    | ⟨1, _⟩ => show 5000 + i.val = 5000 + i.val; rfl

/-- A 1 × 64 row broadcast down 200 rows reads its row 0. -/
theorem bcast64_apply (v : FVec Ideal S1x64 .f32) (p : Fin 200) (k : Fin 64) :
    broadcastTo S200x64 v broadcasts_S1x64_S200x64 (ix2 p k) = v (ix2 0 k) :=
  broadcastTo_apply _ _ _ _ fun a => by
    match a with
    | ⟨0, _⟩ => rfl
    | ⟨1, _⟩ => rfl
/-- A 1 × 1 value broadcast down 200 rows reads its one element. -/
theorem bcast1_apply (v : FVec Ideal S1x1 .f32) (p : Fin 200) :
    broadcastTo S200x1 v broadcasts_S1x1_S200x1 (ix2 p 0) = v (ix2 0 0) :=
  broadcastTo_apply _ _ _ _ fun a => by
    match a with
    | ⟨0, _⟩ => rfl
    | ⟨1, _⟩ => rfl

/-! ## The four payloads at an element -/

/-- mu of a block whose halves are cut inside the payload. -/
theorem pay3_apply (x1 : Vec Ideal S200x10000 .f32) (x3 x4 : Vec Ideal S5000x64 .bf16) (x5 x6 : Vec Ideal S1x64 .f32)
    (p : Fin 200) (k : Fin 64) : k1_pay3 x1 x3 x4 x5 x6 (ix2 p k) = muRow x1 x3 x4 x5 x6 p k := by
  unfold k1_pay3 muRow
  simp only [shapeCast_self]
  rw [addf_apply, mulf_apply, addf_apply, mm5000_apply, mm5000_apply, bcast64_apply, bcast64_apply]
  simp only [sliceLo_apply, sliceHi_apply, truncf_apply]

/-- mu of a block whose left half arrives already cut. -/
theorem pay1_apply (x2 : Vec Ideal S200x10000 .f32) (x3 x4 : Vec Ideal S5000x64 .bf16) (x5 x6 : Vec Ideal S1x64 .f32)
    (p : Fin 200) (k : Fin 64) : k1_pay1 (k1_pay5 x2) (k1_pay6 x2) x3 x4 x5 x6 (ix2 p k) = muRow x2 x3 x4 x5 x6 p k := by
  unfold k1_pay1 k1_pay6 k1_pay5 muRow
  simp only [shapeCast_self]
  rw [addf_apply, mulf_apply, addf_apply, mm5000_apply, mm5000_apply, bcast64_apply, bcast64_apply]
  simp only [sliceLo_apply, sliceHi_apply, truncf_apply]

/-- out of the first block. -/
theorem pay4_apply (x1 : Vec Ideal S200x10000 .f32) (x3 x4 : Vec Ideal S5000x64 .bf16) (x5 x6 : Vec Ideal S1x64 .f32)
    (x7 : Vec Ideal S64x1 .f32) (x8 : Vec Ideal S1x1 .f32) (p : Fin 200) :
    k1_pay4 x1 x3 x4 x5 x6 x7 x8 (ix2 p 0) = outRow x1 x3 x4 x5 x6 x7 x8 p := by
  unfold k1_pay4 outRow
  simp only [shapeCast_self]
  rw [addf_apply, mm64_apply, bcast1_apply]
  simp only [pay3_apply]

/-- out of the second block. -/
theorem pay2_apply (x2 : Vec Ideal S200x10000 .f32) (x3 x4 : Vec Ideal S5000x64 .bf16) (x5 x6 : Vec Ideal S1x64 .f32)
    (x7 : Vec Ideal S64x1 .f32) (x8 : Vec Ideal S1x1 .f32) (p : Fin 200) :
    k1_pay2 (k1_pay5 x2) (k1_pay6 x2) x3 x4 x5 x6 x7 x8 (ix2 p 0) = outRow x2 x3 x4 x5 x6 x7 x8 p := by
  unfold k1_pay2 outRow
  simp only [shapeCast_self]
  rw [addf_apply, mm64_apply, bcast1_apply]
  simp only [pay1_apply]

end Cert.KernelIdeal.Val

end
-- ==== Proof.Val1Blk.lean ====
/-
  The second pallas_call's blocks, read off the arrays the region finds.

  Point t of the 25-point grid stages rows 200·t … 200·t + 199 of the adjacency through window 0 and rows
  5000 + 200·t … through window 1; windows 2–7 stage whole small arrays at every point; each output window's
  block at point t is rows 200·t … 200·t + 199 of its array. With that, what the body leaves in each output
  staging buffer at a point is the row formula (mu or out) of the ADJACENCY ITSELF at the matching row.
-/
import proofs.«152953_g41188736369293_cont_8to1_b_1949_15_alg».proof.Proof.Region1
import proofs.«152953_g41188736369293_cont_8to1_b_1949_15_alg».proof.Proof.Val1Pay

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelIdeal.Reg1 (iblk1 dat1)
open Cert.Spec (lo hi)
open scoped BigOperators

theorem hz : (![0, 0] : Fin 2 → Nat) = fun _ => 0 := funext fun a => by fin_cases a <;> rfl

/-- The printed index maps over the grid: the adjacency windows sit at row blocks t and t + 25, every output
    window at row block t, and the small arrays at block (0, 0). -/
theorem idx_facts1 : ∀ t : Fin cfg1.N,
      win1_0.index t (0 : Fin 2) = t.val ∧ win1_0.index t (1 : Fin 2) = 0
    ∧ win1_1.index t (0 : Fin 2) = t.val + 25 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0 :=
  (by decide +kernel : ∀ t : Fin grid1.N, _)

/-- Row p of block t, as a row of a 5000-row array. -/
def rowAt (t : Fin cfg1.N) (p : Fin 200) : Fin 5000 :=
  ⟨200 * t.val + p.val, by have h := t.isLt; have hN : cfg1.N = 25 := N_1; omega⟩

section
variable (V : (c : Dev nD) → (b : Ref sig .tc) → Buf (Elt Ideal) ((c : Thread nD τ).loc b))

/-! ## The input blocks -/

/-- Window 0's block at point t: rows 200·t … of the adjacency (the top half's rows). -/
theorem blk0_apply (c : Dev nD) (t : Fin cfg1.N) (p : Fin 200) (q : Fin 10000) :
    (iblk1 V c 0 t : Vec Ideal S200x10000 .f32) (ix2 p q) = (V c main_arg1 : S10000x10000.Idx → EReal) (ix2 (lo (rowAt t p)) q) := by
  obtain ⟨e0, e1, -⟩ := idx_facts1 t
  unfold iblk1
  rw [View.read_apply]
  show (V c main_arg1 : S10000x10000.Idx → EReal) _ = _
  refine congrArg (V c main_arg1 : S10000x10000.Idx → EReal) (funext fun a => Fin.ext ?_)
  match a with
  | ⟨0, _⟩ => show win1_0.index t (0 : Fin 2) * 200 + 1 * p.val = 200 * t.val + p.val; omega
  | ⟨1, _⟩ => show win1_0.index t (1 : Fin 2) * 10000 + 1 * q.val = q.val; omega

/-- Window 1's block at point t: rows 5000 + 200·t … of the adjacency (the bottom half's rows). -/
theorem blk1_apply (c : Dev nD) (t : Fin cfg1.N) (p : Fin 200) (q : Fin 10000) :
    (iblk1 V c 1 t : Vec Ideal S200x10000 .f32) (ix2 p q) = (V c main_arg1 : S10000x10000.Idx → EReal) (ix2 (hi (rowAt t p)) q) := by
  obtain ⟨-, -, e0, e1, -⟩ := idx_facts1 t
  unfold iblk1
  rw [View.read_apply]
  show (V c main_arg1 : S10000x10000.Idx → EReal) _ = _
  refine congrArg (V c main_arg1 : S10000x10000.Idx → EReal) (funext fun a => Fin.ext ?_)
  match a with
  | ⟨0, _⟩ => show win1_1.index t (0 : Fin 2) * 200 + 1 * p.val = 5000 + (200 * t.val + p.val); omega
  | ⟨1, _⟩ => show win1_1.index t (1 : Fin 2) * 10000 + 1 * q.val = q.val; omega

/-- Windows 2–7 stage their whole arrays. -/
theorem blk2_eq (c : Dev nD) (t : Fin cfg1.N) : (iblk1 V c 2 t : Vec Ideal S5000x64 .bf16) = (V c main_v20_0 : S5000x64.Idx → EReal) := by
  obtain ⟨-, -, -, -, e0, e1, -⟩ := idx_facts1 t
  funext y
  unfold iblk1
  rw [View.read_apply]
  show (V c main_v20_0 : S5000x64.Idx → EReal) _ = _
  refine congrArg (V c main_v20_0 : S5000x64.Idx → EReal) (funext fun a => Fin.ext ?_)
  match a with
  | ⟨0, _⟩ => show win1_2.index t (0 : Fin 2) * 5000 + 1 * (y 0).val = (y 0).val; omega
  | ⟨1, _⟩ => show win1_2.index t (1 : Fin 2) * 64 + 1 * (y 1).val = (y 1).val; omega
theorem blk3_eq (c : Dev nD) (t : Fin cfg1.N) : (iblk1 V c 3 t : Vec Ideal S5000x64 .bf16) = (V c main_v20_1 : S5000x64.Idx → EReal) := by
  obtain ⟨-, -, -, -, -, -, e0, e1, -⟩ := idx_facts1 t
  funext y
  unfold iblk1
  rw [View.read_apply]
  show (V c main_v20_1 : S5000x64.Idx → EReal) _ = _
  refine congrArg (V c main_v20_1 : S5000x64.Idx → EReal) (funext fun a => Fin.ext ?_)
  match a with
  | ⟨0, _⟩ => show win1_3.index t (0 : Fin 2) * 5000 + 1 * (y 0).val = (y 0).val; omega
  | ⟨1, _⟩ => show win1_3.index t (1 : Fin 2) * 64 + 1 * (y 1).val = (y 1).val; omega
theorem blk4_eq (c : Dev nD) (t : Fin cfg1.N) : (iblk1 V c 4 t : Vec Ideal S1x64 .f32) = (V c main_v12 : S1x64.Idx → EReal) := by
  obtain ⟨-, -, -, -, -, -, -, -, e0, e1, -⟩ := idx_facts1 t
  funext y
  unfold iblk1
  rw [View.read_apply]
  show (V c main_v12 : S1x64.Idx → EReal) _ = _
  refine congrArg (V c main_v12 : S1x64.Idx → EReal) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega
theorem blk5_eq (c : Dev nD) (t : Fin cfg1.N) : (iblk1 V c 5 t : Vec Ideal S1x64 .f32) = (V c main_v15 : S1x64.Idx → EReal) := by
  obtain ⟨-, -, -, -, -, -, -, -, -, -, e0, e1, -⟩ := idx_facts1 t
  funext y
  unfold iblk1
  rw [View.read_apply]
  show (V c main_v15 : S1x64.Idx → EReal) _ = _
  refine congrArg (V c main_v15 : S1x64.Idx → EReal) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega
theorem blk6_eq (c : Dev nD) (t : Fin cfg1.N) : (iblk1 V c 6 t : Vec Ideal S64x1 .f32) = (V c main_v16 : S64x1.Idx → EReal) := by
  obtain ⟨-, -, -, -, -, -, -, -, -, -, -, -, e0, e1, -⟩ := idx_facts1 t
  funext y
  unfold iblk1
  rw [View.read_apply]
  show (V c main_v16 : S64x1.Idx → EReal) _ = _
  refine congrArg (V c main_v16 : S64x1.Idx → EReal) (funext fun a => Fin.ext ?_)
  match a with
  | ⟨0, _⟩ => show win1_6.index t (0 : Fin 2) * 64 + 1 * (y 0).val = (y 0).val; omega
  | ⟨1, _⟩ => show win1_6.index t (1 : Fin 2) * 1 + 1 * (y 1).val = (y 1).val; omega
theorem blk7_eq (c : Dev nD) (t : Fin cfg1.N) : (iblk1 V c 7 t : Vec Ideal S1x1 .f32) = (V c main_v17 : S1x1.Idx → EReal) := by
  obtain ⟨-, -, -, -, -, -, -, -, -, -, -, -, -, -, e0, e1, -⟩ := idx_facts1 t
  funext y
  unfold iblk1
  rw [View.read_apply]
  show (V c main_v17 : S1x1.Idx → EReal) _ = _
  refine congrArg (V c main_v17 : S1x1.Idx → EReal) (funext fun a => Fin.ext ?_)
  match a with
  | ⟨0, _⟩ => show win1_7.index t (0 : Fin 2) * 1 + 1 * (y 0).val = (y 0).val; omega
  | ⟨1, _⟩ => show win1_7.index t (1 : Fin 2) * 1 + 1 * (y 1).val = (y 1).val; omega

end

/-! ## What the body leaves in each output buffer, at an element given by its coordinates -/

theorem o9_at (x1 x2 : Vec Ideal S200x10000 .f32) (x3 x4 : Vec Ideal S5000x64 .bf16) (x5 x6 : Vec Ideal S1x64 .f32)
    (x7 : Vec Ideal S64x1 .f32) (x8 : Vec Ideal S1x1 .f32) (j : S200x64.Idx) (p : Fin 200) (k : Fin 64)
    (hp : (j 0).val = p.val) (hk : (j 1).val = k.val) :
    Pass2.o9 x1 x2 x3 x4 x5 x6 x7 x8 j = muRow x1 x3 x4 x5 x6 p k := by
  obtain rfl : j = ix2 p k := funext fun a => Fin.ext (by match a with | ⟨0, _⟩ => exact hp | ⟨1, _⟩ => exact hk)
  unfold Pass2.o9
  rw [View.canon_unit_zero hz]
  simp only [View.ld_unit_zero (S := S200x10000) hz, View.ld_unit_zero (S := S5000x64) hz, View.ld_unit_zero (S := S1x64) hz]
  exact pay3_apply x1 x3 x4 x5 x6 p k

theorem o10_at (x1 x2 : Vec Ideal S200x10000 .f32) (x3 x4 : Vec Ideal S5000x64 .bf16) (x5 x6 : Vec Ideal S1x64 .f32)
    (x7 : Vec Ideal S64x1 .f32) (x8 : Vec Ideal S1x1 .f32) (j : S200x64.Idx) (p : Fin 200) (k : Fin 64)
    (hp : (j 0).val = p.val) (hk : (j 1).val = k.val) :
    Pass2.o10 x1 x2 x3 x4 x5 x6 x7 x8 j = muRow x2 x3 x4 x5 x6 p k := by
  obtain rfl : j = ix2 p k := funext fun a => Fin.ext (by match a with | ⟨0, _⟩ => exact hp | ⟨1, _⟩ => exact hk)
  unfold Pass2.o10
  rw [View.canon_unit_zero hz]
  simp only [View.ld_unit_zero (S := S200x10000) hz, View.ld_unit_zero (S := S5000x64) hz, View.ld_unit_zero (S := S1x64) hz]
  exact pay1_apply x2 x3 x4 x5 x6 p k

theorem o11_at (x1 x2 : Vec Ideal S200x10000 .f32) (x3 x4 : Vec Ideal S5000x64 .bf16) (x5 x6 : Vec Ideal S1x64 .f32)
    (x7 : Vec Ideal S64x1 .f32) (x8 : Vec Ideal S1x1 .f32) (j : S200x1.Idx) (p : Fin 200)
    (hp : (j 0).val = p.val) :
    Pass2.o11 x1 x2 x3 x4 x5 x6 x7 x8 j = outRow x1 x3 x4 x5 x6 x7 x8 p := by
  obtain rfl : j = ix2 p 0 := funext fun a => Fin.ext (by
    match a with
    | ⟨0, _⟩ => exact hp
    | ⟨1, _⟩ => show (j 1).val = 0; have := idx2_lt1 j; omega)
  unfold Pass2.o11
  rw [View.canon_unit_zero hz]
  simp only [View.ld_unit_zero (S := S200x10000) hz, View.ld_unit_zero (S := S5000x64) hz, View.ld_unit_zero (S := S1x64) hz,
    View.ld_unit_zero (S := S64x1) hz, View.ld_unit_zero (S := S1x1) hz]
  exact pay4_apply x1 x3 x4 x5 x6 x7 x8 p

theorem o12_at (x1 x2 : Vec Ideal S200x10000 .f32) (x3 x4 : Vec Ideal S5000x64 .bf16) (x5 x6 : Vec Ideal S1x64 .f32)
    (x7 : Vec Ideal S64x1 .f32) (x8 : Vec Ideal S1x1 .f32) (j : S200x1.Idx) (p : Fin 200)
    (hp : (j 0).val = p.val) :
    Pass2.o12 x1 x2 x3 x4 x5 x6 x7 x8 j = outRow x2 x3 x4 x5 x6 x7 x8 p := by
  obtain rfl : j = ix2 p 0 := funext fun a => Fin.ext (by
    match a with
    | ⟨0, _⟩ => exact hp
    | ⟨1, _⟩ => show (j 1).val = 0; have := idx2_lt1 j; omega)
  unfold Pass2.o12
  rw [View.canon_unit_zero hz]
  simp only [View.ld_unit_zero (S := S200x10000) hz, View.ld_unit_zero (S := S5000x64) hz, View.ld_unit_zero (S := S1x64) hz,
    View.ld_unit_zero (S := S64x1) hz, View.ld_unit_zero (S := S1x1) hz]
  exact pay2_apply x2 x3 x4 x5 x6 x7 x8 p

end Cert.KernelIdeal.Val

end
-- ==== Proof.Val1W8.lean ====
/-
  The top half of mu after the second pallas_call, as one function of the arrays the region finds.

  Every point writes its block back, block t is rows 200·t … 200·t + 199, and the 25 blocks tile the 5000 rows;
  element (r, k) of the array is therefore the row formula at row r of the adjacency.
-/
import proofs.«152953_g41188736369293_cont_8to1_b_1949_15_alg».proof.Proof.Val1Blk

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelIdeal.Reg1 (iblk1 dat1)
open Cert.Spec (lo hi)
open scoped BigOperators

section
variable (V : (c : Dev nD) → (b : Ref sig .tc) → Buf (Elt Ideal) ((c : Thread nD τ).loc b))

/-- mu's top half: row r of the result is the row formula at row r of the adjacency. -/
def G8 (c : Dev nD) : S5000x64.Idx → EReal := fun j =>
  muRow (V c main_arg1 : S10000x10000.Idx → EReal) (V c main_v20_0 : S5000x64.Idx → EReal) (V c main_v20_1 : S5000x64.Idx → EReal)
    (V c main_v12 : S1x64.Idx → EReal) (V c main_v15 : S1x64.Idx → EReal) (lo (j 0)) (j 1)

theorem G8_at (c : Dev nD) (j : S5000x64.Idx) (r : Fin 5000) (k : Fin 64) (hr : (j 0).val = r.val) (hk : (j 1).val = k.val) :
    G8 V c j = muRow (V c main_arg1 : S10000x10000.Idx → EReal) (V c main_v20_0 : S5000x64.Idx → EReal) (V c main_v20_1 : S5000x64.Idx → EReal)
      (V c main_v12 : S1x64.Idx → EReal) (V c main_v15 : S1x64.Idx → EReal) (lo r) k := by
  obtain rfl : j = ix2 r k := funext fun a => Fin.ext (by match a with | ⟨0, _⟩ => exact hr | ⟨1, _⟩ => exact hk)
  rfl

/-- What point t writes back is block t of that function. -/
theorem flushed8_eq (c : Dev nD) (t : Fin cfg1.N) :
    (dat1 V c).flushed 8 t = ((cfg1.win 8).blk t).view.read (Elt Ideal) (G8 V c) := by
  show (cfg1.win 8).cut (grid1.coords t) ((dat1 V c).after 8 t) = _
  rw [Reg1.after1_8]
  obtain ⟨-, -, -, -, -, -, -, -, -, -, -, -, -, -, -, -, e0, e1, -⟩ := idx_facts1 t
  funext y
  rw [View.read_apply]
  refine (o9_at (iblk1 V c 0 t) (iblk1 V c 1 t) (iblk1 V c 2 t) (iblk1 V c 3 t) (iblk1 V c 4 t) (iblk1 V c 5 t) (iblk1 V c 6 t) (iblk1 V c 7 t)
    _ ⟨(y 0).val, (y 0).isLt⟩ ⟨(y 1).val, (y 1).isLt⟩ rfl rfl).trans ?_
  refine Eq.trans ?_ (G8_at V c _ (rowAt t ⟨(y 0).val, (y 0).isLt⟩) ⟨(y 1).val, (y 1).isLt⟩ ?_ ?_).symm
  · rw [blk2_eq, blk3_eq, blk4_eq, blk5_eq]
    exact muRow_congr _ _ _ _ _ _ _ _ (fun q => blk0_apply V c t _ q) _
  · show win1_8.index t (0 : Fin 2) * 200 + 1 * (y 0).val = 200 * t.val + (y 0).val; omega
  · show win1_8.index t (1 : Fin 2) * 64 + 1 * (y 1).val = (y 1).val; omega

theorem mem_blk8 (t : Fin cfg1.N) (i : S5000x64.Idx) :
    i ∈ ((cfg1.win 8).blk t).view.set ↔ ∀ a : Fin 2, win1_8.index t a * S200x64.size a ≤ (i a).val ∧ (i a).val < win1_8.index t a * S200x64.size a + S200x64.size a := by
  show i ∈ ((View.whole main_v21_0).slice (win1_8.rect t)).set ↔ _
  rw [View.set_slice_whole, Rect.mem_set_unit]
  exact Iff.rfl

/-- Row r lies in the block of point r / 200. -/
theorem cover8 (i : S5000x64.Idx) : ∃ t : Fin cfg1.N, (cfg1.win 8).flush t = true ∧ i ∈ ((cfg1.win 8).blk t).view.set := by
  have hi0 : (i 0).val < 5000 := idx2_lt0 i
  have hi1 : (i 1).val < 64 := idx2_lt1 i
  have hN : cfg1.N = 25 := N_1
  have ht : (i 0).val / 200 < cfg1.N := by omega
  obtain ⟨-, -, -, -, -, -, -, -, -, -, -, -, -, -, -, -, e0, e1, -⟩ := idx_facts1 ⟨(i 0).val / 200, ht⟩
  refine ⟨⟨(i 0).val / 200, ht⟩, flush1_8 _, ?_⟩
  rw [mem_blk8]
  intro a
  match a with
  | ⟨0, _⟩ =>
    show win1_8.index ⟨(i 0).val / 200, ht⟩ (0 : Fin 2) * 200 ≤ (i 0).val ∧ (i 0).val < win1_8.index ⟨(i 0).val / 200, ht⟩ (0 : Fin 2) * 200 + 200
    rw [e0]; show (i 0).val / 200 * 200 ≤ (i 0).val ∧ (i 0).val < (i 0).val / 200 * 200 + 200; omega
  | ⟨1, _⟩ =>
    show win1_8.index ⟨(i 0).val / 200, ht⟩ (1 : Fin 2) * 64 ≤ (i 1).val ∧ (i 1).val < win1_8.index ⟨(i 0).val / 200, ht⟩ (1 : Fin 2) * 64 + 64
    rw [e1]; omega

/-- THE ARRAY after the run. -/
theorem arrAt8 (c : Dev nD) : (dat1 V c).arrAt 8 cfg1.N = G8 V c :=
  (dat1 V c).arrAt_eq_of_cover 8 (G8 V c) (fun t _ => flushed8_eq V c t) cover8

/-- … and at an element. -/
theorem arrAt8_apply (c : Dev nD) (r : Fin 5000) (k : Fin 64) :
    ((dat1 V c).arrAt 8 cfg1.N : S5000x64.Idx → EReal) (ix2 r k)
      = muRow (V c main_arg1 : S10000x10000.Idx → EReal) (V c main_v20_0 : S5000x64.Idx → EReal) (V c main_v20_1 : S5000x64.Idx → EReal)
          (V c main_v12 : S1x64.Idx → EReal) (V c main_v15 : S1x64.Idx → EReal) (lo r) k := by
  rw [arrAt8]; rfl

end

end Cert.KernelIdeal.Val

end
-- ==== Proof.Val1W9.lean ====
/-
  The bottom half of mu after the second pallas_call, as one function of the arrays the region finds.

  Every point writes its block back, block t is rows 200·t … 200·t + 199, and the 25 blocks tile the 5000 rows;
  element (r, k) of the array is therefore the row formula at row 5000 + r of the adjacency.
-/
import proofs.«152953_g41188736369293_cont_8to1_b_1949_15_alg».proof.Proof.Val1Blk

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelIdeal.Reg1 (iblk1 dat1)
open Cert.Spec (lo hi)
open scoped BigOperators

section
variable (V : (c : Dev nD) → (b : Ref sig .tc) → Buf (Elt Ideal) ((c : Thread nD τ).loc b))

/-- mu's bottom half: row r of the result is the row formula at row 5000 + r of the adjacency. -/
def G9 (c : Dev nD) : S5000x64.Idx → EReal := fun j =>
  muRow (V c main_arg1 : S10000x10000.Idx → EReal) (V c main_v20_0 : S5000x64.Idx → EReal) (V c main_v20_1 : S5000x64.Idx → EReal)
    (V c main_v12 : S1x64.Idx → EReal) (V c main_v15 : S1x64.Idx → EReal) (hi (j 0)) (j 1)

theorem G9_at (c : Dev nD) (j : S5000x64.Idx) (r : Fin 5000) (k : Fin 64) (hr : (j 0).val = r.val) (hk : (j 1).val = k.val) :
    G9 V c j = muRow (V c main_arg1 : S10000x10000.Idx → EReal) (V c main_v20_0 : S5000x64.Idx → EReal) (V c main_v20_1 : S5000x64.Idx → EReal)
      (V c main_v12 : S1x64.Idx → EReal) (V c main_v15 : S1x64.Idx → EReal) (hi r) k := by
  obtain rfl : j = ix2 r k := funext fun a => Fin.ext (by match a with | ⟨0, _⟩ => exact hr | ⟨1, _⟩ => exact hk)
  rfl

/-- What point t writes back is block t of that function. -/
theorem flushed9_eq (c : Dev nD) (t : Fin cfg1.N) :
    (dat1 V c).flushed 9 t = ((cfg1.win 9).blk t).view.read (Elt Ideal) (G9 V c) := by
  show (cfg1.win 9).cut (grid1.coords t) ((dat1 V c).after 9 t) = _
  rw [Reg1.after1_9]
  obtain ⟨-, -, -, -, -, -, -, -, -, -, -, -, -, -, -, -, -, -, e0, e1, -⟩ := idx_facts1 t
  funext y
  rw [View.read_apply]
  refine (o10_at (iblk1 V c 0 t) (iblk1 V c 1 t) (iblk1 V c 2 t) (iblk1 V c 3 t) (iblk1 V c 4 t) (iblk1 V c 5 t) (iblk1 V c 6 t) (iblk1 V c 7 t)
    _ ⟨(y 0).val, (y 0).isLt⟩ ⟨(y 1).val, (y 1).isLt⟩ rfl rfl).trans ?_
  refine Eq.trans ?_ (G9_at V c _ (rowAt t ⟨(y 0).val, (y 0).isLt⟩) ⟨(y 1).val, (y 1).isLt⟩ ?_ ?_).symm
  · rw [blk2_eq, blk3_eq, blk4_eq, blk5_eq]
    exact muRow_congr _ _ _ _ _ _ _ _ (fun q => blk1_apply V c t _ q) _
  · show win1_9.index t (0 : Fin 2) * 200 + 1 * (y 0).val = 200 * t.val + (y 0).val; omega
  · show win1_9.index t (1 : Fin 2) * 64 + 1 * (y 1).val = (y 1).val; omega

theorem mem_blk9 (t : Fin cfg1.N) (i : S5000x64.Idx) :
    i ∈ ((cfg1.win 9).blk t).view.set ↔ ∀ a : Fin 2, win1_9.index t a * S200x64.size a ≤ (i a).val ∧ (i a).val < win1_9.index t a * S200x64.size a + S200x64.size a := by
  show i ∈ ((View.whole main_v21_1).slice (win1_9.rect t)).set ↔ _
  rw [View.set_slice_whole, Rect.mem_set_unit]
  exact Iff.rfl

/-- Row r lies in the block of point r / 200. -/
theorem cover9 (i : S5000x64.Idx) : ∃ t : Fin cfg1.N, (cfg1.win 9).flush t = true ∧ i ∈ ((cfg1.win 9).blk t).view.set := by
  have hi0 : (i 0).val < 5000 := idx2_lt0 i
  have hi1 : (i 1).val < 64 := idx2_lt1 i
  have hN : cfg1.N = 25 := N_1
  have ht : (i 0).val / 200 < cfg1.N := by omega
  obtain ⟨-, -, -, -, -, -, -, -, -, -, -, -, -, -, -, -, -, -, e0, e1, -⟩ := idx_facts1 ⟨(i 0).val / 200, ht⟩
  refine ⟨⟨(i 0).val / 200, ht⟩, flush1_9 _, ?_⟩
  rw [mem_blk9]
  intro a
  match a with
  | ⟨0, _⟩ =>
    show win1_9.index ⟨(i 0).val / 200, ht⟩ (0 : Fin 2) * 200 ≤ (i 0).val ∧ (i 0).val < win1_9.index ⟨(i 0).val / 200, ht⟩ (0 : Fin 2) * 200 + 200
    rw [e0]; show (i 0).val / 200 * 200 ≤ (i 0).val ∧ (i 0).val < (i 0).val / 200 * 200 + 200; omega
  | ⟨1, _⟩ =>
    show win1_9.index ⟨(i 0).val / 200, ht⟩ (1 : Fin 2) * 64 ≤ (i 1).val ∧ (i 1).val < win1_9.index ⟨(i 0).val / 200, ht⟩ (1 : Fin 2) * 64 + 64
    rw [e1]; omega

/-- THE ARRAY after the run. -/
theorem arrAt9 (c : Dev nD) : (dat1 V c).arrAt 9 cfg1.N = G9 V c :=
  (dat1 V c).arrAt_eq_of_cover 9 (G9 V c) (fun t _ => flushed9_eq V c t) cover9

/-- … and at an element. -/
theorem arrAt9_apply (c : Dev nD) (r : Fin 5000) (k : Fin 64) :
    ((dat1 V c).arrAt 9 cfg1.N : S5000x64.Idx → EReal) (ix2 r k)
      = muRow (V c main_arg1 : S10000x10000.Idx → EReal) (V c main_v20_0 : S5000x64.Idx → EReal) (V c main_v20_1 : S5000x64.Idx → EReal)
          (V c main_v12 : S1x64.Idx → EReal) (V c main_v15 : S1x64.Idx → EReal) (hi r) k := by
  rw [arrAt9]; rfl

end

end Cert.KernelIdeal.Val

end
-- ==== Proof.Val1W10.lean ====
/-
  The top half of out after the second pallas_call, as one function of the arrays the region finds.

  Every point writes its block back, block t is rows 200·t … 200·t + 199 of a one-column array, and the 25 blocks
  tile the 5000 rows; element (r, 0) of the array is therefore the decoder's formula at row r of the
  adjacency.
-/
import proofs.«152953_g41188736369293_cont_8to1_b_1949_15_alg».proof.Proof.Val1Blk

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelIdeal.Reg1 (iblk1 dat1)
open Cert.Spec (lo hi)
open scoped BigOperators

section
variable (V : (c : Dev nD) → (b : Ref sig .tc) → Buf (Elt Ideal) ((c : Thread nD τ).loc b))

/-- out's top half: row r of the result is the decoder's formula at row r of the adjacency. -/
def G10 (c : Dev nD) : S5000x1.Idx → EReal := fun j =>
  outRow (V c main_arg1 : S10000x10000.Idx → EReal) (V c main_v20_0 : S5000x64.Idx → EReal) (V c main_v20_1 : S5000x64.Idx → EReal)
    (V c main_v12 : S1x64.Idx → EReal) (V c main_v15 : S1x64.Idx → EReal) (V c main_v16 : S64x1.Idx → EReal) (V c main_v17 : S1x1.Idx → EReal) (lo (j 0))

theorem G10_at (c : Dev nD) (j : S5000x1.Idx) (r : Fin 5000) (hr : (j 0).val = r.val) :
    G10 V c j = outRow (V c main_arg1 : S10000x10000.Idx → EReal) (V c main_v20_0 : S5000x64.Idx → EReal) (V c main_v20_1 : S5000x64.Idx → EReal)
      (V c main_v12 : S1x64.Idx → EReal) (V c main_v15 : S1x64.Idx → EReal) (V c main_v16 : S64x1.Idx → EReal) (V c main_v17 : S1x1.Idx → EReal) (lo r) := by
  obtain rfl : j = ix2 r 0 := funext fun a => Fin.ext (by
    match a with
    | ⟨0, _⟩ => exact hr
    | ⟨1, _⟩ => show (j 1).val = 0; have := idx2_lt1 j; omega)
  rfl

/-- What point t writes back is block t of that function. -/
theorem flushed10_eq (c : Dev nD) (t : Fin cfg1.N) :
    (dat1 V c).flushed 10 t = ((cfg1.win 10).blk t).view.read (Elt Ideal) (G10 V c) := by
  show (cfg1.win 10).cut (grid1.coords t) ((dat1 V c).after 10 t) = _
  rw [Reg1.after1_10]
  obtain ⟨-, -, -, -, -, -, -, -, -, -, -, -, -, -, -, -, -, -, -, -, e0, e1, -⟩ := idx_facts1 t
  funext y
  rw [View.read_apply]
  refine (o11_at (iblk1 V c 0 t) (iblk1 V c 1 t) (iblk1 V c 2 t) (iblk1 V c 3 t) (iblk1 V c 4 t) (iblk1 V c 5 t) (iblk1 V c 6 t) (iblk1 V c 7 t)
    _ ⟨(y 0).val, (y 0).isLt⟩ rfl).trans ?_
  refine Eq.trans ?_ (G10_at V c _ (rowAt t ⟨(y 0).val, (y 0).isLt⟩) ?_).symm
  · rw [blk2_eq, blk3_eq, blk4_eq, blk5_eq, blk6_eq, blk7_eq]
    exact outRow_congr _ _ _ _ _ _ _ _ _ _ (fun q => blk0_apply V c t _ q)
  · show win1_10.index t (0 : Fin 2) * 200 + 1 * (y 0).val = 200 * t.val + (y 0).val; omega

theorem mem_blk10 (t : Fin cfg1.N) (i : S5000x1.Idx) :
    i ∈ ((cfg1.win 10).blk t).view.set ↔ ∀ a : Fin 2, win1_10.index t a * S200x1.size a ≤ (i a).val ∧ (i a).val < win1_10.index t a * S200x1.size a + S200x1.size a := by
  show i ∈ ((View.whole main_v21_2).slice (win1_10.rect t)).set ↔ _
  rw [View.set_slice_whole, Rect.mem_set_unit]
  exact Iff.rfl

/-- Row r lies in the block of point r / 200. -/
theorem cover10 (i : S5000x1.Idx) : ∃ t : Fin cfg1.N, (cfg1.win 10).flush t = true ∧ i ∈ ((cfg1.win 10).blk t).view.set := by
  have hi0 : (i 0).val < 5000 := idx2_lt0 i
  have hi1 : (i 1).val < 1 := idx2_lt1 i
  have hN : cfg1.N = 25 := N_1
  have ht : (i 0).val / 200 < cfg1.N := by omega
  obtain ⟨-, -, -, -, -, -, -, -, -, -, -, -, -, -, -, -, -, -, -, -, e0, e1, -⟩ := idx_facts1 ⟨(i 0).val / 200, ht⟩
  refine ⟨⟨(i 0).val / 200, ht⟩, flush1_10 _, ?_⟩
  rw [mem_blk10]
  intro a
  match a with
  | ⟨0, _⟩ =>
    show win1_10.index ⟨(i 0).val / 200, ht⟩ (0 : Fin 2) * 200 ≤ (i 0).val ∧ (i 0).val < win1_10.index ⟨(i 0).val / 200, ht⟩ (0 : Fin 2) * 200 + 200
    rw [e0]; show (i 0).val / 200 * 200 ≤ (i 0).val ∧ (i 0).val < (i 0).val / 200 * 200 + 200; omega
  | ⟨1, _⟩ =>
    show win1_10.index ⟨(i 0).val / 200, ht⟩ (1 : Fin 2) * 1 ≤ (i 1).val ∧ (i 1).val < win1_10.index ⟨(i 0).val / 200, ht⟩ (1 : Fin 2) * 1 + 1
    rw [e1]; omega

/-- THE ARRAY after the run. -/
theorem arrAt10 (c : Dev nD) : (dat1 V c).arrAt 10 cfg1.N = G10 V c :=
  (dat1 V c).arrAt_eq_of_cover 10 (G10 V c) (fun t _ => flushed10_eq V c t) cover10

/-- … and at an element. -/
theorem arrAt10_apply (c : Dev nD) (r : Fin 5000) :
    ((dat1 V c).arrAt 10 cfg1.N : S5000x1.Idx → EReal) (ix2 r 0)
      = outRow (V c main_arg1 : S10000x10000.Idx → EReal) (V c main_v20_0 : S5000x64.Idx → EReal) (V c main_v20_1 : S5000x64.Idx → EReal)
          (V c main_v12 : S1x64.Idx → EReal) (V c main_v15 : S1x64.Idx → EReal) (V c main_v16 : S64x1.Idx → EReal) (V c main_v17 : S1x1.Idx → EReal) (lo r) := by
  rw [arrAt10]; rfl

end

end Cert.KernelIdeal.Val

end
-- ==== Proof.Val1W11.lean ====
/-
  The bottom half of out after the second pallas_call, as one function of the arrays the region finds.

  Every point writes its block back, block t is rows 200·t … 200·t + 199 of a one-column array, and the 25 blocks
  tile the 5000 rows; element (r, 0) of the array is therefore the decoder's formula at row 5000 + r of the
  adjacency.
-/
import proofs.«152953_g41188736369293_cont_8to1_b_1949_15_alg».proof.Proof.Val1Blk

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelIdeal.Reg1 (iblk1 dat1)
open Cert.Spec (lo hi)
open scoped BigOperators

section
variable (V : (c : Dev nD) → (b : Ref sig .tc) → Buf (Elt Ideal) ((c : Thread nD τ).loc b))

/-- out's bottom half: row r of the result is the decoder's formula at row 5000 + r of the adjacency. -/
def G11 (c : Dev nD) : S5000x1.Idx → EReal := fun j =>
  outRow (V c main_arg1 : S10000x10000.Idx → EReal) (V c main_v20_0 : S5000x64.Idx → EReal) (V c main_v20_1 : S5000x64.Idx → EReal)
    (V c main_v12 : S1x64.Idx → EReal) (V c main_v15 : S1x64.Idx → EReal) (V c main_v16 : S64x1.Idx → EReal) (V c main_v17 : S1x1.Idx → EReal) (hi (j 0))

theorem G11_at (c : Dev nD) (j : S5000x1.Idx) (r : Fin 5000) (hr : (j 0).val = r.val) :
    G11 V c j = outRow (V c main_arg1 : S10000x10000.Idx → EReal) (V c main_v20_0 : S5000x64.Idx → EReal) (V c main_v20_1 : S5000x64.Idx → EReal)
      (V c main_v12 : S1x64.Idx → EReal) (V c main_v15 : S1x64.Idx → EReal) (V c main_v16 : S64x1.Idx → EReal) (V c main_v17 : S1x1.Idx → EReal) (hi r) := by
  obtain rfl : j = ix2 r 0 := funext fun a => Fin.ext (by
    match a with
    | ⟨0, _⟩ => exact hr
    | ⟨1, _⟩ => show (j 1).val = 0; have := idx2_lt1 j; omega)
  rfl

/-- What point t writes back is block t of that function. -/
theorem flushed11_eq (c : Dev nD) (t : Fin cfg1.N) :
    (dat1 V c).flushed 11 t = ((cfg1.win 11).blk t).view.read (Elt Ideal) (G11 V c) := by
  show (cfg1.win 11).cut (grid1.coords t) ((dat1 V c).after 11 t) = _
  rw [Reg1.after1_11]
  obtain ⟨-, -, -, -, -, -, -, -, -, -, -, -, -, -, -, -, -, -, -, -, -, -, e0, e1⟩ := idx_facts1 t
  funext y
  rw [View.read_apply]
  refine (o12_at (iblk1 V c 0 t) (iblk1 V c 1 t) (iblk1 V c 2 t) (iblk1 V c 3 t) (iblk1 V c 4 t) (iblk1 V c 5 t) (iblk1 V c 6 t) (iblk1 V c 7 t)
    _ ⟨(y 0).val, (y 0).isLt⟩ rfl).trans ?_
  refine Eq.trans ?_ (G11_at V c _ (rowAt t ⟨(y 0).val, (y 0).isLt⟩) ?_).symm
  · rw [blk2_eq, blk3_eq, blk4_eq, blk5_eq, blk6_eq, blk7_eq]
    exact outRow_congr _ _ _ _ _ _ _ _ _ _ (fun q => blk1_apply V c t _ q)
  · show win1_11.index t (0 : Fin 2) * 200 + 1 * (y 0).val = 200 * t.val + (y 0).val; omega

theorem mem_blk11 (t : Fin cfg1.N) (i : S5000x1.Idx) :
    i ∈ ((cfg1.win 11).blk t).view.set ↔ ∀ a : Fin 2, win1_11.index t a * S200x1.size a ≤ (i a).val ∧ (i a).val < win1_11.index t a * S200x1.size a + S200x1.size a := by
  show i ∈ ((View.whole main_v21_3).slice (win1_11.rect t)).set ↔ _
  rw [View.set_slice_whole, Rect.mem_set_unit]
  exact Iff.rfl

/-- Row r lies in the block of point r / 200. -/
theorem cover11 (i : S5000x1.Idx) : ∃ t : Fin cfg1.N, (cfg1.win 11).flush t = true ∧ i ∈ ((cfg1.win 11).blk t).view.set := by
  have hi0 : (i 0).val < 5000 := idx2_lt0 i
  have hi1 : (i 1).val < 1 := idx2_lt1 i
  have hN : cfg1.N = 25 := N_1
  have ht : (i 0).val / 200 < cfg1.N := by omega
  obtain ⟨-, -, -, -, -, -, -, -, -, -, -, -, -, -, -, -, -, -, -, -, -, -, e0, e1⟩ := idx_facts1 ⟨(i 0).val / 200, ht⟩
  refine ⟨⟨(i 0).val / 200, ht⟩, flush1_11 _, ?_⟩
  rw [mem_blk11]
  intro a
  match a with
  | ⟨0, _⟩ =>
    show win1_11.index ⟨(i 0).val / 200, ht⟩ (0 : Fin 2) * 200 ≤ (i 0).val ∧ (i 0).val < win1_11.index ⟨(i 0).val / 200, ht⟩ (0 : Fin 2) * 200 + 200
    rw [e0]; show (i 0).val / 200 * 200 ≤ (i 0).val ∧ (i 0).val < (i 0).val / 200 * 200 + 200; omega
  | ⟨1, _⟩ =>
    show win1_11.index ⟨(i 0).val / 200, ht⟩ (1 : Fin 2) * 1 ≤ (i 1).val ∧ (i 1).val < win1_11.index ⟨(i 0).val / 200, ht⟩ (1 : Fin 2) * 1 + 1
    rw [e1]; omega

/-- THE ARRAY after the run. -/
theorem arrAt11 (c : Dev nD) : (dat1 V c).arrAt 11 cfg1.N = G11 V c :=
  (dat1 V c).arrAt_eq_of_cover 11 (G11 V c) (fun t _ => flushed11_eq V c t) cover11

/-- … and at an element. -/
theorem arrAt11_apply (c : Dev nD) (r : Fin 5000) :
    ((dat1 V c).arrAt 11 cfg1.N : S5000x1.Idx → EReal) (ix2 r 0)
      = outRow (V c main_arg1 : S10000x10000.Idx → EReal) (V c main_v20_0 : S5000x64.Idx → EReal) (V c main_v20_1 : S5000x64.Idx → EReal)
          (V c main_v12 : S1x64.Idx → EReal) (V c main_v15 : S1x64.Idx → EReal) (V c main_v16 : S64x1.Idx → EReal) (V c main_v17 : S1x1.Idx → EReal) (hi r) := by
  rw [arrAt11]; rfl

end

end Cert.KernelIdeal.Val

end
-- ==== Proof.Val1.lean ====
/-
  The four result arrays of the second pallas_call, each as one function of the arrays the region finds:
  mu's two halves (rows r and 5000 + r of the adjacency through the row formula) and out's two halves (the
  decoder's formula at the same rows).
-/
import proofs.«152953_g41188736369293_cont_8to1_b_1949_15_alg».proof.Proof.Val1W8
import proofs.«152953_g41188736369293_cont_8to1_b_1949_15_alg».proof.Proof.Val1W9
import proofs.«152953_g41188736369293_cont_8to1_b_1949_15_alg».proof.Proof.Val1W10
import proofs.«152953_g41188736369293_cont_8to1_b_1949_15_alg».proof.Proof.Val1W11
-- ==== Proof.KernelVals.lean ====
/-
  The idealized kernel's four result arrays, index by index, are the folded form of the specification of the
  fourteen argument arrays.

  The first call finds x, W1 (a change of format of the argument: the identity here), the adjacency, the first
  normalisation's scale and shift rows and W2, and leaves the two halves of t. The second call finds the adjacency,
  those two halves, the second normalisation's rows, the decoder's column and bias, and leaves the two halves of mu
  and of out. Substituting what each call finds into what it leaves gives mu and out of the folded form at rows r and
  5000 + r.
-/
import proofs.«152953_g41188736369293_cont_8to1_b_1949_15_alg».proof.Proof.HostVals
import proofs.«152953_g41188736369293_cont_8to1_b_1949_15_alg».proof.Proof.Val0Out8
import proofs.«152953_g41188736369293_cont_8to1_b_1949_15_alg».proof.Proof.Val1

set_option maxRecDepth 16384

noncomputable section

namespace Cert.KernelIdeal.KernelVals

open Cert.KernelIdeal Cert.KernelIdeal.Gen Cert.KernelIdeal.Rec
open Idealize.ShloMosaic Idealize.ShloMosaic.TcCoe Idealize.ShloMosaic.ValueIdx
open Cert.Spec (lo hi)

variable (m : (ℓ : Loc nD τ sig) → Buf (Elt Ideal) ℓ)

/-! ## The first call: t -/

/-- The generalised t depends on its six arrays only through their values. -/
theorem tG_congr {X X' : Cert.Spec.Arr Cert.Spec.S10000x128} {W1 W1' : Cert.Spec.Arr Cert.Spec.S128x128}
    {A A' : Cert.Spec.Arr Cert.Spec.S10000x10000} {S1 S1' SH1 SH1' : Cert.Spec.Arr Cert.Spec.S1x128}
    {W2 W2' : Cert.Spec.Arr Cert.Spec.S128x64} (hX : X = X') (hW1 : W1 = W1') (hA : A = A') (hS1 : S1 = S1') (hSH1 : SH1 = SH1')
    (hW2 : W2 = W2') (r : Fin 10000) (k : Fin 64) :
    Cert.Spec.tG X W1 A S1 SH1 W2 r k = Cert.Spec.tG X' W1' A' S1' SH1' W2' r k := by
  subst hX hW1 hA hS1 hSH1 hW2; rfl

/-- The scale row the first call finds is the specification's. -/
theorem v4_eq (c : Dev nD) : (Gen.V1 m c main_v4 : S1x128.Idx → EReal) = Cert.Spec.s1Row (HostVals.args m c) := funext fun j => by
  obtain ⟨z, k, rfl⟩ : ∃ (z : Fin 1) (k : Fin 128), j = ix2 z k := ⟨j 0, j 1, eq_ix2 j⟩
  rw [Subsingleton.elim z 0]
  exact HostVals.v4_at m c k

/-- The shift row the first call finds is the specification's. -/
theorem v7_eq (c : Dev nD) : (Gen.V1 m c main_v7 : S1x128.Idx → EReal) = Cert.Spec.sh1Row (HostVals.args m c) := funext fun j => by
  obtain ⟨z, k, rfl⟩ : ∃ (z : Fin 1) (k : Fin 128), j = ix2 z k := ⟨j 0, j 1, eq_ix2 j⟩
  rw [Subsingleton.elim z 0]
  exact HostVals.v7_at m c k

/-- The generalised t of what the first call finds is the specification's t. -/
theorem T_eq (c : Dev nD) (r : Fin 10000) (k : Fin 64) : Val0.T (VA m) c r k = Cert.Spec.tK (HostVals.args m c) r k :=
  (tG_congr (HostVals.arg0_eq m c) (HostVals.v18_eq m c) (HostVals.arg1_eq m c) (v4_eq m c) (v7_eq m c) (HostVals.v19_eq m c) r k).trans
    (Cert.Spec.tG_eq (HostVals.args m c) r k)

/-! ## What the second call finds -/

theorem vb_arg1 (c : Dev nD) : (VB m c main_arg1 : S10000x10000.Idx → EReal) = (HostVals.args m c).adj :=
  (W2_of_ne m c main_arg1 (by decide) (by decide)).trans (HostVals.arg1_eq m c)

theorem vb_v20_0 (c : Dev nD) (i : Fin 5000) (k : Fin 64) :
    (VB m c main_v20_0 : S5000x64.Idx → EReal) (ix2 i k) = Cert.Spec.tK (HostVals.args m c) (lo i) k := by
  have h : (VB m c main_v20_0 : S5000x64.Idx → EReal) = ((Reg0.dat0 (VA m) c).arrAt 7 cfg0.N : S5000x64.Idx → EReal) := W2_v20_0 m c
  exact (congrFun h (ix2 i k)).trans ((Val0.arrAt7_at (VA m) c i k).trans (T_eq m c (lo i) k))

theorem vb_v20_1 (c : Dev nD) (i : Fin 5000) (k : Fin 64) :
    (VB m c main_v20_1 : S5000x64.Idx → EReal) (ix2 i k) = Cert.Spec.tK (HostVals.args m c) (hi i) k := by
  have h : (VB m c main_v20_1 : S5000x64.Idx → EReal) = ((Reg0.dat0 (VA m) c).arrAt 8 cfg0.N : S5000x64.Idx → EReal) := W2_v20_1 m c
  exact (congrFun h (ix2 i k)).trans ((Val0.arrAt8_at (VA m) c i k).trans (T_eq m c (hi i) k))

theorem vb_v12 (c : Dev nD) (k : Fin 64) : (VB m c main_v12 : S1x64.Idx → EReal) (ix2 0 k) = Cert.Spec.s2 (HostVals.args m c) k := by
  have h : (VB m c main_v12 : S1x64.Idx → EReal) = (Gen.V1 m c main_v12 : S1x64.Idx → EReal) := W2_of_ne m c main_v12 (by decide) (by decide)
  exact (congrFun h (ix2 0 k)).trans (HostVals.v12_at m c k)

theorem vb_v15 (c : Dev nD) (k : Fin 64) : (VB m c main_v15 : S1x64.Idx → EReal) (ix2 0 k) = Cert.Spec.sh2 (HostVals.args m c) k := by
  have h : (VB m c main_v15 : S1x64.Idx → EReal) = (Gen.V1 m c main_v15 : S1x64.Idx → EReal) := W2_of_ne m c main_v15 (by decide) (by decide)
  exact (congrFun h (ix2 0 k)).trans (HostVals.v15_at m c k)

theorem vb_v16 (c : Dev nD) (k : Fin 64) : (VB m c main_v16 : S64x1.Idx → EReal) (ix2 k 0) = (HostVals.args m c).decW (ix2 0 k) := by
  have h : (VB m c main_v16 : S64x1.Idx → EReal) = (Gen.V1 m c main_v16 : S64x1.Idx → EReal) := W2_of_ne m c main_v16 (by decide) (by decide)
  exact (congrFun h (ix2 k 0)).trans (HostVals.v16_at m c k)

theorem vb_v17 (c : Dev nD) : (VB m c main_v17 : S1x1.Idx → EReal) (ix2 0 0) = (HostVals.args m c).decb (ix1 0) := by
  have h : (VB m c main_v17 : S1x1.Idx → EReal) = (Gen.V1 m c main_v17 : S1x1.Idx → EReal) := W2_of_ne m c main_v17 (by decide) (by decide)
  exact (congrFun h (ix2 0 0)).trans (HostVals.v17_at m c)

/-! ## The second call: mu and out -/

/-- The row formula of what the second call finds is the specification's mu. -/
theorem muRow_eq (c : Dev nD) (ρ : Fin 10000) (k : Fin 64) :
    Val.muRow (VB m c main_arg1 : S10000x10000.Idx → EReal) (VB m c main_v20_0 : S5000x64.Idx → EReal) (VB m c main_v20_1 : S5000x64.Idx → EReal)
      (VB m c main_v12 : S1x64.Idx → EReal) (VB m c main_v15 : S1x64.Idx → EReal) ρ k = Cert.Spec.muKc (HostVals.args m c) ρ k := by
  unfold Val.muRow Cert.Spec.muKc Cert.Spec.acc2K
  refine congrArg₂ (· + ·) (congrArg₂ (· * ·) (congrArg₂ (· + ·) (Finset.sum_congr rfl fun i _ => ?_) (Finset.sum_congr rfl fun i _ => ?_))
    (vb_v12 m c k)) (vb_v15 m c k)
  · exact congrArg₂ (· * ·) (congrFun (vb_arg1 m c) (ix2 ρ (lo i))) (vb_v20_0 m c i k)
  · exact congrArg₂ (· * ·) (congrFun (vb_arg1 m c) (ix2 ρ (hi i))) (vb_v20_1 m c i k)

/-- The decoder's formula of what the second call finds is the specification's out. -/
theorem outRow_eq (c : Dev nD) (ρ : Fin 10000) :
    Val.outRow (VB m c main_arg1 : S10000x10000.Idx → EReal) (VB m c main_v20_0 : S5000x64.Idx → EReal) (VB m c main_v20_1 : S5000x64.Idx → EReal)
      (VB m c main_v12 : S1x64.Idx → EReal) (VB m c main_v15 : S1x64.Idx → EReal) (VB m c main_v16 : S64x1.Idx → EReal)
      (VB m c main_v17 : S1x1.Idx → EReal) ρ = Cert.Spec.outKc (HostVals.args m c) ρ := by
  unfold Val.outRow Cert.Spec.outKc
  refine congrArg₂ (· + ·) (Finset.sum_congr rfl fun k _ => ?_) (vb_v17 m c)
  exact congrArg₂ (· * ·) (muRow_eq m c ρ k) (vb_v16 m c k)

/-! ## The four results -/

/-- Rows 0 … 4999 of mu. -/
theorem mu_lo (c : Dev nD) (r : Fin 5000) (k : Fin 64) :
    (W3 m c main_v21_0 : S5000x64.Idx → EReal) (ix2 r k) = Cert.Spec.muKc (HostVals.args m c) (lo r) k := by
  have h : (W3 m c main_v21_0 : S5000x64.Idx → EReal) = ((Reg1.dat1 (VB m) c).arrAt 8 cfg1.N : S5000x64.Idx → EReal) := W3_v21_0 m c
  exact (congrFun h (ix2 r k)).trans ((Val.arrAt8_apply (VB m) c r k).trans (muRow_eq m c (lo r) k))

/-- Rows 5000 … 9999 of mu. -/
theorem mu_hi (c : Dev nD) (r : Fin 5000) (k : Fin 64) :
    (W3 m c main_v21_1 : S5000x64.Idx → EReal) (ix2 r k) = Cert.Spec.muKc (HostVals.args m c) (hi r) k := by
  have h : (W3 m c main_v21_1 : S5000x64.Idx → EReal) = ((Reg1.dat1 (VB m) c).arrAt 9 cfg1.N : S5000x64.Idx → EReal) := W3_v21_1 m c
  exact (congrFun h (ix2 r k)).trans ((Val.arrAt9_apply (VB m) c r k).trans (muRow_eq m c (hi r) k))

/-- Rows 0 … 4999 of out. -/
theorem out_lo (c : Dev nD) (r : Fin 5000) :
    (W3 m c main_v21_2 : S5000x1.Idx → EReal) (ix2 r 0) = Cert.Spec.outKc (HostVals.args m c) (lo r) := by
  have h : (W3 m c main_v21_2 : S5000x1.Idx → EReal) = ((Reg1.dat1 (VB m) c).arrAt 10 cfg1.N : S5000x1.Idx → EReal) := W3_v21_2 m c
  exact (congrFun h (ix2 r 0)).trans ((Val.arrAt10_apply (VB m) c r).trans (outRow_eq m c (lo r)))

/-- Rows 5000 … 9999 of out. -/
theorem out_hi (c : Dev nD) (r : Fin 5000) :
    (W3 m c main_v21_3 : S5000x1.Idx → EReal) (ix2 r 0) = Cert.Spec.outKc (HostVals.args m c) (hi r) := by
  have h : (W3 m c main_v21_3 : S5000x1.Idx → EReal) = ((Reg1.dat1 (VB m) c).arrAt 11 cfg1.N : S5000x1.Idx → EReal) := W3_v21_3 m c
  exact (congrFun h (ix2 r 0)).trans ((Val.arrAt11_apply (VB m) c r).trans (outRow_eq m c (hi r)))

end Cert.KernelIdeal.KernelVals

end
-- ==== Proof.KernelRun.lean ====
/-
  The idealized kernel program's run with its results named.

  At the exact instance every weakly fair execution of the program terminates, and at the end the second result
  buffer holds mu and the first holds out, as the specification's kernel-form functions of the argument arrays:
  each half of each result is what the second pallas_call wrote for that half, and the two concatenations put
  row r of a half at row r or row 5000 + r of the whole. The argument arrays end as launched.
-/
import proofs.«152953_g41188736369293_cont_8to1_b_1949_15_alg».proof.Proof.Tail
import proofs.«152953_g41188736369293_cont_8to1_b_1949_15_alg».proof.Proof.KernelVals

set_option maxRecDepth 16384

noncomputable section

namespace Cert.KernelIdeal.KernelRun

open Cert.KernelIdeal Cert.KernelIdeal.Gen Cert.KernelIdeal.Rec Cert.KernelIdeal.RunAll
open Idealize.ShloMosaic Idealize.ShloMosaic.TcCoe Idealize.SL.Sem Idealize.ShloMosaic.ValueIdx

variable (m : (ℓ : Loc nD τ sig) → Buf (Elt Ideal) ℓ)

/-- The whole mu: rows below 5000 from the first half, the others from the second. -/
theorem v22_eq (c : Dev nD) : (Wend m c main_v22 : S10000x64.Idx → EReal) = Cert.Spec.muK (HostVals.args m c) := by
  funext j
  obtain ⟨ρ, k, rfl⟩ : ∃ (ρ : Fin 10000) (k : Fin 64), j = ix2 ρ k := ⟨j 0, j 1, eq_ix2 j⟩
  show _ = Cert.Spec.muKc (HostVals.args m c) ρ k
  by_cases h : ρ.val < 5000
  · have e : ρ = Cert.Spec.lo ⟨ρ.val, h⟩ := Fin.ext rfl
    generalize (⟨ρ.val, h⟩ : Fin 5000) = r at e
    subst e
    rw [Tail.v22_lo, KernelVals.mu_lo]
  · have e : ρ = Cert.Spec.hi ⟨ρ.val - 5000, by have := ρ.isLt; omega⟩ := Fin.ext (by show ρ.val = 5000 + (ρ.val - 5000); omega)
    generalize (⟨ρ.val - 5000, _⟩ : Fin 5000) = r at e
    subst e
    rw [Tail.v22_hi, KernelVals.mu_hi]

/-- The whole out, likewise. -/
theorem v23_eq (c : Dev nD) : (Wend m c main_v23 : S10000x1.Idx → EReal) = Cert.Spec.outK (HostVals.args m c) := by
  funext j
  obtain ⟨ρ, u, rfl⟩ : ∃ (ρ : Fin 10000) (u : Fin 1), j = ix2 ρ u := ⟨j 0, j 1, eq_ix2 j⟩
  obtain rfl : u = 0 := Subsingleton.elim _ _
  show _ = Cert.Spec.outKc (HostVals.args m c) ρ
  by_cases h : ρ.val < 5000
  · have e : ρ = Cert.Spec.lo ⟨ρ.val, h⟩ := Fin.ext rfl
    generalize (⟨ρ.val, h⟩ : Fin 5000) = r at e
    subst e
    rw [Tail.v23_lo, KernelVals.out_lo]
  · have e : ρ = Cert.Spec.hi ⟨ρ.val - 5000, by have := ρ.isLt; omega⟩ := Fin.ext (by show ρ.val = 5000 + (ρ.val - 5000); omega)
    generalize (⟨ρ.val - 5000, _⟩ : Fin 5000) = r at e
    subst e
    rw [Tail.v23_hi, KernelVals.out_hi]

/-- An argument's buffer at the end holds its launch contents: no host operation writes it and no pallas_call may change it. -/
theorem Wend_arg (c : Dev nD) (b : Ref sig .tc) (h : Gen.V4 m (outs m) c b = m ((c : Thread nD τ).loc b)) :
    Wend m c b = m ((c : Thread nD τ).loc b) := (congrFun (V4_eq m c) (Proc.devRef .tc b)).symm.trans h

/-- THE KERNEL'S RUN at the exact instance: the results at the specification's kernel-form functions of the arguments,
    the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v23) = Cert.Spec.outK (Cert.Final.kernelArgs m c)
      ∧ r.2.mem ((c.tc : Thread nD τ).loc main_v22) = Cert.Spec.muK (Cert.Final.kernelArgs m c)
      ∧ r.2.mem ((c.tc : Thread nD τ).loc main_v22) = Cert.Spec.muK (Cert.Final.kernelArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (Finset.mem_filter.mpr ⟨StableHlo.devRef_mem_tcRefs main_v23, by decide⟩)).trans (v23_eq m c),
     (h c _ (Finset.mem_filter.mpr ⟨StableHlo.devRef_mem_tcRefs main_v22, by decide⟩)).trans (v22_eq m c),
     (h c _ (Finset.mem_filter.mpr ⟨StableHlo.devRef_mem_tcRefs main_v22, by decide⟩)).trans (v22_eq m c),
     (h c _ (Finset.mem_filter.mpr ⟨StableHlo.devRef_mem_tcRefs main_arg0, by decide⟩)).trans (Wend_arg m c main_arg0 (Gen.V4_main_arg0 m (outs m) c)),
     (h c _ (Finset.mem_filter.mpr ⟨StableHlo.devRef_mem_tcRefs main_arg1, by decide⟩)).trans (Wend_arg m c main_arg1 (Gen.V4_main_arg1 m (outs m) c)),
     (h c _ (Finset.mem_filter.mpr ⟨StableHlo.devRef_mem_tcRefs main_arg2, by decide⟩)).trans (Wend_arg m c main_arg2 (Gen.V4_main_arg2 m (outs m) c)),
     (h c _ (Finset.mem_filter.mpr ⟨StableHlo.devRef_mem_tcRefs main_arg3, by decide⟩)).trans (Wend_arg m c main_arg3 (Gen.V4_main_arg3 m (outs m) c)),
     (h c _ (Finset.mem_filter.mpr ⟨StableHlo.devRef_mem_tcRefs main_arg4, by decide⟩)).trans (Wend_arg m c main_arg4 (Gen.V4_main_arg4 m (outs m) c)),
     (h c _ (Finset.mem_filter.mpr ⟨StableHlo.devRef_mem_tcRefs main_arg5, by decide⟩)).trans (Wend_arg m c main_arg5 (Gen.V4_main_arg5 m (outs m) c)),
     (h c _ (Finset.mem_filter.mpr ⟨StableHlo.devRef_mem_tcRefs main_arg6, by decide⟩)).trans (Wend_arg m c main_arg6 (Gen.V4_main_arg6 m (outs m) c)),
     (h c _ (Finset.mem_filter.mpr ⟨StableHlo.devRef_mem_tcRefs main_arg7, by decide⟩)).trans (Wend_arg m c main_arg7 (Gen.V4_main_arg7 m (outs m) c)),
     (h c _ (Finset.mem_filter.mpr ⟨StableHlo.devRef_mem_tcRefs main_arg8, by decide⟩)).trans (Wend_arg m c main_arg8 (Gen.V4_main_arg8 m (outs m) c)),
     (h c _ (Finset.mem_filter.mpr ⟨StableHlo.devRef_mem_tcRefs main_arg9, by decide⟩)).trans (Wend_arg m c main_arg9 (Gen.V4_main_arg9 m (outs m) c)),
     (h c _ (Finset.mem_filter.mpr ⟨StableHlo.devRef_mem_tcRefs main_arg10, by decide⟩)).trans (Wend_arg m c main_arg10 (Gen.V4_main_arg10 m (outs m) c)),
     (h c _ (Finset.mem_filter.mpr ⟨StableHlo.devRef_mem_tcRefs main_arg11, by decide⟩)).trans (Wend_arg m c main_arg11 (Gen.V4_main_arg11 m (outs m) c)),
     (h c _ (Finset.mem_filter.mpr ⟨StableHlo.devRef_mem_tcRefs main_arg12, by decide⟩)).trans (Wend_arg m c main_arg12 (Gen.V4_main_arg12 m (outs m) c)),
     (h c _ (Finset.mem_filter.mpr ⟨StableHlo.devRef_mem_tcRefs main_arg13, by decide⟩)).trans (Wend_arg m c main_arg13 (Gen.V4_main_arg13 m (outs m) c))⟩)
    (run_all m g)

end Cert.KernelIdeal.KernelRun

end
-- ==== Proof.lean ====
/-
  A two-layer graph convolution with eval-mode normalisation and a linear decoder, computed by two pallas_calls,
  against its plain reference — equal over the extended reals.

  With A the 10000 × 10000 adjacency, the reference computes

      h1  = max (((A · (x · W1)) - m1) / sqrt (v1 + eps) * g1 + b1) 0
      mu  = ((A · (h1 · W2)) - m2) / sqrt (v2 + eps) * g2 + b2
      out = mu · dec_Wᵀ + dec_b

  and returns (out, mu, mu). The kernel program folds each normalisation on the host into a scale and a shift per
  channel, s = g / sqrt (v + eps) and sh = b - m * s, and streams A twice, 200 rows from the top half and 200 rows
  from the bottom half at a time: the first pallas_call stores support = x · W1 once in a scratch buffer and writes
  t = max ((A_blk · support) * s1 + sh1) 0 · W2 for each row block; the second writes
  mu_blk = (A_blk[:, :5000] · t_top + A_blk[:, 5000:] · t_bot) * s2 + sh2 and out_blk = mu_blk · dec_Wᵀ + dec_b; two
  concatenations put the halves together.

  At the exact instance a change of float format is the identity and every product of matrices is the plain sum of
  products, so the two sides differ only by (1) the folded normalisation and (2) the contraction over 10000 split
  into two contractions over 5000. (2) holds for any extended reals. (1) is an identity of real numbers,
  (a - m) / q * g + b = a * (g / q) + (b - m * (g / q)), valid when every quantity is finite and q = sqrt (v + eps) is
  positive; it FAILS at v + eps = 0, where the folded scale is infinite and the folded shift is the opposite
  infinity. The precondition therefore asks, beside every input being finite, that the variance inputs v1 and v2
  are nonnegative — outside that domain the reference itself divides by zero or takes the root of a negative number.

  The three frames (each program terminates, faults nowhere, and leaves its argument arrays as launched): the two
  kernel programs' from the conditional frame over the two pallas_calls as region records — each entered by dealing
  the buffers behind its windows out of the program state, the adjacency, which two windows of each call stage, in
  two half-shares; the first call's invariant carrying the scratch, unknown before the first grid point and
  support after it — and the reference's from its run. The idealization rewrote nothing. For the values, the
  kernel's run names every buffer at the end, and both runs end at the same kernel-form functions of the arguments.
-/
import proofs.«152953_g41188736369293_cont_8to1_b_1949_15_alg».proof.Defs
import proofs.«152953_g41188736369293_cont_8to1_b_1949_15_alg».proof.Proof.Gen.Kernel
import proofs.«152953_g41188736369293_cont_8to1_b_1949_15_alg».proof.Proof.Gen.KernelIdeal
import proofs.«152953_g41188736369293_cont_8to1_b_1949_15_alg».proof.Proof.Gen.ReferenceIdeal
import proofs.«152953_g41188736369293_cont_8to1_b_1949_15_alg».proof.Proof.Gen.Pre_finite_inputs
import proofs.«152953_g41188736369293_cont_8to1_b_1949_15_alg».proof.Proof.Gen.ReferenceIdeal.Run
import proofs.«152953_g41188736369293_cont_8to1_b_1949_15_alg».proof.Proof.Bits.Segs
import proofs.«152953_g41188736369293_cont_8to1_b_1949_15_alg».proof.Proof.Segs
import proofs.«152953_g41188736369293_cont_8to1_b_1949_15_alg».proof.Proof.KernelRun
import proofs.«152953_g41188736369293_cont_8to1_b_1949_15_alg».proof.Proof.RefFinal
import Idealize.ShloMosaic.Adequacy
import Idealize.ShloMosaic.Init

noncomputable section

namespace Cert.Proof

open Idealize.ShloMosaic Idealize.SL.Sem

/-- The word-level kernel program's frame. -/
theorem frame_k : Cert.frame_Kernel := fun m ρ _ => Cert.Kernel.Segs.frame m ρ

/-- The idealized kernel program's frame. -/
theorem frame_ki : Cert.frame_KernelIdeal := fun m ρ _ => Cert.KernelIdeal.Segs.frame m ρ

/-- The reference's frame: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both runs end at out and mu as the kernel-form functions of the arguments: the kernel's by reading its
    pallas_calls' write-backs, the reference's by the folded normalisation and the split contraction. -/
theorem algebraic : Cert.algebraic_KernelIdeal_ReferenceIdeal := fun m g m' g' hpre hagree =>
  ⟨fun c => Cert.Spec.outK (Cert.Final.kernelArgs m c), fun c => Cert.Spec.muK (Cert.Final.kernelArgs m c), fun c => Cert.Spec.muK (Cert.Final.kernelArgs m c),
    Cert.KernelIdeal.KernelRun.kernel_run m g, Cert.Final.reference_run m m' g' hpre hagree⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
